-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4x2048x256 : Shape := ⟨4, ![1, 4, 2048, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S1x4x2048x256 : S_.BroadcastsInDim S1x4x2048x256 (![] : Fin 0 → Fin S1x4x2048x256.rank)
  reducesTo_S1x4x2048x256_S_d0_1_2_3 : S1x4x2048x256.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S1x4x2048x256 .f32) (main_arg1 : FVec F S768x256 .f32) (main_arg2 : FVec F S768 .f32) (main_arg3 : FVec F S256x256 .f32) (main_arg4 : FVec F S256 .f32) : IVec S_ 1 :=
  let main_v0 : FVec F S1x4x2048x256 .f32 := Host.absf main_arg0
  let main_cst : FVec F S_ .f32 := constant S_ .f32 0x7F800000#32
  let main_v1 : FVec F S1x4x2048x256 .f32 := broadcastInDim S1x4x2048x256 ![] bcast_S_S1x4x2048x256 main_cst
  let main_v2 : IVec S1x4x2048x256 1 := cmpf .olt main_v0 main_v1
  let main_c : IVec S_ 1 := constantI S_ 1 1#1
  let main_v3 : IVec S_ 1 := (fun x v => Host.reduce IntOp.andi x v reducesTo_S1x4x2048x256_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S1x4x2048x256 : Shape := ⟨4, ![1, 4, 2048, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x1x2048x256 : Shape := ⟨4, ![1, 1, 2048, 256]⟩
abbrev S512x2048 : Shape := ⟨2, ![512, 2048]⟩
abbrev S2048x256 : Shape := ⟨2, ![2048, 256]⟩
abbrev S32x256 : Shape := ⟨2, ![32, 256]⟩
abbrev S32 : Shape := ⟨1, ![32]⟩
abbrev S1x32 : Shape := ⟨2, ![1, 32]⟩
abbrev S256x32 : Shape := ⟨2, ![256, 32]⟩
abbrev S2048x32 : Shape := ⟨2, ![2048, 32]⟩
abbrev S1x1x512x256 : Shape := ⟨4, ![1, 1, 512, 256]⟩
abbrev S512x256 : Shape := ⟨2, ![512, 256]⟩
abbrev S512x32 : Shape := ⟨2, ![512, 32]⟩
abbrev S32x2048 : Shape := ⟨2, ![32, 2048]⟩
abbrev S512 : Shape := ⟨1, ![512]⟩
abbrev S512x1 : Shape := ⟨2, ![512, 1]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S1x4x2048x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S1x4x2048x256, .f32⟩
  | .local _ .vmem, ⟨0, _⟩ => ⟨S1x1x2048x256, .f32⟩
  | .local _ .vmem, ⟨1, _⟩ => ⟨S1x1x2048x256, .f32⟩
  | .local _ .vmem, ⟨2, _⟩ => ⟨S768x256, .f32⟩
  | .local _ .vmem, ⟨3, _⟩ => ⟨S768, .f32⟩
  | .local _ .vmem, ⟨4, _⟩ => ⟨S256x256, .f32⟩
  | .local _ .vmem, ⟨5, _⟩ => ⟨S256, .f32⟩
  | .local _ .vmem, ⟨6, _⟩ => ⟨S1x1x2048x256, .f32⟩
  | .local _ .vmem, ⟨7, _⟩ => ⟨S1x1x2048x256, .f32⟩
  | .local _ .vmem, ⟨8, _⟩ => ⟨S512x2048, .f32⟩
  | .local _ .vmem, ⟨9, _⟩ => ⟨S2048x256, .f32⟩
  | _, _ => ⟨S1x4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c4_i32 : BitVec 32 := 4#32
  let v25 : BitVec 32 := Scalar.addi c0_i32 c4_i32
  let c1_i32 : BitVec 32 := 1#32
  ⟨c0_i32, v25, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c512_i32 : BitVec 32 := 512#32
  let v200 : BitVec 32 := Scalar.muli arg9 c512_i32
  v200
def k0_off1 (k0_t1 : Fin k0_t1_loop.trips) : Fin 4 → Nat :=
  let c0_106 : Index := 0#32
  let c0_107 : Index := 0#32
  let c0_i32 : BitVec 32 := 0#32
  let c1_i32 : BitVec 32 := 1#32
  let arg9 : BitVec 32 := Scf.iv c0_i32 c1_i32 k0_t1
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c512_i32 : BitVec 32 := 512#32
  let v200 : BitVec 32 := Scalar.muli arg9 c512_i32
  let v201 : BitVec 32 := v200
  let v230 : Index := Scalar.indexCast v201
  let c0_119 : Index := 0#32
  ![v230.toNat, 0]
@[reducible] def k0_t2_loop : Scf.Loop 32 :=
  let c0_i32_20 : BitVec 32 := 0#32
  let c4_i32_21 : BitVec 32 := 4#32
  let v48 : BitVec 32 := Scalar.addi c0_i32_20 c4_i32_21
  let c1_i32_22 : BitVec 32 := 1#32
  ⟨c0_i32_20, v48, c1_i32_22⟩
def k0_mult2 (k0_t2 : Fin k0_t2_loop.trips) : BitVec 32 :=
  let c0_i32_20 : BitVec 32 := 0#32
  let c1_i32_22 : BitVec 32 := 1#32
  let arg9 : BitVec 32 := Scf.iv c0_i32_20 c1_i32_22 k0_t2
  let c512_i32 : BitVec 32 := 512#32
  let v200 : BitVec 32 := Scalar.muli arg9 c512_i32
  v200
def k0_off3 (k0_t2 : Fin k0_t2_loop.trips) : Fin 4 → Nat :=
  let c0_106 : Index := 0#32
  let c0_107 : Index := 0#32
  let c0_i32_20 : BitVec 32 := 0#32
  let c1_i32_22 : BitVec 32 := 1#32
  let arg9 : BitVec 32 := Scf.iv c0_i32_20 c1_i32_22 k0_t2
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off4 (k0_t2 : Fin k0_t2_loop.trips) : Fin 2 → Nat :=
  let c0_i32_20 : BitVec 32 := 0#32
  let c1_i32_22 : BitVec 32 := 1#32
  let arg9 : BitVec 32 := Scf.iv c0_i32_20 c1_i32_22 k0_t2
  let c512_i32 : BitVec 32 := 512#32
  let v200 : BitVec 32 := Scalar.muli arg9 c512_i32
  let v201 : BitVec 32 := v200
  let v230 : Index := Scalar.indexCast v201
  let c32_119 : Index := 32#32
  ![v230.toNat, 32]
@[reducible] def k0_t3_loop : Scf.Loop 32 :=
  let c0_i32_32 : BitVec 32 := 0#32
  let c4_i32_33 : BitVec 32 := 4#32
  let v71 : BitVec 32 := Scalar.addi c0_i32_32 c4_i32_33
  let c1_i32_34 : BitVec 32 := 1#32
  ⟨c0_i32_32, v71, c1_i32_34⟩
def k0_mult3 (k0_t3 : Fin k0_t3_loop.trips) : BitVec 32 :=
  let c0_i32_32 : BitVec 32 := 0#32
  let c1_i32_34 : BitVec 32 := 1#32
  let arg9 : BitVec 32 := Scf.iv c0_i32_32 c1_i32_34 k0_t3
  let c512_i32 : BitVec 32 := 512#32
  let v200 : BitVec 32 := Scalar.muli arg9 c512_i32
  v200
def k0_off5 (k0_t3 : Fin k0_t3_loop.trips) : Fin 4 → Nat :=
  let c0_106 : Index := 0#32
  let c0_107 : Index := 0#32
  let c0_i32_32 : BitVec 32 := 0#32
  let c1_i32_34 : BitVec 32 := 1#32
  let arg9 : BitVec 32 := Scf.iv c0_i32_32 c1_i32_34 k0_t3
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off6 (k0_t3 : Fin k0_t3_loop.trips) : Fin 2 → Nat :=
  let c0_i32_32 : BitVec 32 := 0#32
  let c1_i32_34 : BitVec 32 := 1#32
  let arg9 : BitVec 32 := Scf.iv c0_i32_32 c1_i32_34 k0_t3
  let c512_i32 : BitVec 32 := 512#32
  let v200 : BitVec 32 := Scalar.muli arg9 c512_i32
  let v201 : BitVec 32 := v200
  let v230 : Index := Scalar.indexCast v201
  let c64_119 : Index := 64#32
  ![v230.toNat, 64]
@[reducible] def k0_t4_loop : Scf.Loop 32 :=
  let c0_i32_44 : BitVec 32 := 0#32
  let c4_i32_45 : BitVec 32 := 4#32
  let v94 : BitVec 32 := Scalar.addi c0_i32_44 c4_i32_45
  let c1_i32_46 : BitVec 32 := 1#32
  ⟨c0_i32_44, v94, c1_i32_46⟩
def k0_mult4 (k0_t4 : Fin k0_t4_loop.trips) : BitVec 32 :=
  let c0_i32_44 : BitVec 32 := 0#32
  let c1_i32_46 : BitVec 32 := 1#32
  let arg9 : BitVec 32 := Scf.iv c0_i32_44 c1_i32_46 k0_t4
  let c512_i32 : BitVec 32 := 512#32
  let v200 : BitVec 32 := Scalar.muli arg9 c512_i32
  v200
def k0_off7 (k0_t4 : Fin k0_t4_loop.trips) : Fin 4 → Nat :=
  let c0_106 : Index := 0#32
  let c0_107 : Index := 0#32
  let c0_i32_44 : BitVec 32 := 0#32
  let c1_i32_46 : BitVec 32 := 1#32
  let arg9 : BitVec 32 := Scf.iv c0_i32_44 c1_i32_46 k0_t4
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off8 (k0_t4 : Fin k0_t4_loop.trips) : Fin 2 → Nat :=
  let c0_i32_44 : BitVec 32 := 0#32
  let c1_i32_46 : BitVec 32 := 1#32
  let arg9 : BitVec 32 := Scf.iv c0_i32_44 c1_i32_46 k0_t4
  let c512_i32 : BitVec 32 := 512#32
  let v200 : BitVec 32 := Scalar.muli arg9 c512_i32
  let v201 : BitVec 32 := v200
  let v230 : Index := Scalar.indexCast v201
  let c96_119 : Index := 96#32
  ![v230.toNat, 96]
@[reducible] def k0_t5_loop : Scf.Loop 32 :=
  let c0_i32_56 : BitVec 32 := 0#32
  let c4_i32_57 : BitVec 32 := 4#32
  let v117 : BitVec 32 := Scalar.addi c0_i32_56 c4_i32_57
  let c1_i32_58 : BitVec 32 := 1#32
  ⟨c0_i32_56, v117, c1_i32_58⟩
def k0_mult5 (k0_t5 : Fin k0_t5_loop.trips) : BitVec 32 :=
  let c0_i32_56 : BitVec 32 := 0#32
  let c1_i32_58 : BitVec 32 := 1#32
  let arg9 : BitVec 32 := Scf.iv c0_i32_56 c1_i32_58 k0_t5
  let c512_i32 : BitVec 32 := 512#32
  let v200 : BitVec 32 := Scalar.muli arg9 c512_i32
  v200
def k0_off9 (k0_t5 : Fin k0_t5_loop.trips) : Fin 4 → Nat :=
  let c0_106 : Index := 0#32
  let c0_107 : Index := 0#32
  let c0_i32_56 : BitVec 32 := 0#32
  let c1_i32_58 : BitVec 32 := 1#32
  let arg9 : BitVec 32 := Scf.iv c0_i32_56 c1_i32_58 k0_t5
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off10 (k0_t5 : Fin k0_t5_loop.trips) : Fin 2 → Nat :=
  let c0_i32_56 : BitVec 32 := 0#32
  let c1_i32_58 : BitVec 32 := 1#32
  let arg9 : BitVec 32 := Scf.iv c0_i32_56 c1_i32_58 k0_t5
  let c512_i32 : BitVec 32 := 512#32
  let v200 : BitVec 32 := Scalar.muli arg9 c512_i32
  let v201 : BitVec 32 := v200
  let v230 : Index := Scalar.indexCast v201
  let c128_119 : Index := 128#32
  ![v230.toNat, 128]
@[reducible] def k0_t6_loop : Scf.Loop 32 :=
  let c0_i32_68 : BitVec 32 := 0#32
  let c4_i32_69 : BitVec 32 := 4#32
  let v140 : BitVec 32 := Scalar.addi c0_i32_68 c4_i32_69
  let c1_i32_70 : BitVec 32 := 1#32
  ⟨c0_i32_68, v140, c1_i32_70⟩
def k0_mult6 (k0_t6 : Fin k0_t6_loop.trips) : BitVec 32 :=
  let c0_i32_68 : BitVec 32 := 0#32
  let c1_i32_70 : BitVec 32 := 1#32
  let arg9 : BitVec 32 := Scf.iv c0_i32_68 c1_i32_70 k0_t6
  let c512_i32 : BitVec 32 := 512#32
  let v200 : BitVec 32 := Scalar.muli arg9 c512_i32
  v200
def k0_off11 (k0_t6 : Fin k0_t6_loop.trips) : Fin 4 → Nat :=
  let c0_106 : Index := 0#32
  let c0_107 : Index := 0#32
  let c0_i32_68 : BitVec 32 := 0#32
  let c1_i32_70 : BitVec 32 := 1#32
  let arg9 : BitVec 32 := Scf.iv c0_i32_68 c1_i32_70 k0_t6
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off12 (k0_t6 : Fin k0_t6_loop.trips) : Fin 2 → Nat :=
  let c0_i32_68 : BitVec 32 := 0#32
  let c1_i32_70 : BitVec 32 := 1#32
  let arg9 : BitVec 32 := Scf.iv c0_i32_68 c1_i32_70 k0_t6
  let c512_i32 : BitVec 32 := 512#32
  let v200 : BitVec 32 := Scalar.muli arg9 c512_i32
  let v201 : BitVec 32 := v200
  let v230 : Index := Scalar.indexCast v201
  let c160_119 : Index := 160#32
  ![v230.toNat, 160]
@[reducible] def k0_t7_loop : Scf.Loop 32 :=
  let c0_i32_80 : BitVec 32 := 0#32
  let c4_i32_81 : BitVec 32 := 4#32
  let v163 : BitVec 32 := Scalar.addi c0_i32_80 c4_i32_81
  let c1_i32_82 : BitVec 32 := 1#32
  ⟨c0_i32_80, v163, c1_i32_82⟩
def k0_mult7 (k0_t7 : Fin k0_t7_loop.trips) : BitVec 32 :=
  let c0_i32_80 : BitVec 32 := 0#32
  let c1_i32_82 : BitVec 32 := 1#32
  let arg9 : BitVec 32 := Scf.iv c0_i32_80 c1_i32_82 k0_t7
  let c512_i32 : BitVec 32 := 512#32
  let v200 : BitVec 32 := Scalar.muli arg9 c512_i32
  v200
def k0_off13 (k0_t7 : Fin k0_t7_loop.trips) : Fin 4 → Nat :=
  let c0_106 : Index := 0#32
  let c0_107 : Index := 0#32
  let c0_i32_80 : BitVec 32 := 0#32
  let c1_i32_82 : BitVec 32 := 1#32
  let arg9 : BitVec 32 := Scf.iv c0_i32_80 c1_i32_82 k0_t7
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off14 (k0_t7 : Fin k0_t7_loop.trips) : Fin 2 → Nat :=
  let c0_i32_80 : BitVec 32 := 0#32
  let c1_i32_82 : BitVec 32 := 1#32
  let arg9 : BitVec 32 := Scf.iv c0_i32_80 c1_i32_82 k0_t7
  let c512_i32 : BitVec 32 := 512#32
  let v200 : BitVec 32 := Scalar.muli arg9 c512_i32
  let v201 : BitVec 32 := v200
  let v230 : Index := Scalar.indexCast v201
  let c192_119 : Index := 192#32
  ![v230.toNat, 192]
@[reducible] def k0_t8_loop : Scf.Loop 32 :=
  let c0_i32_92 : BitVec 32 := 0#32
  let c4_i32_93 : BitVec 32 := 4#32
  let v186 : BitVec 32 := Scalar.addi c0_i32_92 c4_i32_93
  let c1_i32_94 : BitVec 32 := 1#32
  ⟨c0_i32_92, v186, c1_i32_94⟩
def k0_mult8 (k0_t8 : Fin k0_t8_loop.trips) : BitVec 32 :=
  let c0_i32_92 : BitVec 32 := 0#32
  let c1_i32_94 : BitVec 32 := 1#32
  let arg9 : BitVec 32 := Scf.iv c0_i32_92 c1_i32_94 k0_t8
  let c512_i32 : BitVec 32 := 512#32
  let v200 : BitVec 32 := Scalar.muli arg9 c512_i32
  v200
def k0_off15 (k0_t8 : Fin k0_t8_loop.trips) : Fin 4 → Nat :=
  let c0_106 : Index := 0#32
  let c0_107 : Index := 0#32
  let c0_i32_92 : BitVec 32 := 0#32
  let c1_i32_94 : BitVec 32 := 1#32
  let arg9 : BitVec 32 := Scf.iv c0_i32_92 c1_i32_94 k0_t8
  let c512_i32 : BitVec 32 := 512#32
  let v200 : BitVec 32 := Scalar.muli arg9 c512_i32
  let v201 : BitVec 32 := v200
  let v202 : Index := Scalar.indexCast v201
  let c0_108 : Index := 0#32
  ![0, 0, v202.toNat, 0]
def k0_off16 (k0_t8 : Fin k0_t8_loop.trips) : Fin 2 → Nat :=
  let c0_i32_92 : BitVec 32 := 0#32
  let c1_i32_94 : BitVec 32 := 1#32
  let arg9 : BitVec 32 := Scf.iv c0_i32_92 c1_i32_94 k0_t8
  let c512_i32 : BitVec 32 := 512#32
  let v200 : BitVec 32 := Scalar.muli arg9 c512_i32
  let v201 : BitVec 32 := v200
  let v230 : Index := Scalar.indexCast v201
  let c224_119 : Index := 224#32
  ![v230.toNat, 224]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x1x2048x256_S1x1x2048x256_0_0_0_0 : ∀ a, (![0, 0, 0, 0] : Fin 4 → Nat) a + S1x1x2048x256.size a ≤ S1x1x2048x256.size a
  h_S1x1x2048x256 : 0 < S1x1x2048x256.numel
  shapeCasts_S1x1x2048x256_S2048x256 : S1x1x2048x256.ShapeCasts S2048x256
  bitsLt_bf16_f32 : FTy.bits .bf16 < FTy.bits .f32
  inb_S768x256_S32x256_0_0 : ∀ a, (![0, 0] : Fin 2 → Nat) a + S32x256.size a ≤ S768x256.size a
  h_S32x256 : 0 < S32x256.numel
  inb_S768x256_S32x256_256_0 : ∀ a, (![256, 0] : Fin 2 → Nat) a + S32x256.size a ≤ S768x256.size a
  inb_S768x256_S32x256_512_0 : ∀ a, (![512, 0] : Fin 2 → Nat) a + S32x256.size a ≤ S768x256.size a
  inb_S768_S32_0 : ∀ a, (![0] : Fin 1 → Nat) a + S32.size a ≤ S768.size a
  h_S32 : 0 < S32.numel
  shapeCasts_S32_S1x32 : S32.ShapeCasts S1x32
  inb_S768_S32_256 : ∀ a, (![256] : Fin 1 → Nat) a + S32.size a ≤ S768.size a
  inb_S768_S32_512 : ∀ a, (![512] : Fin 1 → Nat) a + S32.size a ≤ S768.size a
  transposes_S32x256_p1_0_S256x32 : S32x256.Transposes [1, 0] S256x32
  broadcasts_S1x32_S2048x32 : S1x32.Broadcasts S2048x32
  h_S1x1x512x256 : 0 < S1x1x512x256.numel
  shapeCasts_S1x1x512x256_S512x256 : S1x1x512x256.ShapeCasts S512x256
  broadcasts_S1x32_S512x32 : S1x32.Broadcasts S512x32
  transposes_S2048x32_p1_0_S32x2048 : S2048x32.Transposes [1, 0] S32x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  broadcasts_S512x1_S512x32 : S512x1.Broadcasts S512x32
  h_S512x32 : 0 < S512x32.numel
  shapeCasts_S512x32_S512x32 : S512x32.ShapeCasts S512x32
  inb_S768x256_S32x256_32_0 : ∀ a, (![32, 0] : Fin 2 → Nat) a + S32x256.size a ≤ S768x256.size a
  inb_S768x256_S32x256_288_0 : ∀ a, (![288, 0] : Fin 2 → Nat) a + S32x256.size a ≤ S768x256.size a
  inb_S768x256_S32x256_544_0 : ∀ a, (![544, 0] : Fin 2 → Nat) a + S32x256.size a ≤ S768x256.size a
  inb_S768_S32_32 : ∀ a, (![32] : Fin 1 → Nat) a + S32.size a ≤ S768.size a
  inb_S768_S32_288 : ∀ a, (![288] : Fin 1 → Nat) a + S32.size a ≤ S768.size a
  inb_S768_S32_544 : ∀ a, (![544] : Fin 1 → Nat) a + S32.size a ≤ S768.size a
  inb_S768x256_S32x256_64_0 : ∀ a, (![64, 0] : Fin 2 → Nat) a + S32x256.size a ≤ S768x256.size a
  inb_S768x256_S32x256_320_0 : ∀ a, (![320, 0] : Fin 2 → Nat) a + S32x256.size a ≤ S768x256.size a
  inb_S768x256_S32x256_576_0 : ∀ a, (![576, 0] : Fin 2 → Nat) a + S32x256.size a ≤ S768x256.size a
  inb_S768_S32_64 : ∀ a, (![64] : Fin 1 → Nat) a + S32.size a ≤ S768.size a
  inb_S768_S32_320 : ∀ a, (![320] : Fin 1 → Nat) a + S32.size a ≤ S768.size a
  inb_S768_S32_576 : ∀ a, (![576] : Fin 1 → Nat) a + S32.size a ≤ S768.size a
  inb_S768x256_S32x256_96_0 : ∀ a, (![96, 0] : Fin 2 → Nat) a + S32x256.size a ≤ S768x256.size a
  inb_S768x256_S32x256_352_0 : ∀ a, (![352, 0] : Fin 2 → Nat) a + S32x256.size a ≤ S768x256.size a
  inb_S768x256_S32x256_608_0 : ∀ a, (![608, 0] : Fin 2 → Nat) a + S32x256.size a ≤ S768x256.size a
  inb_S768_S32_96 : ∀ a, (![96] : Fin 1 → Nat) a + S32.size a ≤ S768.size a
  inb_S768_S32_352 : ∀ a, (![352] : Fin 1 → Nat) a + S32.size a ≤ S768.size a
  inb_S768_S32_608 : ∀ a, (![608] : Fin 1 → Nat) a + S32.size a ≤ S768.size a
  inb_S768x256_S32x256_128_0 : ∀ a, (![128, 0] : Fin 2 → Nat) a + S32x256.size a ≤ S768x256.size a
  inb_S768x256_S32x256_384_0 : ∀ a, (![384, 0] : Fin 2 → Nat) a + S32x256.size a ≤ S768x256.size a
  inb_S768x256_S32x256_640_0 : ∀ a, (![640, 0] : Fin 2 → Nat) a + S32x256.size a ≤ S768x256.size a
  inb_S768_S32_128 : ∀ a, (![128] : Fin 1 → Nat) a + S32.size a ≤ S768.size a
  inb_S768_S32_384 : ∀ a, (![384] : Fin 1 → Nat) a + S32.size a ≤ S768.size a
  inb_S768_S32_640 : ∀ a, (![640] : Fin 1 → Nat) a + S32.size a ≤ S768.size a
  inb_S768x256_S32x256_160_0 : ∀ a, (![160, 0] : Fin 2 → Nat) a + S32x256.size a ≤ S768x256.size a
  inb_S768x256_S32x256_416_0 : ∀ a, (![416, 0] : Fin 2 → Nat) a + S32x256.size a ≤ S768x256.size a
  inb_S768x256_S32x256_672_0 : ∀ a, (![672, 0] : Fin 2 → Nat) a + S32x256.size a ≤ S768x256.size a
  inb_S768_S32_160 : ∀ a, (![160] : Fin 1 → Nat) a + S32.size a ≤ S768.size a
  inb_S768_S32_416 : ∀ a, (![416] : Fin 1 → Nat) a + S32.size a ≤ S768.size a
  inb_S768_S32_672 : ∀ a, (![672] : Fin 1 → Nat) a + S32.size a ≤ S768.size a
  inb_S768x256_S32x256_192_0 : ∀ a, (![192, 0] : Fin 2 → Nat) a + S32x256.size a ≤ S768x256.size a
  inb_S768x256_S32x256_448_0 : ∀ a, (![448, 0] : Fin 2 → Nat) a + S32x256.size a ≤ S768x256.size a
  inb_S768x256_S32x256_704_0 : ∀ a, (![704, 0] : Fin 2 → Nat) a + S32x256.size a ≤ S768x256.size a
  inb_S768_S32_192 : ∀ a, (![192] : Fin 1 → Nat) a + S32.size a ≤ S768.size a
  inb_S768_S32_448 : ∀ a, (![448] : Fin 1 → Nat) a + S32.size a ≤ S768.size a
  inb_S768_S32_704 : ∀ a, (![704] : Fin 1 → Nat) a + S32.size a ≤ S768.size a
  inb_S768x256_S32x256_224_0 : ∀ a, (![224, 0] : Fin 2 → Nat) a + S32x256.size a ≤ S768x256.size a
  inb_S768x256_S32x256_480_0 : ∀ a, (![480, 0] : Fin 2 → Nat) a + S32x256.size a ≤ S768x256.size a
  inb_S768x256_S32x256_736_0 : ∀ a, (![736, 0] : Fin 2 → Nat) a + S32x256.size a ≤ S768x256.size a
  inb_S768_S32_224 : ∀ a, (![224] : Fin 1 → Nat) a + S32.size a ≤ S768.size a
  inb_S768_S32_480 : ∀ a, (![480] : Fin 1 → Nat) a + S32.size a ≤ S768.size a
  inb_S768_S32_736 : ∀ a, (![736] : Fin 1 → Nat) a + S32.size a ≤ S768.size a
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  shapeCasts_S2048x256_S1x1x2048x256 : S2048x256.ShapeCasts S1x1x2048x256
  dot_S2048x256_S256x32_S2048x32_1_0_0_1_n_n_wf : DotDims.WF S2048x256 S256x32 S2048x32 [1] [0] [0] [1] [] []
  dot_S512x256_S256x32_S512x32_1_0_0_1_n_n_wf : DotDims.WF S512x256 S256x32 S512x32 [1] [0] [0] [1] [] []
  dot_S512x32_S32x2048_S512x2048_1_0_0_1_n_n_wf : DotDims.WF S512x32 S32x2048 S512x2048 [1] [0] [0] [1] [] []
  dot_S512x2048_S2048x32_S512x32_1_0_0_1_n_n_wf : DotDims.WF S512x2048 S2048x32 S512x32 [1] [0] [0] [1] [] []
  dot_S2048x256_S256x256_S2048x256_1_0_0_1_n_n_wf : DotDims.WF S2048x256 S256x256 S2048x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S1x1x512x256.size a ≤ S1x1x2048x256.size a
  k0_off2_inb : ∀ k0_t1 : Fin k0_t1_loop.trips, ∀ a, (k0_off2 k0_t1) a + S512x32.size a ≤ S2048x256.size a
  k0_t2_ok : k0_t2_loop.OK
  k0_mult2_dvd : ∀ k0_t2 : Fin k0_t2_loop.trips, 512 ∣ (k0_mult2 k0_t2).toNat
  k0_off3_inb : ∀ k0_t2 : Fin k0_t2_loop.trips, ∀ a, (k0_off3 k0_t2) a + S1x1x512x256.size a ≤ S1x1x2048x256.size a
  k0_off4_inb : ∀ k0_t2 : Fin k0_t2_loop.trips, ∀ a, (k0_off4 k0_t2) a + S512x32.size a ≤ S2048x256.size a
  k0_t3_ok : k0_t3_loop.OK
  k0_mult3_dvd : ∀ k0_t3 : Fin k0_t3_loop.trips, 512 ∣ (k0_mult3 k0_t3).toNat
  k0_off5_inb : ∀ k0_t3 : Fin k0_t3_loop.trips, ∀ a, (k0_off5 k0_t3) a + S1x1x512x256.size a ≤ S1x1x2048x256.size a
  k0_off6_inb : ∀ k0_t3 : Fin k0_t3_loop.trips, ∀ a, (k0_off6 k0_t3) a + S512x32.size a ≤ S2048x256.size a
  k0_t4_ok : k0_t4_loop.OK
  k0_mult4_dvd : ∀ k0_t4 : Fin k0_t4_loop.trips, 512 ∣ (k0_mult4 k0_t4).toNat
  k0_off7_inb : ∀ k0_t4 : Fin k0_t4_loop.trips, ∀ a, (k0_off7 k0_t4) a + S1x1x512x256.size a ≤ S1x1x2048x256.size a
  k0_off8_inb : ∀ k0_t4 : Fin k0_t4_loop.trips, ∀ a, (k0_off8 k0_t4) a + S512x32.size a ≤ S2048x256.size a
  k0_t5_ok : k0_t5_loop.OK
  k0_mult5_dvd : ∀ k0_t5 : Fin k0_t5_loop.trips, 512 ∣ (k0_mult5 k0_t5).toNat
  k0_off9_inb : ∀ k0_t5 : Fin k0_t5_loop.trips, ∀ a, (k0_off9 k0_t5) a + S1x1x512x256.size a ≤ S1x1x2048x256.size a
  k0_off10_inb : ∀ k0_t5 : Fin k0_t5_loop.trips, ∀ a, (k0_off10 k0_t5) a + S512x32.size a ≤ S2048x256.size a
  k0_t6_ok : k0_t6_loop.OK
  k0_mult6_dvd : ∀ k0_t6 : Fin k0_t6_loop.trips, 512 ∣ (k0_mult6 k0_t6).toNat
  k0_off11_inb : ∀ k0_t6 : Fin k0_t6_loop.trips, ∀ a, (k0_off11 k0_t6) a + S1x1x512x256.size a ≤ S1x1x2048x256.size a
  k0_off12_inb : ∀ k0_t6 : Fin k0_t6_loop.trips, ∀ a, (k0_off12 k0_t6) a + S512x32.size a ≤ S2048x256.size a
  k0_t7_ok : k0_t7_loop.OK
  k0_mult7_dvd : ∀ k0_t7 : Fin k0_t7_loop.trips, 512 ∣ (k0_mult7 k0_t7).toNat
  k0_off13_inb : ∀ k0_t7 : Fin k0_t7_loop.trips, ∀ a, (k0_off13 k0_t7) a + S1x1x512x256.size a ≤ S1x1x2048x256.size a
  k0_off14_inb : ∀ k0_t7 : Fin k0_t7_loop.trips, ∀ a, (k0_off14 k0_t7) a + S512x32.size a ≤ S2048x256.size a
  k0_t8_ok : k0_t8_loop.OK
  k0_mult8_dvd : ∀ k0_t8 : Fin k0_t8_loop.trips, 512 ∣ (k0_mult8 k0_t8).toNat
  k0_off15_inb : ∀ k0_t8 : Fin k0_t8_loop.trips, ∀ a, (k0_off15 k0_t8) a + S1x1x512x256.size a ≤ S1x1x2048x256.size a
  k0_off16_inb : ∀ k0_t8 : Fin k0_t8_loop.trips, ∀ a, (k0_off16 k0_t8) a + S512x32.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x256.size a ≤ S1x4x2048x256.size a
  hwx0_0 : ∀ i : grid0.Coords, EltTy.bits .f32 = 32 ∨ (Rect.block (s := S1x4x2048x256) S1x1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048x256.size a ≤ S1x4x2048x256.size a
  hwx0_5 : ∀ i : grid0.Coords, EltTy.bits .f32 = 32 ∨ (Rect.block (s := S1x4x2048x256) S1x1x2048x256.size (cc0_transform_5 i) (hinb0_5 i)).WholeWords (EltTy.packing .f32)

variable [Facts₀]

def dot_S2048x256_S256x32_S2048x32_1_0_0_1_n_n : DotDims S2048x256 S256x32 S2048x32 where
  lhsContracting := [1]
  rhsContracting := [0]
  lhsNonContracting := [0]
  rhsNonContracting := [1]
  lhsBatch := []
  rhsBatch := []
  wf := dot_S2048x256_S256x32_S2048x32_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def dot_S512x32_S32x2048_S512x2048_1_0_0_1_n_n : DotDims S512x32 S32x2048 S512x2048 where
  lhsContracting := [1]
  rhsContracting := [0]
  lhsNonContracting := [0]
  rhsNonContracting := [1]
  lhsBatch := []
  rhsBatch := []
  wf := dot_S512x32_S32x2048_S512x2048_1_0_0_1_n_n_wf
def dot_S512x2048_S2048x32_S512x32_1_0_0_1_n_n : DotDims S512x2048 S2048x32 S512x32 where
  lhsContracting := [1]
  rhsContracting := [0]
  lhsNonContracting := [0]
  rhsNonContracting := [1]
  lhsBatch := []
  rhsBatch := []
  wf := dot_S512x2048_S2048x32_S512x32_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S1x1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x4x2048x256 : Shape := ⟨4, ![1, 4, 2048, 256]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x4x2048x768 : Shape := ⟨4, ![1, 4, 2048, 768]⟩
abbrev S1x1x1x768 : Shape := ⟨4, ![1, 1, 1, 768]⟩
abbrev S1x4x2048x3x8x32 : Shape := ⟨6, ![1, 4, 2048, 3, 8, 32]⟩
abbrev S3x1x4x8x2048x32 : Shape := ⟨6, ![3, 1, 4, 8, 2048, 32]⟩
abbrev S1x1x4x8x2048x32 : Shape := ⟨6, ![1, 1, 4, 8, 2048, 32]⟩
abbrev S1x4x8x2048x32 : Shape := ⟨5, ![1, 4, 8, 2048, 32]⟩
abbrev S1x4x8x2048x2048 : Shape := ⟨5, ![1, 4, 8, 2048, 2048]⟩
abbrev S_ : Shape := ⟨0, ![]⟩
abbrev S1x4x8x2048 : Shape := ⟨4, ![1, 4, 8, 2048]⟩
abbrev S1x4x8x2048x1 : Shape := ⟨5, ![1, 4, 8, 2048, 1]⟩
abbrev S1x4x2048x8x32 : Shape := ⟨5, ![1, 4, 2048, 8, 32]⟩
abbrev S1x1x1x256 : Shape := ⟨4, ![1, 1, 1, 256]⟩

abbrev nBuf : Space → Nat
  | .hbm => 42
  | .vmem => 0
  | .smem => 0
  | _ => 0

abbrev bufTy : (tb : Table) → Fin (tcTables nBuf tb) → BufTy
  | .hbm, ⟨0, _⟩ => ⟨S1x4x2048x256, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S1x4x2048x768, .f32⟩
  | .hbm, ⟨6, _⟩ => ⟨S1x1x1x768, .f32⟩
  | .hbm, ⟨7, _⟩ => ⟨S1x4x2048x768, .f32⟩
  | .hbm, ⟨8, _⟩ => ⟨S1x4x2048x768, .f32⟩
  | .hbm, ⟨9, _⟩ => ⟨S1x4x2048x3x8x32, .f32⟩
  | .hbm, ⟨10, _⟩ => ⟨S3x1x4x8x2048x32, .f32⟩
  | .hbm, ⟨11, _⟩ => ⟨S1x1x4x8x2048x32, .f32⟩
  | .hbm, ⟨12, _⟩ => ⟨S1x4x8x2048x32, .f32⟩
  | .hbm, ⟨13, _⟩ => ⟨S1x1x4x8x2048x32, .f32⟩
  | .hbm, ⟨14, _⟩ => ⟨S1x4x8x2048x32, .f32⟩
  | .hbm, ⟨15, _⟩ => ⟨S1x1x4x8x2048x32, .f32⟩
  | .hbm, ⟨16, _⟩ => ⟨S1x4x8x2048x32, .f32⟩
  | .hbm, ⟨17, _⟩ => ⟨S1x4x8x2048x2048, .f32⟩
  | .hbm, ⟨18, _⟩ => ⟨S_, .f32⟩
  | .hbm, ⟨19, _⟩ => ⟨S1x4x8x2048x2048, .f32⟩
  | .hbm, ⟨20, _⟩ => ⟨S1x4x8x2048x2048, .f32⟩
  | .hbm, ⟨21, _⟩ => ⟨S_, .f32⟩
  | .hbm, ⟨22, _⟩ => ⟨S1x4x8x2048, .f32⟩
  | .hbm, ⟨23, _⟩ => ⟨S_, .f32⟩
  | .hbm, ⟨24, _⟩ => ⟨S1x4x8x2048, .f32⟩
  | .hbm, ⟨25, _⟩ => ⟨S1x4x8x2048, .f32⟩
  | .hbm, ⟨26, _⟩ => ⟨S1x4x8x2048x1, .f32⟩
  | .hbm, ⟨27, _⟩ => ⟨S1x4x8x2048x2048, .f32⟩
  | .hbm, ⟨28, _⟩ => ⟨S1x4x8x2048x2048, .f32⟩
  | .hbm, ⟨29, _⟩ => ⟨S1x4x8x2048x2048, .f32⟩
  | .hbm, ⟨30, _⟩ => ⟨S_, .f32⟩
  | .hbm, ⟨31, _⟩ => ⟨S1x4x8x2048, .f32⟩
  | .hbm, ⟨32, _⟩ => ⟨S1x4x8x2048x1, .f32⟩
  | .hbm, ⟨33, _⟩ => ⟨S1x4x8x2048x2048, .f32⟩
  | .hbm, ⟨34, _⟩ => ⟨S1x4x8x2048x2048, .f32⟩
  | .hbm, ⟨35, _⟩ => ⟨S1x4x8x2048x32, .f32⟩
  | .hbm, ⟨36, _⟩ => ⟨S1x4x2048x8x32, .f32⟩
  | .hbm, ⟨37, _⟩ => ⟨S1x4x2048x256, .f32⟩
  | .hbm, ⟨38, _⟩ => ⟨S1x4x2048x256, .f32⟩
  | .hbm, ⟨39, _⟩ => ⟨S1x1x1x256, .f32⟩
  | .hbm, ⟨40, _⟩ => ⟨S1x4x2048x256, .f32⟩
  | .hbm, ⟨41, _⟩ => ⟨S1x4x2048x256, .f32⟩
  | _, _ => ⟨S1x4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S768_S1x1x1x768_3 : S768.BroadcastsInDim S1x1x1x768 (![3] : Fin 1 → Fin S1x1x1x768.rank)
  bcast_S1x1x1x768_S1x4x2048x768_0_1_2_3 : S1x1x1x768.BroadcastsInDim S1x4x2048x768 (![0, 1, 2, 3] : Fin 4 → Fin S1x4x2048x768.rank)
  shapeCasts_S1x4x2048x768_S1x4x2048x3x8x32 : S1x4x2048x768.ShapeCasts S1x4x2048x3x8x32
  transposes_S1x4x2048x3x8x32_S3x1x4x8x2048x32_3_0_1_4_2_5 : S1x4x2048x3x8x32.Transposes [3, 0, 1, 4, 2, 5] S3x1x4x8x2048x32
  slices_S3x1x4x8x2048x32_S1x1x4x8x2048x32_0_0_0_0_0_0 : S3x1x4x8x2048x32.Slices ![0, 0, 0, 0, 0, 0] S1x1x4x8x2048x32
  shapeCasts_S1x1x4x8x2048x32_S1x4x8x2048x32 : S1x1x4x8x2048x32.ShapeCasts S1x4x8x2048x32
  slices_S3x1x4x8x2048x32_S1x1x4x8x2048x32_1_0_0_0_0_0 : S3x1x4x8x2048x32.Slices ![1, 0, 0, 0, 0, 0] S1x1x4x8x2048x32
  slices_S3x1x4x8x2048x32_S1x1x4x8x2048x32_2_0_0_0_0_0 : S3x1x4x8x2048x32.Slices ![2, 0, 0, 0, 0, 0] S1x1x4x8x2048x32
  bcast_S_S1x4x8x2048x2048 : S_.BroadcastsInDim S1x4x8x2048x2048 (![] : Fin 0 → Fin S1x4x8x2048x2048.rank)
  reducesTo_S1x4x8x2048x2048_S1x4x8x2048_d4 : S1x4x8x2048x2048.ReducesTo [4] S1x4x8x2048
  h_S_ : 0 < S_.numel
  bcast_S_S1x4x8x2048 : S_.BroadcastsInDim S1x4x8x2048 (![] : Fin 0 → Fin S1x4x8x2048.rank)
  bcast_S1x4x8x2048_S1x4x8x2048x1_0_1_2_3 : S1x4x8x2048.BroadcastsInDim S1x4x8x2048x1 (![0, 1, 2, 3] : Fin 4 → Fin S1x4x8x2048x1.rank)
  bcast_S1x4x8x2048x1_S1x4x8x2048x2048_0_1_2_3_4 : S1x4x8x2048x1.BroadcastsInDim S1x4x8x2048x2048 (![0, 1, 2, 3, 4] : Fin 5 → Fin S1x4x8x2048x2048.rank)
  transposes_S1x4x8x2048x32_S1x4x2048x8x32_0_1_3_2_4 : S1x4x8x2048x32.Transposes [0, 1, 3, 2, 4] S1x4x2048x8x32
  shapeCasts_S1x4x2048x8x32_S1x4x2048x256 : S1x4x2048x8x32.ShapeCasts S1x4x2048x256
  bcast_S256_S1x1x1x256_3 : S256.BroadcastsInDim S1x1x1x256 (![3] : Fin 1 → Fin S1x1x1x256.rank)
  bcast_S1x1x1x256_S1x4x2048x256_0_1_2_3 : S1x1x1x256.BroadcastsInDim S1x4x2048x256 (![0, 1, 2, 3] : Fin 4 → Fin S1x4x2048x256.rank)
  dot_S1x4x2048x256_S768x256_S1x4x2048x768_3_1_012_0_n_n_wf : DotDims.WF S1x4x2048x256 S768x256 S1x4x2048x768 [3] [1] [0, 1, 2] [0] [] []
  dot_S1x4x8x2048x32_S1x4x8x2048x32_S1x4x8x2048x2048_4_4_3_3_012_012_wf : DotDims.WF S1x4x8x2048x32 S1x4x8x2048x32 S1x4x8x2048x2048 [4] [4] [3] [3] [0, 1, 2] [0, 1, 2]
  dot_S1x4x8x2048x2048_S1x4x8x2048x32_S1x4x8x2048x32_4_3_3_4_012_012_wf : DotDims.WF S1x4x8x2048x2048 S1x4x8x2048x32 S1x4x8x2048x32 [4] [3] [3] [4] [0, 1, 2] [0, 1, 2]
  dot_S1x4x2048x256_S256x256_S1x4x2048x256_3_1_012_0_n_n_wf : DotDims.WF S1x4x2048x256 S256x256 S1x4x2048x256 [3] [1] [0, 1, 2] [0] [] []

variable [Facts₀]

def dot_S1x4x2048x256_S768x256_S1x4x2048x768_3_1_012_0_n_n : DotDims S1x4x2048x256 S768x256 S1x4x2048x768 where
  lhsContracting := [3]
  rhsContracting := [1]
  lhsNonContracting := [0, 1, 2]
  rhsNonContracting := [0]
  lhsBatch := []
  rhsBatch := []
  wf := dot_S1x4x2048x256_S768x256_S1x4x2048x768_3_1_012_0_n_n_wf
def dot_S1x4x8x2048x32_S1x4x8x2048x32_S1x4x8x2048x2048_4_4_3_3_012_012 : DotDims S1x4x8x2048x32 S1x4x8x2048x32 S1x4x8x2048x2048 where
  lhsContracting := [4]
  rhsContracting := [4]
  lhsNonContracting := [3]
  rhsNonContracting := [3]
  lhsBatch := [0, 1, 2]
  rhsBatch := [0, 1, 2]
  wf := dot_S1x4x8x2048x32_S1x4x8x2048x32_S1x4x8x2048x2048_4_4_3_3_012_012_wf
def dot_S1x4x8x2048x2048_S1x4x8x2048x32_S1x4x8x2048x32_4_3_3_4_012_012 : DotDims S1x4x8x2048x2048 S1x4x8x2048x32 S1x4x8x2048x32 where
  lhsContracting := [4]
  rhsContracting := [3]
  lhsNonContracting := [3]
  rhsNonContracting := [4]
  lhsBatch := [0, 1, 2]
  rhsBatch := [0, 1, 2]
  wf := dot_S1x4x8x2048x2048_S1x4x8x2048x32_S1x4x8x2048x32_4_3_3_4_012_012_wf
def dot_S1x4x2048x256_S256x256_S1x4x2048x256_3_1_012_0_n_n : DotDims S1x4x2048x256 S256x256 S1x4x2048x256 where
  lhsContracting := [3]
  rhsContracting := [1]
  lhsNonContracting := [0, 1, 2]
  rhsNonContracting := [0]
  lhsBatch := []
  rhsBatch := []
  wf := dot_S1x4x2048x256_S256x256_S1x4x2048x256_3_1_012_0_n_n_wf

class Facts : Prop extends Facts₀ where

variable [Facts]
-- ==== Proof.LibTileStrip.lean ====
/-
  A 2048 x 256 BUFFER AFTER FOUR 512 x 32 TILE STORES DOWN ONE 32-COLUMN STRIP, READ AS ONE FUNCTION.

  Four stores, one per 512-row band j = 0..3, each through the unit-stride rectangle at offsets (512 j, 32 h) of sizes
  (512, 32), fill exactly the columns 32 h .. 32 h + 31 of the buffer. Reading the buffer afterwards gives, at an index
  (r, c) of that strip, band r / 512's payload at (r % 512, c % 32), and at every other index what the buffer held before
  — whatever the order of the stores (the bands are disjoint) and whatever the buffer held.
-/
import Idealize.ShloMosaic.Lib.Writes
import Idealize.ShloMosaic.Lib.ValueIdx

namespace Idealize.ShloMosaic.TileStrip

open Idealize.ShloMosaic Idealize.ShloMosaic.ValueIdx

/-- The buffer's shape and a tile's sizes. -/
abbrev SBuf : Shape := ⟨2, ![2048, 256]⟩
abbrev tile : Fin 2 → ℕ := ![512, 32]
abbrev STile : Shape := ⟨2, ![512, 32]⟩

variable {sig : RefSig} {κ : Kind} {sp : Space} {e : EltTy} {Val : EltTy → Type}

/-- The band of a buffer index, and its position inside its tile. -/
def band (y : SBuf.Idx) : Fin 4 :=
  ⟨(y 0).val / 512, by have h0 : (y 0).val < 2048 := (y 0).isLt; omega⟩
def local_ (y : SBuf.Idx) : STile.Idx :=
  ix2 ⟨(y 0).val % 512, Nat.mod_lt _ (by norm_num)⟩ ⟨(y 1).val % 32, Nat.mod_lt _ (by norm_num)⟩

/-- The four bands' payloads as one function of the buffer index. -/
def stripFn (s : Fin 4 → STile.Idx → Val e) (y : SBuf.Idx) : Val e := s (band y) (local_ y)

section
variable (h : ℕ) (off : Fin 4 → Fin 2 → ℕ) (inb : ∀ j a, off j a + tile a ≤ SBuf.size a)
  (hoff0 : ∀ j : Fin 4, off j 0 = 512 * j.val) (hoff1 : ∀ j : Fin 4, off j 1 = 32 * h)
  (s : Fin 4 → STile.Idx → Val e)

/-- Band j's store. -/
def piece (j : Fin 4) : View.Piece Val SBuf e := ⟨Rect.unit (s := SBuf) (off j) tile (inb j), s j⟩

include hoff0 hoff1 in
theorem emb_val (j : Fin 4) (x : STile.Idx) :
    (((Rect.unit (s := SBuf) (off j) tile (inb j)).emb x) 0).val = 512 * j.val + (x 0).val
    ∧ (((Rect.unit (s := SBuf) (off j) tile (inb j)).emb x) 1).val = 32 * h + (x 1).val := by
  refine ⟨?_, ?_⟩
  · rw [Rect.emb_apply, Rect.off_unit, Rect.stride_unit, hoff0, Nat.one_mul]
  · rw [Rect.emb_apply, Rect.off_unit, Rect.stride_unit, hoff1, Nat.one_mul]

include hoff0 hoff1 in
/-- Each store's payload is the strip function on its rectangle. -/
theorem piece_agree (j : Fin 4) (x : STile.Idx) :
    s j x = stripFn s ((Rect.unit (s := SBuf) (off j) tile (inb j)).emb x) := by
  have hx0 : (x 0).val < 512 := (x 0).isLt
  have hx1 : (x 1).val < 32 := (x 1).isLt
  obtain ⟨e0, e1⟩ := emb_val h off inb hoff0 hoff1 j x
  have hb : band ((Rect.unit (s := SBuf) (off j) tile (inb j)).emb x) = j := Fin.ext (by
    show (((Rect.unit (s := SBuf) (off j) tile (inb j)).emb x) 0).val / 512 = j.val
    rw [e0]; omega)
  have hl : local_ ((Rect.unit (s := SBuf) (off j) tile (inb j)).emb x) = x := by
    funext a
    refine Fin.ext ?_
    match a with
    | ⟨0, _⟩ =>
      show (((Rect.unit (s := SBuf) (off j) tile (inb j)).emb x) 0).val % 512 = (x 0).val
      rw [e0]; omega
    | ⟨1, _⟩ =>
      show (((Rect.unit (s := SBuf) (off j) tile (inb j)).emb x) 1).val % 32 = (x 1).val
      rw [e1]; omega
  unfold stripFn
  rw [hb, hl]

include hoff0 hoff1 in
/-- An index is under band j's store exactly when it is in band j of strip h. -/
theorem mem_piece (j : Fin 4) (y : SBuf.Idx) :
    y ∈ (Rect.unit (s := SBuf) (off j) tile (inb j)).set ↔ ((y 0).val / 512 = j.val ∧ (y 1).val / 32 = h) := by
  rw [Rect.mem_set_unit]
  have hj := j.isLt
  constructor
  · intro hm
    have m0 := hm 0
    have m1 := hm 1
    rw [hoff0] at m0
    rw [hoff1] at m1
    have t0 : tile 0 = 512 := rfl
    have t1 : tile 1 = 32 := rfl
    rw [t0] at m0
    rw [t1] at m1
    omega
  · rintro ⟨h0, h1⟩ a
    match a with
    | ⟨0, _⟩ =>
      show off j 0 ≤ (y 0).val ∧ (y 0).val < off j 0 + 512
      rw [hoff0]; omega
    | ⟨1, _⟩ =>
      show off j 1 ≤ (y 1).val ∧ (y 1).val < off j 1 + 32
      rw [hoff1]; omega

include hoff0 hoff1 in
/-- The buffer after the four stores: the strip function on strip h, the earlier contents elsewhere. -/
theorem read_strip (v : View sig κ sp SBuf e) (G : v.ty.Contents Val) :
    v.read Val (v.writes Val G [piece off inb s 3, piece off inb s 2, piece off inb s 1, piece off inb s 0])
      = fun y => if (y 1).val / 32 = h then stripFn s y else v.read Val G y := by
  funext y
  have hmemL : ∀ p ∈ [piece off inb s 3, piece off inb s 2, piece off inb s 1, piece off inb s 0],
      ∃ j : Fin 4, p = piece off inb s j := by
    intro p hp
    simp only [List.mem_cons, List.mem_nil_iff, or_false] at hp
    rcases hp with rfl | rfl | rfl | rfl
    exacts [⟨3, rfl⟩, ⟨2, rfl⟩, ⟨1, rfl⟩, ⟨0, rfl⟩]
  have hLmem : ∀ j : Fin 4, piece off inb s j ∈ [piece off inb s 3, piece off inb s 2, piece off inb s 1, piece off inb s 0] := by
    intro j
    match j with
    | ⟨0, _⟩ => simp
    | ⟨1, _⟩ => simp
    | ⟨2, _⟩ => simp
    | ⟨3, _⟩ => simp
  by_cases hy : (y 1).val / 32 = h
  · rw [if_pos hy]
    refine View.read_writes_apply_of_pieces v G (stripFn s) _ ?_ y ?_
    · intro p hp x
      obtain ⟨j, rfl⟩ := hmemL p hp
      exact piece_agree h off inb hoff0 hoff1 s j x
    · exact ⟨piece off inb s (band y), hLmem _, (mem_piece h off inb hoff0 hoff1 (band y) y).mpr ⟨rfl, hy⟩⟩
  · rw [if_neg hy]
    refine View.read_writes_apply_of_forall_not_mem v G y _ ?_
    intro p hp hm
    obtain ⟨j, rfl⟩ := hmemL p hp
    exact hy ((mem_piece h off inb hoff0 hoff1 j y).mp hm).2

end

end Idealize.ShloMosaic.TileStrip
-- ==== Proof.StripsK.lean ====
/-
  WHAT THE EIGHT QUERY-TILE LOOPS LEAVE IN THE HEAD-OUTPUT SCRATCH, at any float instance.

  Head h (h = 0..7) is handled by one 4-trip loop. Trip j loads rows 512 j .. 512 j + 511 of the sequence tile, stores the
  scaled scores of those 512 queries against all 2048 keys into the score scratch, loads them back, and stores the
  head's 512 x 32 output tile into the head-output scratch at rows 512 j .., columns 32 h ... So after the loop the
  head-output scratch holds, on columns 32 h .. 32 h + 31, the four tiles' payloads as one function of the index, and
  elsewhere what it held when the loop was entered — whatever the score scratch and the head-output scratch held before:
  each trip's tile payload is a function of the operands the loop was entered with and of the trip alone.
-/
import proofs.«127032_j4604204941406_2_alg».proof.Proof.Gen.Kernel.Loops
import proofs.«127032_j4604204941406_2_alg».proof.Proof.LibTileStrip
import Idealize.ShloMosaic.Lib.Pipeline.Value
import Idealize.ShloMosaic.Lib.Tactic

set_option maxRecDepth 16384

noncomputable section

namespace Cert.Kernel.GenP

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The whole-shape rectangle's offsets, spelt as a literal pair, are the zero offsets. -/
theorem zero2 : (![0, 0] : Fin 2 → ℕ) = fun _ => 0 := by
  funext a; match a with | ⟨0, _⟩ => rfl | ⟨1, _⟩ => rfl

/-! ## Head 0: the loop `k0_t1_loop` -/

theorem trips_t1 : k0_t1_loop.trips = 4 := by decide

/-- Trip j of the loop, for j below 4. -/
abbrev tr1 (j : Fin 4) : Fin k0_t1_loop.trips := Fin.cast trips_t1.symm j

/-- The output tile trip j stores: the head's payload of that trip's 512 query rows. -/
def strip_t1 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (j : Fin 4) : TileStrip.STile.Idx → Elt F .f32 :=
  (k0_pay6 v0 v7 v13 (k0_pay5 v0 v3 v5 v9 v11 (View.readAt (Elt F) arg1.view (Rect.unit (s := S1x1x2048x256) (k0_off1 (tr1 j)) S1x1x512x256.size (k0_off1_inb (tr1 j))).toLoadRect X_arg1)))

/-- One trip stores exactly that tile, at rows 512 k .., columns 0 .., whatever the two scratch buffers held. -/
theorem trip_t1_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (k : Fin k0_t1_loop.trips) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 v0 v3 v5 v7 v9 v11 v13 X_arg1 k).2.1 f7 f8
      = [⟨Rect.unit (s := S2048x256) (k0_off2 k) S512x32.size (k0_off2_inb k), (k0_pay6 v0 v7 v13 (k0_pay5 v0 v3 v5 v9 v11 (View.readAt (Elt F) arg1.view (Rect.unit (s := S1x1x2048x256) (k0_off1 k) S1x1x512x256.size (k0_off1_inb k)).toLoadRect X_arg1)))⟩] := by
  unfold trip_k0_t1
  dsimp only
  sl_unfold_run_names
  rw [View.readCov_unit_zero _ zero2]

/-- The four trips' stores into the head-output scratch, last first. -/
theorem pb_t1_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) :
    (pb_k0_t1 (F := F) 𝒱 c bd i arg1 harg1 arg2 harg2 arg3 harg3 arg4 harg4 arg5 harg5 arg6 harg6 arg7 harg7 arg8 harg8 v0 v3 v5 v7 v9 v11 v13 X_arg1 G7 G8 4).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 3,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 2,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
  have e0 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 0).val).2 = [] := rfl
  have e1 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 1).val).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
    show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 0).val + 1)).2 = _
    rw [pb_k0_t1_succ]; dsimp only; rw [trip_t1_snd, e0]; rfl
  have e2 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 2).val).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
    show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 1).val + 1)).2 = _
    rw [pb_k0_t1_succ]; dsimp only; rw [trip_t1_snd, e1]; rfl
  have e3 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 3).val).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 2,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
    show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 2).val + 1)).2 = _
    rw [pb_k0_t1_succ]; dsimp only; rw [trip_t1_snd, e2]; rfl
  show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 3).val + 1)).2 = _
  rw [pb_k0_t1_succ]; dsimp only; rw [trip_t1_snd, e3]; rfl

/-- The four stores, whatever the trip count is called. -/
theorem pb_t1_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t1 (F := F) 𝒱 c bd i arg1 harg1 arg2 harg2 arg3 harg3 arg4 harg4 arg5 harg5 arg6 harg6 arg7 harg7 arg8 harg8 v0 v3 v5 v7 v9 v11 v13 X_arg1 G7 G8 n).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 3,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 2,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
  subst hn; exact pb_t1_snd (F := F) 𝒱 c bd i arg1 harg1 arg2 harg2 arg3 harg3 arg4 harg4 arg5 harg5 arg6 harg6 arg7 harg7 arg8 harg8 v0 v3 v5 v7 v9 v11 v13 X_arg1 G7 G8

/-- The head-output scratch after the loop: head 0's four tiles on columns 0 .. 31, the earlier contents elsewhere. -/
theorem read_after_t1 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 v0 v3 v5 v7 v9 v11 v13 X_arg1 G7 G8 k0_t1_loop.trips).2)
      = fun y => if (y 1).val / 32 = 0 then TileStrip.stripFn (strip_t1 (F := F) 𝒱 c bd i arg1 harg1 arg2 harg2 arg3 harg3 arg4 harg4 arg5 harg5 arg6 harg6 arg7 harg7 arg8 harg8 v0 v3 v5 v7 v9 v11 v13 X_arg1) y else arg8.view.read (Elt F) f y := by
  rw [pb_t1_trips (F := F) 𝒱 c bd i arg1 harg1 arg2 harg2 arg3 harg3 arg4 harg4 arg5 harg5 arg6 harg6 arg7 harg7 arg8 harg8 v0 v3 v5 v7 v9 v11 v13 X_arg1 G7 G8 _ trips_t1]
  exact TileStrip.read_strip 0 (fun j => k0_off2 (tr1 j)) (fun j => k0_off2_inb (tr1 j))
    (fun j => by rw [k0_off2_eq]; rfl) (fun j => by rw [k0_off2_eq]; rfl) (strip_t1 (F := F) 𝒱 c bd i arg1 harg1 arg2 harg2 arg3 harg3 arg4 harg4 arg5 harg5 arg6 harg6 arg7 harg7 arg8 harg8 v0 v3 v5 v7 v9 v11 v13 X_arg1) arg8.view f

/-- The same when the loop's stores sit in front of earlier ones: those are read where head 0's columns end. -/
theorem read_after_t1_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t1 (F := F) 𝒱 c bd i arg1 harg1 arg2 harg2 arg3 harg3 arg4 harg4 arg5 harg5 arg6 harg6 arg7 harg7 arg8 harg8 v0 v3 v5 v7 v9 v11 v13 X_arg1 G7 G8 k0_t1_loop.trips).2 ++ L))
      = fun y => if (y 1).val / 32 = 0 then TileStrip.stripFn (strip_t1 (F := F) 𝒱 c bd i arg1 harg1 arg2 harg2 arg3 harg3 arg4 harg4 arg5 harg5 arg6 harg6 arg7 harg7 arg8 harg8 v0 v3 v5 v7 v9 v11 v13 X_arg1) y else arg8.view.read (Elt F) (arg8.view.writes (Elt F) f L) y := by
  rw [View.writes_append]
  exact read_after_t1 (F := F) 𝒱 c bd i arg1 harg1 arg2 harg2 arg3 harg3 arg4 harg4 arg5 harg5 arg6 harg6 arg7 harg7 arg8 harg8 v0 v3 v5 v7 v9 v11 v13 X_arg1 G7 G8 _

/-! ## Head 1: the loop `k0_t2_loop` -/

theorem trips_t2 : k0_t2_loop.trips = 4 := by decide

/-- Trip j of the loop, for j below 4. -/
abbrev tr2 (j : Fin 4) : Fin k0_t2_loop.trips := Fin.cast trips_t2.symm j

/-- The output tile trip j stores: the head's payload of that trip's 512 query rows. -/
def strip_t2 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (j : Fin 4) : TileStrip.STile.Idx → Elt F .f32 :=
  (k0_pay11 v2 v31 v36 (k0_pay10 v2 v27 v29 v32 v34 (View.readAt (Elt F) arg1.view (Rect.unit (s := S1x1x2048x256) (k0_off3 (tr2 j)) S1x1x512x256.size (k0_off3_inb (tr2 j))).toLoadRect X_arg1)))

/-- One trip stores exactly that tile, at rows 512 k .., columns 32 .., whatever the two scratch buffers held. -/
theorem trip_t2_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (k : Fin k0_t2_loop.trips) (f7 : BufTy.Contents (Elt F) arg7.view.ty) (f8 : BufTy.Contents (Elt F) arg8.view.ty) :
    (trip_k0_t2 (F := F) 𝒱 c bd i arg1 harg1 arg2 harg2 arg3 harg3 arg4 harg4 arg5 harg5 arg6 harg6 arg7 harg7 arg8 harg8 v2 v27 v29 v31 v32 v34 v36 X_arg1 k).2.1 f7 f8
      = [⟨Rect.unit (s := S2048x256) (k0_off4 k) S512x32.size (k0_off4_inb k), (k0_pay11 v2 v31 v36 (k0_pay10 v2 v27 v29 v32 v34 (View.readAt (Elt F) arg1.view (Rect.unit (s := S1x1x2048x256) (k0_off3 k) S1x1x512x256.size (k0_off3_inb k)).toLoadRect X_arg1)))⟩] := by
  unfold trip_k0_t2
  dsimp only
  sl_unfold_run_names
  rw [View.readCov_unit_zero _ zero2]

/-- The four trips' stores into the head-output scratch, last first. -/
theorem pb_t2_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) :
    (pb_k0_t2 (F := F) 𝒱 c bd i arg1 harg1 arg2 harg2 arg3 harg3 arg4 harg4 arg5 harg5 arg6 harg6 arg7 harg7 arg8 harg8 v2 v27 v29 v31 v32 v34 v36 X_arg1 G7 G8 4).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 3,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 2,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
  have e0 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 0).val).2 = [] := rfl
  have e1 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 1).val).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
    show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 0).val + 1)).2 = _
    rw [pb_k0_t2_succ]; dsimp only; rw [trip_t2_snd, e0]; rfl
  have e2 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 2).val).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
    show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 1).val + 1)).2 = _
    rw [pb_k0_t2_succ]; dsimp only; rw [trip_t2_snd, e1]; rfl
  have e3 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 3).val).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 2,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
    show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 2).val + 1)).2 = _
    rw [pb_k0_t2_succ]; dsimp only; rw [trip_t2_snd, e2]; rfl
  show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 3).val + 1)).2 = _
  rw [pb_k0_t2_succ]; dsimp only; rw [trip_t2_snd, e3]; rfl

/-- The four stores, whatever the trip count is called. -/
theorem pb_t2_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t2 (F := F) 𝒱 c bd i arg1 harg1 arg2 harg2 arg3 harg3 arg4 harg4 arg5 harg5 arg6 harg6 arg7 harg7 arg8 harg8 v2 v27 v29 v31 v32 v34 v36 X_arg1 G7 G8 n).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 3,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 2,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
  subst hn; exact pb_t2_snd (F := F) 𝒱 c bd i arg1 harg1 arg2 harg2 arg3 harg3 arg4 harg4 arg5 harg5 arg6 harg6 arg7 harg7 arg8 harg8 v2 v27 v29 v31 v32 v34 v36 X_arg1 G7 G8

/-- The head-output scratch after the loop: head 1's four tiles on columns 32 .. 63, the earlier contents elsewhere. -/
theorem read_after_t2 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t2 (F := F) 𝒱 c bd i arg1 harg1 arg2 harg2 arg3 harg3 arg4 harg4 arg5 harg5 arg6 harg6 arg7 harg7 arg8 harg8 v2 v27 v29 v31 v32 v34 v36 X_arg1 G7 G8 k0_t2_loop.trips).2)
      = fun y => if (y 1).val / 32 = 1 then TileStrip.stripFn (strip_t2 (F := F) 𝒱 c bd i arg1 harg1 arg2 harg2 arg3 harg3 arg4 harg4 arg5 harg5 arg6 harg6 arg7 harg7 arg8 harg8 v2 v27 v29 v31 v32 v34 v36 X_arg1) y else arg8.view.read (Elt F) f y := by
  rw [pb_t2_trips (F := F) 𝒱 c bd i arg1 harg1 arg2 harg2 arg3 harg3 arg4 harg4 arg5 harg5 arg6 harg6 arg7 harg7 arg8 harg8 v2 v27 v29 v31 v32 v34 v36 X_arg1 G7 G8 _ trips_t2]
  exact TileStrip.read_strip 1 (fun j => k0_off4 (tr2 j)) (fun j => k0_off4_inb (tr2 j))
    (fun j => by rw [k0_off4_eq]; rfl) (fun j => by rw [k0_off4_eq]; rfl) (strip_t2 (F := F) 𝒱 c bd i arg1 harg1 arg2 harg2 arg3 harg3 arg4 harg4 arg5 harg5 arg6 harg6 arg7 harg7 arg8 harg8 v2 v27 v29 v31 v32 v34 v36 X_arg1) arg8.view f

/-- The same when the loop's stores sit in front of earlier ones: those are read where head 1's columns end. -/
theorem read_after_t2_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t2 (F := F) 𝒱 c bd i arg1 harg1 arg2 harg2 arg3 harg3 arg4 harg4 arg5 harg5 arg6 harg6 arg7 harg7 arg8 harg8 v2 v27 v29 v31 v32 v34 v36 X_arg1 G7 G8 k0_t2_loop.trips).2 ++ L))
      = fun y => if (y 1).val / 32 = 1 then TileStrip.stripFn (strip_t2 (F := F) 𝒱 c bd i arg1 harg1 arg2 harg2 arg3 harg3 arg4 harg4 arg5 harg5 arg6 harg6 arg7 harg7 arg8 harg8 v2 v27 v29 v31 v32 v34 v36 X_arg1) y else arg8.view.read (Elt F) (arg8.view.writes (Elt F) f L) y := by
  rw [View.writes_append]
  exact read_after_t2 (F := F) 𝒱 c bd i arg1 harg1 arg2 harg2 arg3 harg3 arg4 harg4 arg5 harg5 arg6 harg6 arg7 harg7 arg8 harg8 v2 v27 v29 v31 v32 v34 v36 X_arg1 G7 G8 _

/-! ## Head 2: the loop `k0_t3_loop` -/

theorem trips_t3 : k0_t3_loop.trips = 4 := by decide

/-- Trip j of the loop, for j below 4. -/
abbrev tr3 (j : Fin 4) : Fin k0_t3_loop.trips := Fin.cast trips_t3.symm j

/-- The output tile trip j stores: the head's payload of that trip's 512 query rows. -/
def strip_t3 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (j : Fin 4) : TileStrip.STile.Idx → Elt F .f32 :=
  (k0_pay17 v70 (k0_pay16 v50 v56 v69 (View.readAt (Elt F) arg1.view (Rect.unit (s := S1x1x2048x256) (k0_off5 (tr3 j)) S1x1x512x256.size (k0_off5_inb (tr3 j))).toLoadRect X_arg1)))

/-- One trip stores exactly that tile, at rows 512 k .., columns 64 .., whatever the two scratch buffers held. -/
theorem trip_t3_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (k : Fin k0_t3_loop.trips) (f7 : BufTy.Contents (Elt F) arg7.view.ty) (f8 : BufTy.Contents (Elt F) arg8.view.ty) :
    (trip_k0_t3 (F := F) 𝒱 c bd i arg1 harg1 arg2 harg2 arg3 harg3 arg4 harg4 arg5 harg5 arg6 harg6 arg7 harg7 arg8 harg8 v2 v50 v56 v69 v70 c0_i32_32 X_arg1 k).2.1 f7 f8
      = [⟨Rect.unit (s := S2048x256) (k0_off6 k) S512x32.size (k0_off6_inb k), (k0_pay17 v70 (k0_pay16 v50 v56 v69 (View.readAt (Elt F) arg1.view (Rect.unit (s := S1x1x2048x256) (k0_off5 k) S1x1x512x256.size (k0_off5_inb k)).toLoadRect X_arg1)))⟩] := by
  unfold trip_k0_t3
  dsimp only
  sl_unfold_run_names
  rw [View.readCov_unit_zero _ zero2]

/-- The four trips' stores into the head-output scratch, last first. -/
theorem pb_t3_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) :
    (pb_k0_t3 (F := F) 𝒱 c bd i arg1 harg1 arg2 harg2 arg3 harg3 arg4 harg4 arg5 harg5 arg6 harg6 arg7 harg7 arg8 harg8 v2 v50 v56 v69 v70 c0_i32_32 X_arg1 G7 G8 4).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 3,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 2,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
  have e0 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 0).val).2 = [] := rfl
  have e1 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 1).val).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
    show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 0).val + 1)).2 = _
    rw [pb_k0_t3_succ]; dsimp only; rw [trip_t3_snd, e0]; rfl
  have e2 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 2).val).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
    show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 1).val + 1)).2 = _
    rw [pb_k0_t3_succ]; dsimp only; rw [trip_t3_snd, e1]; rfl
  have e3 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 3).val).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 2,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
    show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 2).val + 1)).2 = _
    rw [pb_k0_t3_succ]; dsimp only; rw [trip_t3_snd, e2]; rfl
  show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 3).val + 1)).2 = _
  rw [pb_k0_t3_succ]; dsimp only; rw [trip_t3_snd, e3]; rfl

/-- The four stores, whatever the trip count is called. -/
theorem pb_t3_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) (n : ℕ) (hn : n = 4) :
    (pb_k0_t3 (F := F) 𝒱 c bd i arg1 harg1 arg2 harg2 arg3 harg3 arg4 harg4 arg5 harg5 arg6 harg6 arg7 harg7 arg8 harg8 v2 v50 v56 v69 v70 c0_i32_32 X_arg1 G7 G8 n).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 3,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 2,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
  subst hn; exact pb_t3_snd (F := F) 𝒱 c bd i arg1 harg1 arg2 harg2 arg3 harg3 arg4 harg4 arg5 harg5 arg6 harg6 arg7 harg7 arg8 harg8 v2 v50 v56 v69 v70 c0_i32_32 X_arg1 G7 G8

/-- The head-output scratch after the loop: head 2's four tiles on columns 64 .. 95, the earlier contents elsewhere. -/
theorem read_after_t3 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t3 (F := F) 𝒱 c bd i arg1 harg1 arg2 harg2 arg3 harg3 arg4 harg4 arg5 harg5 arg6 harg6 arg7 harg7 arg8 harg8 v2 v50 v56 v69 v70 c0_i32_32 X_arg1 G7 G8 k0_t3_loop.trips).2)
      = fun y => if (y 1).val / 32 = 2 then TileStrip.stripFn (strip_t3 (F := F) 𝒱 c bd i arg1 harg1 arg2 harg2 arg3 harg3 arg4 harg4 arg5 harg5 arg6 harg6 arg7 harg7 arg8 harg8 v2 v50 v56 v69 v70 c0_i32_32 X_arg1) y else arg8.view.read (Elt F) f y := by
  rw [pb_t3_trips (F := F) 𝒱 c bd i arg1 harg1 arg2 harg2 arg3 harg3 arg4 harg4 arg5 harg5 arg6 harg6 arg7 harg7 arg8 harg8 v2 v50 v56 v69 v70 c0_i32_32 X_arg1 G7 G8 _ trips_t3]
  exact TileStrip.read_strip 2 (fun j => k0_off6 (tr3 j)) (fun j => k0_off6_inb (tr3 j))
    (fun j => by rw [k0_off6_eq]; rfl) (fun j => by rw [k0_off6_eq]; rfl) (strip_t3 (F := F) 𝒱 c bd i arg1 harg1 arg2 harg2 arg3 harg3 arg4 harg4 arg5 harg5 arg6 harg6 arg7 harg7 arg8 harg8 v2 v50 v56 v69 v70 c0_i32_32 X_arg1) arg8.view f

/-- The same when the loop's stores sit in front of earlier ones: those are read where head 2's columns end. -/
theorem read_after_t3_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t3 (F := F) 𝒱 c bd i arg1 harg1 arg2 harg2 arg3 harg3 arg4 harg4 arg5 harg5 arg6 harg6 arg7 harg7 arg8 harg8 v2 v50 v56 v69 v70 c0_i32_32 X_arg1 G7 G8 k0_t3_loop.trips).2 ++ L))
      = fun y => if (y 1).val / 32 = 2 then TileStrip.stripFn (strip_t3 (F := F) 𝒱 c bd i arg1 harg1 arg2 harg2 arg3 harg3 arg4 harg4 arg5 harg5 arg6 harg6 arg7 harg7 arg8 harg8 v2 v50 v56 v69 v70 c0_i32_32 X_arg1) y else arg8.view.read (Elt F) (arg8.view.writes (Elt F) f L) y := by
  rw [View.writes_append]
  exact read_after_t3 (F := F) 𝒱 c bd i arg1 harg1 arg2 harg2 arg3 harg3 arg4 harg4 arg5 harg5 arg6 harg6 arg7 harg7 arg8 harg8 v2 v50 v56 v69 v70 c0_i32_32 X_arg1 G7 G8 _

/-! ## Head 3: the loop `k0_t4_loop` -/

theorem trips_t4 : k0_t4_loop.trips = 4 := by decide

/-- Trip j of the loop, for j below 4. -/
abbrev tr4 (j : Fin 4) : Fin k0_t4_loop.trips := Fin.cast trips_t4.symm j

/-- The output tile trip j stores: the head's payload of that trip's 512 query rows. -/
def strip_t4 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (j : Fin 4) : TileStrip.STile.Idx → Elt F .f32 :=
  (k0_pay19 v2 v76 v82 (k0_pay18 v2 v72 v74 v78 v80 (View.readAt (Elt F) arg1.view (Rect.unit (s := S1x1x2048x256) (k0_off7 (tr4 j)) S1x1x512x256.size (k0_off7_inb (tr4 j))).toLoadRect X_arg1)))

/-- One trip stores exactly that tile, at rows 512 k .., columns 96 .., whatever the two scratch buffers held. -/
theorem trip_t4_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (k : Fin k0_t4_loop.trips) (f7 : BufTy.Contents (Elt F) arg7.view.ty) (f8 : BufTy.Contents (Elt F) arg8.view.ty) :
    (trip_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 k).2.1 f7 f8
      = [⟨Rect.unit (s := S2048x256) (k0_off8 k) S512x32.size (k0_off8_inb k), (k0_pay19 v2 v76 v82 (k0_pay18 v2 v72 v74 v78 v80 (View.readAt (Elt F) arg1.view (Rect.unit (s := S1x1x2048x256) (k0_off7 k) S1x1x512x256.size (k0_off7_inb k)).toLoadRect X_arg1)))⟩] := by
  unfold trip_k0_t4
  dsimp only
  sl_unfold_run_names
  rw [View.readCov_unit_zero _ zero2]

/-- The four trips' stores into the head-output scratch, last first. -/
theorem pb_t4_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) :
    (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 4).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 3,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 2,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
  have e0 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 0).val).2 = [] := rfl
  have e1 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 1).val).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
    show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 0).val + 1)).2 = _
    rw [pb_k0_t4_succ]; dsimp only; rw [trip_t4_snd, e0]; rfl
  have e2 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 2).val).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
    show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 1).val + 1)).2 = _
    rw [pb_k0_t4_succ]; dsimp only; rw [trip_t4_snd, e1]; rfl
  have e3 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 3).val).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 2,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
    show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 2).val + 1)).2 = _
    rw [pb_k0_t4_succ]; dsimp only; rw [trip_t4_snd, e2]; rfl
  show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 3).val + 1)).2 = _
  rw [pb_k0_t4_succ]; dsimp only; rw [trip_t4_snd, e3]; rfl

/-- The four stores, whatever the trip count is called. -/
theorem pb_t4_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 n).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 3,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 2,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
  subst hn; exact pb_t4_snd (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8

/-- The head-output scratch after the loop: head 3's four tiles on columns 96 .. 127, the earlier contents elsewhere. -/
theorem read_after_t4 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 k0_t4_loop.trips).2)
      = fun y => if (y 1).val / 32 = 3 then TileStrip.stripFn (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) y else arg8.view.read (Elt F) f y := by
  rw [pb_t4_trips (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 _ trips_t4]
  exact TileStrip.read_strip 3 (fun j => k0_off8 (tr4 j)) (fun j => k0_off8_inb (tr4 j))
    (fun j => by rw [k0_off8_eq]; rfl) (fun j => by rw [k0_off8_eq]; rfl) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) arg8.view f

/-- The same when the loop's stores sit in front of earlier ones: those are read where head 3's columns end. -/
theorem read_after_t4_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 k0_t4_loop.trips).2 ++ L))
      = fun y => if (y 1).val / 32 = 3 then TileStrip.stripFn (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) y else arg8.view.read (Elt F) (arg8.view.writes (Elt F) f L) y := by
  rw [View.writes_append]
  exact read_after_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 _

/-! ## Head 4: the loop `k0_t5_loop` -/

theorem trips_t5 : k0_t5_loop.trips = 4 := by decide

/-- Trip j of the loop, for j below 4. -/
abbrev tr5 (j : Fin 4) : Fin k0_t5_loop.trips := Fin.cast trips_t5.symm j

/-- The output tile trip j stores: the head's payload of that trip's 512 query rows. -/
def strip_t5 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (j : Fin 4) : TileStrip.STile.Idx → Elt F .f32 :=
  (k0_pay25 v2 v100 v105 (k0_pay24 v2 v96 v98 v102 v103 (View.readAt (Elt F) arg1.view (Rect.unit (s := S1x1x2048x256) (k0_off9 (tr5 j)) S1x1x512x256.size (k0_off9_inb (tr5 j))).toLoadRect X_arg1)))

/-- One trip stores exactly that tile, at rows 512 k .., columns 128 .., whatever the two scratch buffers held. -/
theorem trip_t5_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (k : Fin k0_t5_loop.trips) (f7 : BufTy.Contents (Elt F) arg7.view.ty) (f8 : BufTy.Contents (Elt F) arg8.view.ty) :
    (trip_k0_t5 (F := F) 𝒱 c bd i arg1 harg1 arg2 harg2 arg3 harg3 arg4 harg4 arg5 harg5 arg6 harg6 arg7 harg7 arg8 harg8 v2 v96 v98 v100 v102 v103 v105 X_arg1 k).2.1 f7 f8
      = [⟨Rect.unit (s := S2048x256) (k0_off10 k) S512x32.size (k0_off10_inb k), (k0_pay25 v2 v100 v105 (k0_pay24 v2 v96 v98 v102 v103 (View.readAt (Elt F) arg1.view (Rect.unit (s := S1x1x2048x256) (k0_off9 k) S1x1x512x256.size (k0_off9_inb k)).toLoadRect X_arg1)))⟩] := by
  unfold trip_k0_t5
  dsimp only
  sl_unfold_run_names
  rw [View.readCov_unit_zero _ zero2]

/-- The four trips' stores into the head-output scratch, last first. -/
theorem pb_t5_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) :
    (pb_k0_t5 (F := F) 𝒱 c bd i arg1 harg1 arg2 harg2 arg3 harg3 arg4 harg4 arg5 harg5 arg6 harg6 arg7 harg7 arg8 harg8 v2 v96 v98 v100 v102 v103 v105 X_arg1 G7 G8 4).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 3,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 2,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
  have e0 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 0).val).2 = [] := rfl
  have e1 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 1).val).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
    show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 0).val + 1)).2 = _
    rw [pb_k0_t5_succ]; dsimp only; rw [trip_t5_snd, e0]; rfl
  have e2 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 2).val).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
    show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 1).val + 1)).2 = _
    rw [pb_k0_t5_succ]; dsimp only; rw [trip_t5_snd, e1]; rfl
  have e3 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 3).val).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 2,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
    show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 2).val + 1)).2 = _
    rw [pb_k0_t5_succ]; dsimp only; rw [trip_t5_snd, e2]; rfl
  show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 3).val + 1)).2 = _
  rw [pb_k0_t5_succ]; dsimp only; rw [trip_t5_snd, e3]; rfl

/-- The four stores, whatever the trip count is called. -/
theorem pb_t5_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t5 (F := F) 𝒱 c bd i arg1 harg1 arg2 harg2 arg3 harg3 arg4 harg4 arg5 harg5 arg6 harg6 arg7 harg7 arg8 harg8 v2 v96 v98 v100 v102 v103 v105 X_arg1 G7 G8 n).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 3,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 2,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
  subst hn; exact pb_t5_snd (F := F) 𝒱 c bd i arg1 harg1 arg2 harg2 arg3 harg3 arg4 harg4 arg5 harg5 arg6 harg6 arg7 harg7 arg8 harg8 v2 v96 v98 v100 v102 v103 v105 X_arg1 G7 G8

/-- The head-output scratch after the loop: head 4's four tiles on columns 128 .. 159, the earlier contents elsewhere. -/
theorem read_after_t5 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t5 (F := F) 𝒱 c bd i arg1 harg1 arg2 harg2 arg3 harg3 arg4 harg4 arg5 harg5 arg6 harg6 arg7 harg7 arg8 harg8 v2 v96 v98 v100 v102 v103 v105 X_arg1 G7 G8 k0_t5_loop.trips).2)
      = fun y => if (y 1).val / 32 = 4 then TileStrip.stripFn (strip_t5 (F := F) 𝒱 c bd i arg1 harg1 arg2 harg2 arg3 harg3 arg4 harg4 arg5 harg5 arg6 harg6 arg7 harg7 arg8 harg8 v2 v96 v98 v100 v102 v103 v105 X_arg1) y else arg8.view.read (Elt F) f y := by
  rw [pb_t5_trips (F := F) 𝒱 c bd i arg1 harg1 arg2 harg2 arg3 harg3 arg4 harg4 arg5 harg5 arg6 harg6 arg7 harg7 arg8 harg8 v2 v96 v98 v100 v102 v103 v105 X_arg1 G7 G8 _ trips_t5]
  exact TileStrip.read_strip 4 (fun j => k0_off10 (tr5 j)) (fun j => k0_off10_inb (tr5 j))
    (fun j => by rw [k0_off10_eq]; rfl) (fun j => by rw [k0_off10_eq]; rfl) (strip_t5 (F := F) 𝒱 c bd i arg1 harg1 arg2 harg2 arg3 harg3 arg4 harg4 arg5 harg5 arg6 harg6 arg7 harg7 arg8 harg8 v2 v96 v98 v100 v102 v103 v105 X_arg1) arg8.view f

/-- The same when the loop's stores sit in front of earlier ones: those are read where head 4's columns end. -/
theorem read_after_t5_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t5 (F := F) 𝒱 c bd i arg1 harg1 arg2 harg2 arg3 harg3 arg4 harg4 arg5 harg5 arg6 harg6 arg7 harg7 arg8 harg8 v2 v96 v98 v100 v102 v103 v105 X_arg1 G7 G8 k0_t5_loop.trips).2 ++ L))
      = fun y => if (y 1).val / 32 = 4 then TileStrip.stripFn (strip_t5 (F := F) 𝒱 c bd i arg1 harg1 arg2 harg2 arg3 harg3 arg4 harg4 arg5 harg5 arg6 harg6 arg7 harg7 arg8 harg8 v2 v96 v98 v100 v102 v103 v105 X_arg1) y else arg8.view.read (Elt F) (arg8.view.writes (Elt F) f L) y := by
  rw [View.writes_append]
  exact read_after_t5 (F := F) 𝒱 c bd i arg1 harg1 arg2 harg2 arg3 harg3 arg4 harg4 arg5 harg5 arg6 harg6 arg7 harg7 arg8 harg8 v2 v96 v98 v100 v102 v103 v105 X_arg1 G7 G8 _

/-! ## Head 5: the loop `k0_t6_loop` -/

theorem trips_t6 : k0_t6_loop.trips = 4 := by decide

/-- Trip j of the loop, for j below 4. -/
abbrev tr6 (j : Fin 4) : Fin k0_t6_loop.trips := Fin.cast trips_t6.symm j

/-- The output tile trip j stores: the head's payload of that trip's 512 query rows. -/
def strip_t6 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (j : Fin 4) : TileStrip.STile.Idx → Elt F .f32 :=
  (k0_pay31 v139 (k0_pay30 v119 v125 v138 (View.readAt (Elt F) arg1.view (Rect.unit (s := S1x1x2048x256) (k0_off11 (tr6 j)) S1x1x512x256.size (k0_off11_inb (tr6 j))).toLoadRect X_arg1)))

/-- One trip stores exactly that tile, at rows 512 k .., columns 160 .., whatever the two scratch buffers held. -/
theorem trip_t6_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (k : Fin k0_t6_loop.trips) (f7 : BufTy.Contents (Elt F) arg7.view.ty) (f8 : BufTy.Contents (Elt F) arg8.view.ty) :
    (trip_k0_t6 (F := F) 𝒱 c bd i arg1 harg1 arg2 harg2 arg3 harg3 arg4 harg4 arg5 harg5 arg6 harg6 arg7 harg7 arg8 harg8 v2 v119 v125 v138 v139 c0_i32_68 c1_i32_70 X_arg1 k).2.1 f7 f8
      = [⟨Rect.unit (s := S2048x256) (k0_off12 k) S512x32.size (k0_off12_inb k), (k0_pay31 v139 (k0_pay30 v119 v125 v138 (View.readAt (Elt F) arg1.view (Rect.unit (s := S1x1x2048x256) (k0_off11 k) S1x1x512x256.size (k0_off11_inb k)).toLoadRect X_arg1)))⟩] := by
  unfold trip_k0_t6
  dsimp only
  sl_unfold_run_names
  rw [View.readCov_unit_zero _ zero2]

/-- The four trips' stores into the head-output scratch, last first. -/
theorem pb_t6_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) :
    (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 4).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 3,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 2,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
  have e0 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 0).val).2 = [] := rfl
  have e1 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 1).val).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
    show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 0).val + 1)).2 = _
    rw [pb_k0_t6_succ]; dsimp only; rw [trip_t6_snd, e0]; rfl
  have e2 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 2).val).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
    show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 1).val + 1)).2 = _
    rw [pb_k0_t6_succ]; dsimp only; rw [trip_t6_snd, e1]; rfl
  have e3 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 3).val).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 2,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
    show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 2).val + 1)).2 = _
    rw [pb_k0_t6_succ]; dsimp only; rw [trip_t6_snd, e2]; rfl
  show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 3).val + 1)).2 = _
  rw [pb_k0_t6_succ]; dsimp only; rw [trip_t6_snd, e3]; rfl

/-- The four stores, whatever the trip count is called. -/
theorem pb_t6_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) (n : ℕ) (hn : n = 4) :
    (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 n).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 3,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 2,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
  subst hn; exact pb_t6_snd (F := F) 𝒱 c bd i arg1 harg1 arg2 harg2 arg3 harg3 arg4 harg4 arg5 harg5 arg6 harg6 arg7 harg7 arg8 harg8 v2 v119 v125 v138 v139 c0_i32_68 c1_i32_70 X_arg1 G7 G8

/-- The head-output scratch after the loop: head 5's four tiles on columns 160 .. 191, the earlier contents elsewhere. -/
theorem read_after_t6 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 k0_t6_loop.trips).2)
      = fun y => if (y 1).val / 32 = 5 then TileStrip.stripFn (strip_t6 (F := F) 𝒱 c bd i arg1 harg1 arg2 harg2 arg3 harg3 arg4 harg4 arg5 harg5 arg6 harg6 arg7 harg7 arg8 harg8 v2 v119 v125 v138 v139 c0_i32_68 c1_i32_70 X_arg1) y else arg8.view.read (Elt F) f y := by
  rw [pb_t6_trips (F := F) 𝒱 c bd i arg1 harg1 arg2 harg2 arg3 harg3 arg4 harg4 arg5 harg5 arg6 harg6 arg7 harg7 arg8 harg8 v2 v119 v125 v138 v139 c0_i32_68 c1_i32_70 X_arg1 G7 G8 _ trips_t6]
  exact TileStrip.read_strip 5 (fun j => k0_off12 (tr6 j)) (fun j => k0_off12_inb (tr6 j))
    (fun j => by rw [k0_off12_eq]; rfl) (fun j => by rw [k0_off12_eq]; rfl) (strip_t6 (F := F) 𝒱 c bd i arg1 harg1 arg2 harg2 arg3 harg3 arg4 harg4 arg5 harg5 arg6 harg6 arg7 harg7 arg8 harg8 v2 v119 v125 v138 v139 c0_i32_68 c1_i32_70 X_arg1) arg8.view f

/-- The same when the loop's stores sit in front of earlier ones: those are read where head 5's columns end. -/
theorem read_after_t6_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 k0_t6_loop.trips).2 ++ L))
      = fun y => if (y 1).val / 32 = 5 then TileStrip.stripFn (strip_t6 (F := F) 𝒱 c bd i arg1 harg1 arg2 harg2 arg3 harg3 arg4 harg4 arg5 harg5 arg6 harg6 arg7 harg7 arg8 harg8 v2 v119 v125 v138 v139 c0_i32_68 c1_i32_70 X_arg1) y else arg8.view.read (Elt F) (arg8.view.writes (Elt F) f L) y := by
  rw [View.writes_append]
  exact read_after_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 _

/-! ## Head 6: the loop `k0_t7_loop` -/

theorem trips_t7 : k0_t7_loop.trips = 4 := by decide

/-- Trip j of the loop, for j below 4. -/
abbrev tr7 (j : Fin 4) : Fin k0_t7_loop.trips := Fin.cast trips_t7.symm j

/-- The output tile trip j stores: the head's payload of that trip's 512 query rows. -/
def strip_t7 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (j : Fin 4) : TileStrip.STile.Idx → Elt F .f32 :=
  (k0_pay33 v2 v145 v151 (k0_pay32 v2 v141 v143 v147 v149 (View.readAt (Elt F) arg1.view (Rect.unit (s := S1x1x2048x256) (k0_off13 (tr7 j)) S1x1x512x256.size (k0_off13_inb (tr7 j))).toLoadRect X_arg1)))

/-- One trip stores exactly that tile, at rows 512 k .., columns 192 .., whatever the two scratch buffers held. -/
theorem trip_t7_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (k : Fin k0_t7_loop.trips) (f7 : BufTy.Contents (Elt F) arg7.view.ty) (f8 : BufTy.Contents (Elt F) arg8.view.ty) :
    (trip_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 k).2.1 f7 f8
      = [⟨Rect.unit (s := S2048x256) (k0_off14 k) S512x32.size (k0_off14_inb k), (k0_pay33 v2 v145 v151 (k0_pay32 v2 v141 v143 v147 v149 (View.readAt (Elt F) arg1.view (Rect.unit (s := S1x1x2048x256) (k0_off13 k) S1x1x512x256.size (k0_off13_inb k)).toLoadRect X_arg1)))⟩] := by
  unfold trip_k0_t7
  dsimp only
  sl_unfold_run_names
  rw [View.readCov_unit_zero _ zero2]

/-- The four trips' stores into the head-output scratch, last first. -/
theorem pb_t7_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) :
    (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 4).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 3,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 2,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
  have e0 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 0).val).2 = [] := rfl
  have e1 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 1).val).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
    show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 0).val + 1)).2 = _
    rw [pb_k0_t7_succ]; dsimp only; rw [trip_t7_snd, e0]; rfl
  have e2 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 2).val).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
    show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 1).val + 1)).2 = _
    rw [pb_k0_t7_succ]; dsimp only; rw [trip_t7_snd, e1]; rfl
  have e3 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 3).val).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 2,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
    show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 2).val + 1)).2 = _
    rw [pb_k0_t7_succ]; dsimp only; rw [trip_t7_snd, e2]; rfl
  show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 3).val + 1)).2 = _
  rw [pb_k0_t7_succ]; dsimp only; rw [trip_t7_snd, e3]; rfl

/-- The four stores, whatever the trip count is called. -/
theorem pb_t7_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 n).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 3,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 2,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
  subst hn; exact pb_t7_snd (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8

/-- The head-output scratch after the loop: head 6's four tiles on columns 192 .. 223, the earlier contents elsewhere. -/
theorem read_after_t7 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 k0_t7_loop.trips).2)
      = fun y => if (y 1).val / 32 = 6 then TileStrip.stripFn (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) y else arg8.view.read (Elt F) f y := by
  rw [pb_t7_trips (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 _ trips_t7]
  exact TileStrip.read_strip 6 (fun j => k0_off14 (tr7 j)) (fun j => k0_off14_inb (tr7 j))
    (fun j => by rw [k0_off14_eq]; rfl) (fun j => by rw [k0_off14_eq]; rfl) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) arg8.view f

/-- The same when the loop's stores sit in front of earlier ones: those are read where head 6's columns end. -/
theorem read_after_t7_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 k0_t7_loop.trips).2 ++ L))
      = fun y => if (y 1).val / 32 = 6 then TileStrip.stripFn (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) y else arg8.view.read (Elt F) (arg8.view.writes (Elt F) f L) y := by
  rw [View.writes_append]
  exact read_after_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 _

/-! ## Head 7: the loop `k0_t8_loop` -/

theorem trips_t8 : k0_t8_loop.trips = 4 := by decide

/-- Trip j of the loop, for j below 4. -/
abbrev tr8 (j : Fin 4) : Fin k0_t8_loop.trips := Fin.cast trips_t8.symm j

/-- The output tile trip j stores: the head's payload of that trip's 512 query rows. -/
def strip_t8 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (j : Fin 4) : TileStrip.STile.Idx → Elt F .f32 :=
  (k0_pay2 v2 v169 v174 (k0_pay1 v2 v165 v167 v171 v173 (View.readAt (Elt F) arg1.view (Rect.unit (s := S1x1x2048x256) (k0_off15 (tr8 j)) S1x1x512x256.size (k0_off15_inb (tr8 j))).toLoadRect X_arg1)))

/-- One trip stores exactly that tile, at rows 512 k .., columns 224 .., whatever the two scratch buffers held. -/
theorem trip_t8_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (k : Fin k0_t8_loop.trips) (f7 : BufTy.Contents (Elt F) arg7.view.ty) (f8 : BufTy.Contents (Elt F) arg8.view.ty) :
    (trip_k0_t8 (F := F) 𝒱 c bd i arg1 harg1 arg2 harg2 arg3 harg3 arg4 harg4 arg5 harg5 arg6 harg6 arg7 harg7 arg8 harg8 v2 v165 v167 v169 v171 v173 v174 X_arg1 k).2.1 f7 f8
      = [⟨Rect.unit (s := S2048x256) (k0_off16 k) S512x32.size (k0_off16_inb k), (k0_pay2 v2 v169 v174 (k0_pay1 v2 v165 v167 v171 v173 (View.readAt (Elt F) arg1.view (Rect.unit (s := S1x1x2048x256) (k0_off15 k) S1x1x512x256.size (k0_off15_inb k)).toLoadRect X_arg1)))⟩] := by
  unfold trip_k0_t8
  dsimp only
  sl_unfold_run_names
  rw [View.readCov_unit_zero _ zero2]

/-- The four trips' stores into the head-output scratch, last first. -/
theorem pb_t8_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) :
    (pb_k0_t8 (F := F) 𝒱 c bd i arg1 harg1 arg2 harg2 arg3 harg3 arg4 harg4 arg5 harg5 arg6 harg6 arg7 harg7 arg8 harg8 v2 v165 v167 v169 v171 v173 v174 X_arg1 G7 G8 4).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 3,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 2,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
  have e0 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 0).val).2 = [] := rfl
  have e1 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 1).val).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
    show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 0).val + 1)).2 = _
    rw [pb_k0_t8_succ]; dsimp only; rw [trip_t8_snd, e0]; rfl
  have e2 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 2).val).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
    show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 1).val + 1)).2 = _
    rw [pb_k0_t8_succ]; dsimp only; rw [trip_t8_snd, e1]; rfl
  have e3 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 3).val).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 2,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
    show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 2).val + 1)).2 = _
    rw [pb_k0_t8_succ]; dsimp only; rw [trip_t8_snd, e2]; rfl
  show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 3).val + 1)).2 = _
  rw [pb_k0_t8_succ]; dsimp only; rw [trip_t8_snd, e3]; rfl

/-- The four stores, whatever the trip count is called. -/
theorem pb_t8_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t8 (F := F) 𝒱 c bd i arg1 harg1 arg2 harg2 arg3 harg3 arg4 harg4 arg5 harg5 arg6 harg6 arg7 harg7 arg8 harg8 v2 v165 v167 v169 v171 v173 v174 X_arg1 G7 G8 n).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 3,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 2,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
  subst hn; exact pb_t8_snd (F := F) 𝒱 c bd i arg1 harg1 arg2 harg2 arg3 harg3 arg4 harg4 arg5 harg5 arg6 harg6 arg7 harg7 arg8 harg8 v2 v165 v167 v169 v171 v173 v174 X_arg1 G7 G8

/-- The head-output scratch after the loop: head 7's four tiles on columns 224 .. 255, the earlier contents elsewhere. -/
theorem read_after_t8 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t8 (F := F) 𝒱 c bd i arg1 harg1 arg2 harg2 arg3 harg3 arg4 harg4 arg5 harg5 arg6 harg6 arg7 harg7 arg8 harg8 v2 v165 v167 v169 v171 v173 v174 X_arg1 G7 G8 k0_t8_loop.trips).2)
      = fun y => if (y 1).val / 32 = 7 then TileStrip.stripFn (strip_t8 (F := F) 𝒱 c bd i arg1 harg1 arg2 harg2 arg3 harg3 arg4 harg4 arg5 harg5 arg6 harg6 arg7 harg7 arg8 harg8 v2 v165 v167 v169 v171 v173 v174 X_arg1) y else arg8.view.read (Elt F) f y := by
  rw [pb_t8_trips (F := F) 𝒱 c bd i arg1 harg1 arg2 harg2 arg3 harg3 arg4 harg4 arg5 harg5 arg6 harg6 arg7 harg7 arg8 harg8 v2 v165 v167 v169 v171 v173 v174 X_arg1 G7 G8 _ trips_t8]
  exact TileStrip.read_strip 7 (fun j => k0_off16 (tr8 j)) (fun j => k0_off16_inb (tr8 j))
    (fun j => by rw [k0_off16_eq]; rfl) (fun j => by rw [k0_off16_eq]; rfl) (strip_t8 (F := F) 𝒱 c bd i arg1 harg1 arg2 harg2 arg3 harg3 arg4 harg4 arg5 harg5 arg6 harg6 arg7 harg7 arg8 harg8 v2 v165 v167 v169 v171 v173 v174 X_arg1) arg8.view f

/-- The same when the loop's stores sit in front of earlier ones: those are read where head 7's columns end. -/
theorem read_after_t8_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t8 (F := F) 𝒱 c bd i arg1 harg1 arg2 harg2 arg3 harg3 arg4 harg4 arg5 harg5 arg6 harg6 arg7 harg7 arg8 harg8 v2 v165 v167 v169 v171 v173 v174 X_arg1 G7 G8 k0_t8_loop.trips).2 ++ L))
      = fun y => if (y 1).val / 32 = 7 then TileStrip.stripFn (strip_t8 (F := F) 𝒱 c bd i arg1 harg1 arg2 harg2 arg3 harg3 arg4 harg4 arg5 harg5 arg6 harg6 arg7 harg7 arg8 harg8 v2 v165 v167 v169 v171 v173 v174 X_arg1) y else arg8.view.read (Elt F) (arg8.view.writes (Elt F) f L) y := by
  rw [View.writes_append]
  exact read_after_t8 (F := F) 𝒱 c bd i arg1 harg1 arg2 harg2 arg3 harg3 arg4 harg4 arg5 harg5 arg6 harg6 arg7 harg7 arg8 harg8 v2 v165 v167 v169 v171 v173 v174 X_arg1 G7 G8 _

/-! ## All eight heads -/

/-- The eight heads' tiles side by side: the head-output scratch as one function of its index. -/
def oaccOf (s1 s2 s3 s4 s5 s6 s7 s8 : Fin 4 → TileStrip.STile.Idx → Elt F .f32) : TileStrip.SBuf.Idx → Elt F .f32 := fun y =>
  if (y 1).val / 32 = 7 then TileStrip.stripFn s8 y else if (y 1).val / 32 = 6 then TileStrip.stripFn s7 y
  else if (y 1).val / 32 = 5 then TileStrip.stripFn s6 y else if (y 1).val / 32 = 4 then TileStrip.stripFn s5 y
  else if (y 1).val / 32 = 3 then TileStrip.stripFn s4 y else if (y 1).val / 32 = 2 then TileStrip.stripFn s3 y
  else if (y 1).val / 32 = 1 then TileStrip.stripFn s2 y else TileStrip.stripFn s1 y

/-- Every column belongs to one of the eight heads, so nothing of the entry contents is left. -/
theorem chain_total (s1 s2 s3 s4 s5 s6 s7 s8 : Fin 4 → TileStrip.STile.Idx → Elt F .f32) (g : TileStrip.SBuf.Idx → Elt F .f32) :
    (fun y : TileStrip.SBuf.Idx => if (y 1).val / 32 = 7 then TileStrip.stripFn s8 y else if (y 1).val / 32 = 6 then TileStrip.stripFn s7 y
      else if (y 1).val / 32 = 5 then TileStrip.stripFn s6 y else if (y 1).val / 32 = 4 then TileStrip.stripFn s5 y
      else if (y 1).val / 32 = 3 then TileStrip.stripFn s4 y else if (y 1).val / 32 = 2 then TileStrip.stripFn s3 y
      else if (y 1).val / 32 = 1 then TileStrip.stripFn s2 y else if (y 1).val / 32 = 0 then TileStrip.stripFn s1 y else g y)
      = oaccOf s1 s2 s3 s4 s5 s6 s7 s8 := by
  funext y
  have h1 : (y 1).val < 256 := (y 1).isLt
  unfold oaccOf
  by_cases c7 : (y 1).val / 32 = 7
  · rw [if_pos c7, if_pos c7]
  rw [if_neg c7, if_neg c7]
  by_cases c6 : (y 1).val / 32 = 6
  · rw [if_pos c6, if_pos c6]
  rw [if_neg c6, if_neg c6]
  by_cases c5 : (y 1).val / 32 = 5
  · rw [if_pos c5, if_pos c5]
  rw [if_neg c5, if_neg c5]
  by_cases c4 : (y 1).val / 32 = 4
  · rw [if_pos c4, if_pos c4]
  rw [if_neg c4, if_neg c4]
  by_cases c3 : (y 1).val / 32 = 3
  · rw [if_pos c3, if_pos c3]
  rw [if_neg c3, if_neg c3]
  by_cases c2 : (y 1).val / 32 = 2
  · rw [if_pos c2, if_pos c2]
  rw [if_neg c2, if_neg c2]
  by_cases c1 : (y 1).val / 32 = 1
  · rw [if_pos c1, if_pos c1]
  rw [if_neg c1, if_neg c1]
  have c0 : (y 1).val / 32 = 0 := by omega
  rw [if_pos c0]

end Cert.Kernel.GenP

end
-- ==== Proof.StripsKI.lean ====
/-
  WHAT THE EIGHT QUERY-TILE LOOPS LEAVE IN THE HEAD-OUTPUT SCRATCH, at any float instance.

  Head h (h = 0..7) is handled by one 4-trip loop. Trip j loads rows 512 j .. 512 j + 511 of the sequence tile, stores the
  scaled scores of those 512 queries against all 2048 keys into the score scratch, loads them back, and stores the
  head's 512 x 32 output tile into the head-output scratch at rows 512 j .., columns 32 h ... So after the loop the
  head-output scratch holds, on columns 32 h .. 32 h + 31, the four tiles' payloads as one function of the index, and
  elsewhere what it held when the loop was entered — whatever the score scratch and the head-output scratch held before:
  each trip's tile payload is a function of the operands the loop was entered with and of the trip alone.
-/
import proofs.«127032_j4604204941406_2_alg».proof.Proof.Gen.KernelIdeal.Loops
import proofs.«127032_j4604204941406_2_alg».proof.Proof.LibTileStrip
import Idealize.ShloMosaic.Lib.Pipeline.Value
import Idealize.ShloMosaic.Lib.Tactic

set_option maxRecDepth 16384

noncomputable section

namespace Cert.KernelIdeal.GenP

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The whole-shape rectangle's offsets, spelt as a literal pair, are the zero offsets. -/
theorem zero2 : (![0, 0] : Fin 2 → ℕ) = fun _ => 0 := by
  funext a; match a with | ⟨0, _⟩ => rfl | ⟨1, _⟩ => rfl

/-! ## Head 0: the loop `k0_t1_loop` -/

theorem trips_t1 : k0_t1_loop.trips = 4 := by decide

/-- Trip j of the loop, for j below 4. -/
abbrev tr1 (j : Fin 4) : Fin k0_t1_loop.trips := Fin.cast trips_t1.symm j

/-- The output tile trip j stores: the head's payload of that trip's 512 query rows. -/
def strip_t1 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (j : Fin 4) : TileStrip.STile.Idx → Elt F .f32 :=
  (k0_pay6 v0 v7 v13 (k0_pay5 v0 v3 v5 v9 v11 (View.readAt (Elt F) arg1.view (Rect.unit (s := S1x1x2048x256) (k0_off1 (tr1 j)) S1x1x512x256.size (k0_off1_inb (tr1 j))).toLoadRect X_arg1)))

/-- One trip stores exactly that tile, at rows 512 k .., columns 0 .., whatever the two scratch buffers held. -/
theorem trip_t1_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (k : Fin k0_t1_loop.trips) (f7 : BufTy.Contents (Elt F) arg7.view.ty) (f8 : BufTy.Contents (Elt F) arg8.view.ty) :
    (trip_k0_t1 (F := F) 𝒱 c bd i arg1 harg1 arg2 harg2 arg3 harg3 arg4 harg4 arg5 harg5 arg6 harg6 arg7 harg7 arg8 harg8 v0 v3 v5 v7 v9 v11 v13 X_arg1 k).2.1 f7 f8
      = [⟨Rect.unit (s := S2048x256) (k0_off2 k) S512x32.size (k0_off2_inb k), (k0_pay6 v0 v7 v13 (k0_pay5 v0 v3 v5 v9 v11 (View.readAt (Elt F) arg1.view (Rect.unit (s := S1x1x2048x256) (k0_off1 k) S1x1x512x256.size (k0_off1_inb k)).toLoadRect X_arg1)))⟩] := by
  unfold trip_k0_t1
  dsimp only
  sl_unfold_run_names
  rw [View.readCov_unit_zero _ zero2]

/-- The four trips' stores into the head-output scratch, last first. -/
theorem pb_t1_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) :
    (pb_k0_t1 (F := F) 𝒱 c bd i arg1 harg1 arg2 harg2 arg3 harg3 arg4 harg4 arg5 harg5 arg6 harg6 arg7 harg7 arg8 harg8 v0 v3 v5 v7 v9 v11 v13 X_arg1 G7 G8 4).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 3,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 2,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
  have e0 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 0).val).2 = [] := rfl
  have e1 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 1).val).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
    show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 0).val + 1)).2 = _
    rw [pb_k0_t1_succ]; dsimp only; rw [trip_t1_snd, e0]; rfl
  have e2 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 2).val).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
    show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 1).val + 1)).2 = _
    rw [pb_k0_t1_succ]; dsimp only; rw [trip_t1_snd, e1]; rfl
  have e3 : (pb_k0_t1 (F := F) 𝒱 c bd i arg1 harg1 arg2 harg2 arg3 harg3 arg4 harg4 arg5 harg5 arg6 harg6 arg7 harg7 arg8 harg8 v0 v3 v5 v7 v9 v11 v13 X_arg1 G7 G8 (tr1 3).val).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 2,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
    show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 2).val + 1)).2 = _
    rw [pb_k0_t1_succ]; dsimp only; rw [trip_t1_snd, e2]; rfl
  show (pb_k0_t1 (F := F) 𝒱 c bd i arg1 harg1 arg2 harg2 arg3 harg3 arg4 harg4 arg5 harg5 arg6 harg6 arg7 harg7 arg8 harg8 v0 v3 v5 v7 v9 v11 v13 X_arg1 G7 G8 ((tr1 3).val + 1)).2 = _
  rw [pb_k0_t1_succ]; dsimp only; rw [trip_t1_snd, e3]; rfl

/-- The four stores, whatever the trip count is called. -/
theorem pb_t1_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t1 (F := F) 𝒱 c bd i arg1 harg1 arg2 harg2 arg3 harg3 arg4 harg4 arg5 harg5 arg6 harg6 arg7 harg7 arg8 harg8 v0 v3 v5 v7 v9 v11 v13 X_arg1 G7 G8 n).2
      = [TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 3,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 2,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 1,
         TileStrip.piece (fun j => k0_off2 (tr1 j)) (fun j => k0_off2_inb (tr1 j)) (strip_t1 (F := F) 𝒱 c bd i arg1 harg1 arg2 harg2 arg3 harg3 arg4 harg4 arg5 harg5 arg6 harg6 arg7 harg7 arg8 harg8 v0 v3 v5 v7 v9 v11 v13 X_arg1) 0] := by
  subst hn; exact pb_t1_snd (F := F) 𝒱 c bd i arg1 harg1 arg2 harg2 arg3 harg3 arg4 harg4 arg5 harg5 arg6 harg6 arg7 harg7 arg8 harg8 v0 v3 v5 v7 v9 v11 v13 X_arg1 G7 G8

/-- The head-output scratch after the loop: head 0's four tiles on columns 0 .. 31, the earlier contents elsewhere. -/
theorem read_after_t1 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 v0 v3 v5 v7 v9 v11 v13 X_arg1 G7 G8 k0_t1_loop.trips).2)
      = fun y => if (y 1).val / 32 = 0 then TileStrip.stripFn (strip_t1 (F := F) 𝒱 c bd i arg1 harg1 arg2 harg2 arg3 harg3 arg4 harg4 arg5 harg5 arg6 harg6 arg7 harg7 arg8 harg8 v0 v3 v5 v7 v9 v11 v13 X_arg1) y else arg8.view.read (Elt F) f y := by
  rw [pb_t1_trips (F := F) 𝒱 c bd i arg1 harg1 arg2 harg2 arg3 harg3 arg4 harg4 arg5 harg5 arg6 harg6 arg7 harg7 arg8 harg8 v0 v3 v5 v7 v9 v11 v13 X_arg1 G7 G8 _ trips_t1]
  exact TileStrip.read_strip 0 (fun j => k0_off2 (tr1 j)) (fun j => k0_off2_inb (tr1 j))
    (fun j => by rw [k0_off2_eq]; rfl) (fun j => by rw [k0_off2_eq]; rfl) (strip_t1 (F := F) 𝒱 c bd i arg1 harg1 arg2 harg2 arg3 harg3 arg4 harg4 arg5 harg5 arg6 harg6 arg7 harg7 arg8 harg8 v0 v3 v5 v7 v9 v11 v13 X_arg1) arg8.view f

/-- The same when the loop's stores sit in front of earlier ones: those are read where head 0's columns end. -/
theorem read_after_t1_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v0 : Vec F S1x1x2048x256 .f32) (v3 : Vec F S32x256 .f32) (v5 : Vec F S32x256 .f32) (v7 : Vec F S32x256 .f32) (v9 : Vec F S32 .f32) (v11 : Vec F S32 .f32) (v13 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t1 (F := F) 𝒱 c bd i arg1 harg1 arg2 harg2 arg3 harg3 arg4 harg4 arg5 harg5 arg6 harg6 arg7 harg7 arg8 harg8 v0 v3 v5 v7 v9 v11 v13 X_arg1 G7 G8 k0_t1_loop.trips).2 ++ L))
      = fun y => if (y 1).val / 32 = 0 then TileStrip.stripFn (strip_t1 (F := F) 𝒱 c bd i arg1 harg1 arg2 harg2 arg3 harg3 arg4 harg4 arg5 harg5 arg6 harg6 arg7 harg7 arg8 harg8 v0 v3 v5 v7 v9 v11 v13 X_arg1) y else arg8.view.read (Elt F) (arg8.view.writes (Elt F) f L) y := by
  rw [View.writes_append]
  exact read_after_t1 (F := F) 𝒱 c bd i arg1 harg1 arg2 harg2 arg3 harg3 arg4 harg4 arg5 harg5 arg6 harg6 arg7 harg7 arg8 harg8 v0 v3 v5 v7 v9 v11 v13 X_arg1 G7 G8 _

/-! ## Head 1: the loop `k0_t2_loop` -/

theorem trips_t2 : k0_t2_loop.trips = 4 := by decide

/-- Trip j of the loop, for j below 4. -/
abbrev tr2 (j : Fin 4) : Fin k0_t2_loop.trips := Fin.cast trips_t2.symm j

/-- The output tile trip j stores: the head's payload of that trip's 512 query rows. -/
def strip_t2 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (j : Fin 4) : TileStrip.STile.Idx → Elt F .f32 :=
  (k0_pay11 v2 v31 v36 (k0_pay10 v2 v27 v29 v32 v34 (View.readAt (Elt F) arg1.view (Rect.unit (s := S1x1x2048x256) (k0_off3 (tr2 j)) S1x1x512x256.size (k0_off3_inb (tr2 j))).toLoadRect X_arg1)))

/-- One trip stores exactly that tile, at rows 512 k .., columns 32 .., whatever the two scratch buffers held. -/
theorem trip_t2_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (k : Fin k0_t2_loop.trips) (f7 : BufTy.Contents (Elt F) arg7.view.ty) (f8 : BufTy.Contents (Elt F) arg8.view.ty) :
    (trip_k0_t2 (F := F) 𝒱 c bd i arg1 harg1 arg2 harg2 arg3 harg3 arg4 harg4 arg5 harg5 arg6 harg6 arg7 harg7 arg8 harg8 v2 v27 v29 v31 v32 v34 v36 X_arg1 k).2.1 f7 f8
      = [⟨Rect.unit (s := S2048x256) (k0_off4 k) S512x32.size (k0_off4_inb k), (k0_pay11 v2 v31 v36 (k0_pay10 v2 v27 v29 v32 v34 (View.readAt (Elt F) arg1.view (Rect.unit (s := S1x1x2048x256) (k0_off3 k) S1x1x512x256.size (k0_off3_inb k)).toLoadRect X_arg1)))⟩] := by
  unfold trip_k0_t2
  dsimp only
  sl_unfold_run_names
  rw [View.readCov_unit_zero _ zero2]

/-- The four trips' stores into the head-output scratch, last first. -/
theorem pb_t2_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) :
    (pb_k0_t2 (F := F) 𝒱 c bd i arg1 harg1 arg2 harg2 arg3 harg3 arg4 harg4 arg5 harg5 arg6 harg6 arg7 harg7 arg8 harg8 v2 v27 v29 v31 v32 v34 v36 X_arg1 G7 G8 4).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 3,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 2,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
  have e0 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 0).val).2 = [] := rfl
  have e1 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 1).val).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
    show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 0).val + 1)).2 = _
    rw [pb_k0_t2_succ]; dsimp only; rw [trip_t2_snd, e0]; rfl
  have e2 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 2).val).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
    show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 1).val + 1)).2 = _
    rw [pb_k0_t2_succ]; dsimp only; rw [trip_t2_snd, e1]; rfl
  have e3 : (pb_k0_t2 (F := F) 𝒱 c bd i arg1 harg1 arg2 harg2 arg3 harg3 arg4 harg4 arg5 harg5 arg6 harg6 arg7 harg7 arg8 harg8 v2 v27 v29 v31 v32 v34 v36 X_arg1 G7 G8 (tr2 3).val).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 2,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
    show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 2).val + 1)).2 = _
    rw [pb_k0_t2_succ]; dsimp only; rw [trip_t2_snd, e2]; rfl
  show (pb_k0_t2 (F := F) 𝒱 c bd i arg1 harg1 arg2 harg2 arg3 harg3 arg4 harg4 arg5 harg5 arg6 harg6 arg7 harg7 arg8 harg8 v2 v27 v29 v31 v32 v34 v36 X_arg1 G7 G8 ((tr2 3).val + 1)).2 = _
  rw [pb_k0_t2_succ]; dsimp only; rw [trip_t2_snd, e3]; rfl

/-- The four stores, whatever the trip count is called. -/
theorem pb_t2_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t2 (F := F) 𝒱 c bd i arg1 harg1 arg2 harg2 arg3 harg3 arg4 harg4 arg5 harg5 arg6 harg6 arg7 harg7 arg8 harg8 v2 v27 v29 v31 v32 v34 v36 X_arg1 G7 G8 n).2
      = [TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 3,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 2,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 1,
         TileStrip.piece (fun j => k0_off4 (tr2 j)) (fun j => k0_off4_inb (tr2 j)) (strip_t2 (F := F) 𝒱 c bd i arg1 harg1 arg2 harg2 arg3 harg3 arg4 harg4 arg5 harg5 arg6 harg6 arg7 harg7 arg8 harg8 v2 v27 v29 v31 v32 v34 v36 X_arg1) 0] := by
  subst hn; exact pb_t2_snd (F := F) 𝒱 c bd i arg1 harg1 arg2 harg2 arg3 harg3 arg4 harg4 arg5 harg5 arg6 harg6 arg7 harg7 arg8 harg8 v2 v27 v29 v31 v32 v34 v36 X_arg1 G7 G8

/-- The head-output scratch after the loop: head 1's four tiles on columns 32 .. 63, the earlier contents elsewhere. -/
theorem read_after_t2 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t2 (F := F) 𝒱 c bd i arg1 harg1 arg2 harg2 arg3 harg3 arg4 harg4 arg5 harg5 arg6 harg6 arg7 harg7 arg8 harg8 v2 v27 v29 v31 v32 v34 v36 X_arg1 G7 G8 k0_t2_loop.trips).2)
      = fun y => if (y 1).val / 32 = 1 then TileStrip.stripFn (strip_t2 (F := F) 𝒱 c bd i arg1 harg1 arg2 harg2 arg3 harg3 arg4 harg4 arg5 harg5 arg6 harg6 arg7 harg7 arg8 harg8 v2 v27 v29 v31 v32 v34 v36 X_arg1) y else arg8.view.read (Elt F) f y := by
  rw [pb_t2_trips (F := F) 𝒱 c bd i arg1 harg1 arg2 harg2 arg3 harg3 arg4 harg4 arg5 harg5 arg6 harg6 arg7 harg7 arg8 harg8 v2 v27 v29 v31 v32 v34 v36 X_arg1 G7 G8 _ trips_t2]
  exact TileStrip.read_strip 1 (fun j => k0_off4 (tr2 j)) (fun j => k0_off4_inb (tr2 j))
    (fun j => by rw [k0_off4_eq]; rfl) (fun j => by rw [k0_off4_eq]; rfl) (strip_t2 (F := F) 𝒱 c bd i arg1 harg1 arg2 harg2 arg3 harg3 arg4 harg4 arg5 harg5 arg6 harg6 arg7 harg7 arg8 harg8 v2 v27 v29 v31 v32 v34 v36 X_arg1) arg8.view f

/-- The same when the loop's stores sit in front of earlier ones: those are read where head 1's columns end. -/
theorem read_after_t2_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v27 : FVec F S32x256 .bf16) (v29 : FVec F S32x256 .bf16) (v31 : FVec F S32x256 .bf16) (v32 : Vec F S32 .f32) (v34 : Vec F S32 .f32) (v36 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t2 (F := F) 𝒱 c bd i arg1 harg1 arg2 harg2 arg3 harg3 arg4 harg4 arg5 harg5 arg6 harg6 arg7 harg7 arg8 harg8 v2 v27 v29 v31 v32 v34 v36 X_arg1 G7 G8 k0_t2_loop.trips).2 ++ L))
      = fun y => if (y 1).val / 32 = 1 then TileStrip.stripFn (strip_t2 (F := F) 𝒱 c bd i arg1 harg1 arg2 harg2 arg3 harg3 arg4 harg4 arg5 harg5 arg6 harg6 arg7 harg7 arg8 harg8 v2 v27 v29 v31 v32 v34 v36 X_arg1) y else arg8.view.read (Elt F) (arg8.view.writes (Elt F) f L) y := by
  rw [View.writes_append]
  exact read_after_t2 (F := F) 𝒱 c bd i arg1 harg1 arg2 harg2 arg3 harg3 arg4 harg4 arg5 harg5 arg6 harg6 arg7 harg7 arg8 harg8 v2 v27 v29 v31 v32 v34 v36 X_arg1 G7 G8 _

/-! ## Head 2: the loop `k0_t3_loop` -/

theorem trips_t3 : k0_t3_loop.trips = 4 := by decide

/-- Trip j of the loop, for j below 4. -/
abbrev tr3 (j : Fin 4) : Fin k0_t3_loop.trips := Fin.cast trips_t3.symm j

/-- The output tile trip j stores: the head's payload of that trip's 512 query rows. -/
def strip_t3 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (j : Fin 4) : TileStrip.STile.Idx → Elt F .f32 :=
  (k0_pay17 v70 (k0_pay16 v50 v56 v69 (View.readAt (Elt F) arg1.view (Rect.unit (s := S1x1x2048x256) (k0_off5 (tr3 j)) S1x1x512x256.size (k0_off5_inb (tr3 j))).toLoadRect X_arg1)))

/-- One trip stores exactly that tile, at rows 512 k .., columns 64 .., whatever the two scratch buffers held. -/
theorem trip_t3_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (k : Fin k0_t3_loop.trips) (f7 : BufTy.Contents (Elt F) arg7.view.ty) (f8 : BufTy.Contents (Elt F) arg8.view.ty) :
    (trip_k0_t3 (F := F) 𝒱 c bd i arg1 harg1 arg2 harg2 arg3 harg3 arg4 harg4 arg5 harg5 arg6 harg6 arg7 harg7 arg8 harg8 v2 v50 v56 v69 v70 c0_i32_32 X_arg1 k).2.1 f7 f8
      = [⟨Rect.unit (s := S2048x256) (k0_off6 k) S512x32.size (k0_off6_inb k), (k0_pay17 v70 (k0_pay16 v50 v56 v69 (View.readAt (Elt F) arg1.view (Rect.unit (s := S1x1x2048x256) (k0_off5 k) S1x1x512x256.size (k0_off5_inb k)).toLoadRect X_arg1)))⟩] := by
  unfold trip_k0_t3
  dsimp only
  sl_unfold_run_names
  rw [View.readCov_unit_zero _ zero2]

/-- The four trips' stores into the head-output scratch, last first. -/
theorem pb_t3_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) :
    (pb_k0_t3 (F := F) 𝒱 c bd i arg1 harg1 arg2 harg2 arg3 harg3 arg4 harg4 arg5 harg5 arg6 harg6 arg7 harg7 arg8 harg8 v2 v50 v56 v69 v70 c0_i32_32 X_arg1 G7 G8 4).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 3,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 2,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
  have e0 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 0).val).2 = [] := rfl
  have e1 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 1).val).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
    show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 0).val + 1)).2 = _
    rw [pb_k0_t3_succ]; dsimp only; rw [trip_t3_snd, e0]; rfl
  have e2 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 2).val).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
    show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 1).val + 1)).2 = _
    rw [pb_k0_t3_succ]; dsimp only; rw [trip_t3_snd, e1]; rfl
  have e3 : (pb_k0_t3 (F := F) 𝒱 c bd i arg1 harg1 arg2 harg2 arg3 harg3 arg4 harg4 arg5 harg5 arg6 harg6 arg7 harg7 arg8 harg8 v2 v50 v56 v69 v70 c0_i32_32 X_arg1 G7 G8 (tr3 3).val).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 2,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
    show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 2).val + 1)).2 = _
    rw [pb_k0_t3_succ]; dsimp only; rw [trip_t3_snd, e2]; rfl
  show (pb_k0_t3 (F := F) 𝒱 c bd i arg1 harg1 arg2 harg2 arg3 harg3 arg4 harg4 arg5 harg5 arg6 harg6 arg7 harg7 arg8 harg8 v2 v50 v56 v69 v70 c0_i32_32 X_arg1 G7 G8 ((tr3 3).val + 1)).2 = _
  rw [pb_k0_t3_succ]; dsimp only; rw [trip_t3_snd, e3]; rfl

/-- The four stores, whatever the trip count is called. -/
theorem pb_t3_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) (n : ℕ) (hn : n = 4) :
    (pb_k0_t3 (F := F) 𝒱 c bd i arg1 harg1 arg2 harg2 arg3 harg3 arg4 harg4 arg5 harg5 arg6 harg6 arg7 harg7 arg8 harg8 v2 v50 v56 v69 v70 c0_i32_32 X_arg1 G7 G8 n).2
      = [TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 3,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 2,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 1,
         TileStrip.piece (fun j => k0_off6 (tr3 j)) (fun j => k0_off6_inb (tr3 j)) (strip_t3 (F := F) 𝒱 c bd i arg1 harg1 arg2 harg2 arg3 harg3 arg4 harg4 arg5 harg5 arg6 harg6 arg7 harg7 arg8 harg8 v2 v50 v56 v69 v70 c0_i32_32 X_arg1) 0] := by
  subst hn; exact pb_t3_snd (F := F) 𝒱 c bd i arg1 harg1 arg2 harg2 arg3 harg3 arg4 harg4 arg5 harg5 arg6 harg6 arg7 harg7 arg8 harg8 v2 v50 v56 v69 v70 c0_i32_32 X_arg1 G7 G8

/-- The head-output scratch after the loop: head 2's four tiles on columns 64 .. 95, the earlier contents elsewhere. -/
theorem read_after_t3 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t3 (F := F) 𝒱 c bd i arg1 harg1 arg2 harg2 arg3 harg3 arg4 harg4 arg5 harg5 arg6 harg6 arg7 harg7 arg8 harg8 v2 v50 v56 v69 v70 c0_i32_32 X_arg1 G7 G8 k0_t3_loop.trips).2)
      = fun y => if (y 1).val / 32 = 2 then TileStrip.stripFn (strip_t3 (F := F) 𝒱 c bd i arg1 harg1 arg2 harg2 arg3 harg3 arg4 harg4 arg5 harg5 arg6 harg6 arg7 harg7 arg8 harg8 v2 v50 v56 v69 v70 c0_i32_32 X_arg1) y else arg8.view.read (Elt F) f y := by
  rw [pb_t3_trips (F := F) 𝒱 c bd i arg1 harg1 arg2 harg2 arg3 harg3 arg4 harg4 arg5 harg5 arg6 harg6 arg7 harg7 arg8 harg8 v2 v50 v56 v69 v70 c0_i32_32 X_arg1 G7 G8 _ trips_t3]
  exact TileStrip.read_strip 2 (fun j => k0_off6 (tr3 j)) (fun j => k0_off6_inb (tr3 j))
    (fun j => by rw [k0_off6_eq]; rfl) (fun j => by rw [k0_off6_eq]; rfl) (strip_t3 (F := F) 𝒱 c bd i arg1 harg1 arg2 harg2 arg3 harg3 arg4 harg4 arg5 harg5 arg6 harg6 arg7 harg7 arg8 harg8 v2 v50 v56 v69 v70 c0_i32_32 X_arg1) arg8.view f

/-- The same when the loop's stores sit in front of earlier ones: those are read where head 2's columns end. -/
theorem read_after_t3_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t3 (F := F) 𝒱 c bd i arg1 harg1 arg2 harg2 arg3 harg3 arg4 harg4 arg5 harg5 arg6 harg6 arg7 harg7 arg8 harg8 v2 v50 v56 v69 v70 c0_i32_32 X_arg1 G7 G8 k0_t3_loop.trips).2 ++ L))
      = fun y => if (y 1).val / 32 = 2 then TileStrip.stripFn (strip_t3 (F := F) 𝒱 c bd i arg1 harg1 arg2 harg2 arg3 harg3 arg4 harg4 arg5 harg5 arg6 harg6 arg7 harg7 arg8 harg8 v2 v50 v56 v69 v70 c0_i32_32 X_arg1) y else arg8.view.read (Elt F) (arg8.view.writes (Elt F) f L) y := by
  rw [View.writes_append]
  exact read_after_t3 (F := F) 𝒱 c bd i arg1 harg1 arg2 harg2 arg3 harg3 arg4 harg4 arg5 harg5 arg6 harg6 arg7 harg7 arg8 harg8 v2 v50 v56 v69 v70 c0_i32_32 X_arg1 G7 G8 _

/-! ## Head 3: the loop `k0_t4_loop` -/

theorem trips_t4 : k0_t4_loop.trips = 4 := by decide

/-- Trip j of the loop, for j below 4. -/
abbrev tr4 (j : Fin 4) : Fin k0_t4_loop.trips := Fin.cast trips_t4.symm j

/-- The output tile trip j stores: the head's payload of that trip's 512 query rows. -/
def strip_t4 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (j : Fin 4) : TileStrip.STile.Idx → Elt F .f32 :=
  (k0_pay19 v2 v76 v82 (k0_pay18 v2 v72 v74 v78 v80 (View.readAt (Elt F) arg1.view (Rect.unit (s := S1x1x2048x256) (k0_off7 (tr4 j)) S1x1x512x256.size (k0_off7_inb (tr4 j))).toLoadRect X_arg1)))

/-- One trip stores exactly that tile, at rows 512 k .., columns 96 .., whatever the two scratch buffers held. -/
theorem trip_t4_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (k : Fin k0_t4_loop.trips) (f7 : BufTy.Contents (Elt F) arg7.view.ty) (f8 : BufTy.Contents (Elt F) arg8.view.ty) :
    (trip_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 k).2.1 f7 f8
      = [⟨Rect.unit (s := S2048x256) (k0_off8 k) S512x32.size (k0_off8_inb k), (k0_pay19 v2 v76 v82 (k0_pay18 v2 v72 v74 v78 v80 (View.readAt (Elt F) arg1.view (Rect.unit (s := S1x1x2048x256) (k0_off7 k) S1x1x512x256.size (k0_off7_inb k)).toLoadRect X_arg1)))⟩] := by
  unfold trip_k0_t4
  dsimp only
  sl_unfold_run_names
  rw [View.readCov_unit_zero _ zero2]

/-- The four trips' stores into the head-output scratch, last first. -/
theorem pb_t4_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) :
    (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 4).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 3,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 2,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
  have e0 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 0).val).2 = [] := rfl
  have e1 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 1).val).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
    show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 0).val + 1)).2 = _
    rw [pb_k0_t4_succ]; dsimp only; rw [trip_t4_snd, e0]; rfl
  have e2 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 2).val).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
    show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 1).val + 1)).2 = _
    rw [pb_k0_t4_succ]; dsimp only; rw [trip_t4_snd, e1]; rfl
  have e3 : (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 (tr4 3).val).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 2,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
    show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 2).val + 1)).2 = _
    rw [pb_k0_t4_succ]; dsimp only; rw [trip_t4_snd, e2]; rfl
  show (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 ((tr4 3).val + 1)).2 = _
  rw [pb_k0_t4_succ]; dsimp only; rw [trip_t4_snd, e3]; rfl

/-- The four stores, whatever the trip count is called. -/
theorem pb_t4_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 n).2
      = [TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 3,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 2,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 1,
         TileStrip.piece (fun j => k0_off8 (tr4 j)) (fun j => k0_off8_inb (tr4 j)) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) 0] := by
  subst hn; exact pb_t4_snd (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8

/-- The head-output scratch after the loop: head 3's four tiles on columns 96 .. 127, the earlier contents elsewhere. -/
theorem read_after_t4 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 k0_t4_loop.trips).2)
      = fun y => if (y 1).val / 32 = 3 then TileStrip.stripFn (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) y else arg8.view.read (Elt F) f y := by
  rw [pb_t4_trips (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 _ trips_t4]
  exact TileStrip.read_strip 3 (fun j => k0_off8 (tr4 j)) (fun j => k0_off8_inb (tr4 j))
    (fun j => by rw [k0_off8_eq]; rfl) (fun j => by rw [k0_off8_eq]; rfl) (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) arg8.view f

/-- The same when the loop's stores sit in front of earlier ones: those are read where head 3's columns end. -/
theorem read_after_t4_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v50 : FVec F S32x256 .bf16) (v56 : FVec F S1x32 .f32) (v69 : FVec F S2048x32 .bf16) (v70 : FVec F S2048x32 .bf16) (c0_i32_32 : BitVec 32) (v72 : Vec F S32x256 .f32) (v74 : Vec F S32x256 .f32) (v76 : Vec F S32x256 .f32) (v78 : Vec F S32 .f32) (v80 : Vec F S32 .f32) (v82 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 k0_t4_loop.trips).2 ++ L))
      = fun y => if (y 1).val / 32 = 3 then TileStrip.stripFn (strip_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1) y else arg8.view.read (Elt F) (arg8.view.writes (Elt F) f L) y := by
  rw [View.writes_append]
  exact read_after_t4 (F := F) 𝒱 c bd i arg1 harg1 arg2 harg2 arg3 harg3 arg4 harg4 arg5 harg5 arg6 harg6 arg7 harg7 arg8 harg8 v2 v50 v56 v69 v70 c0_i32_32 v72 v74 v76 v78 v80 v82 X_arg1 G7 G8 _

/-! ## Head 4: the loop `k0_t5_loop` -/

theorem trips_t5 : k0_t5_loop.trips = 4 := by decide

/-- Trip j of the loop, for j below 4. -/
abbrev tr5 (j : Fin 4) : Fin k0_t5_loop.trips := Fin.cast trips_t5.symm j

/-- The output tile trip j stores: the head's payload of that trip's 512 query rows. -/
def strip_t5 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (j : Fin 4) : TileStrip.STile.Idx → Elt F .f32 :=
  (k0_pay25 v2 v100 v105 (k0_pay24 v2 v96 v98 v102 v103 (View.readAt (Elt F) arg1.view (Rect.unit (s := S1x1x2048x256) (k0_off9 (tr5 j)) S1x1x512x256.size (k0_off9_inb (tr5 j))).toLoadRect X_arg1)))

/-- One trip stores exactly that tile, at rows 512 k .., columns 128 .., whatever the two scratch buffers held. -/
theorem trip_t5_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (k : Fin k0_t5_loop.trips) (f7 : BufTy.Contents (Elt F) arg7.view.ty) (f8 : BufTy.Contents (Elt F) arg8.view.ty) :
    (trip_k0_t5 (F := F) 𝒱 c bd i arg1 harg1 arg2 harg2 arg3 harg3 arg4 harg4 arg5 harg5 arg6 harg6 arg7 harg7 arg8 harg8 v2 v96 v98 v100 v102 v103 v105 X_arg1 k).2.1 f7 f8
      = [⟨Rect.unit (s := S2048x256) (k0_off10 k) S512x32.size (k0_off10_inb k), (k0_pay25 v2 v100 v105 (k0_pay24 v2 v96 v98 v102 v103 (View.readAt (Elt F) arg1.view (Rect.unit (s := S1x1x2048x256) (k0_off9 k) S1x1x512x256.size (k0_off9_inb k)).toLoadRect X_arg1)))⟩] := by
  unfold trip_k0_t5
  dsimp only
  sl_unfold_run_names
  rw [View.readCov_unit_zero _ zero2]

/-- The four trips' stores into the head-output scratch, last first. -/
theorem pb_t5_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) :
    (pb_k0_t5 (F := F) 𝒱 c bd i arg1 harg1 arg2 harg2 arg3 harg3 arg4 harg4 arg5 harg5 arg6 harg6 arg7 harg7 arg8 harg8 v2 v96 v98 v100 v102 v103 v105 X_arg1 G7 G8 4).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 3,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 2,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
  have e0 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 0).val).2 = [] := rfl
  have e1 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 1).val).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
    show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 0).val + 1)).2 = _
    rw [pb_k0_t5_succ]; dsimp only; rw [trip_t5_snd, e0]; rfl
  have e2 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 2).val).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
    show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 1).val + 1)).2 = _
    rw [pb_k0_t5_succ]; dsimp only; rw [trip_t5_snd, e1]; rfl
  have e3 : (pb_k0_t5 (F := F) 𝒱 c bd i arg1 harg1 arg2 harg2 arg3 harg3 arg4 harg4 arg5 harg5 arg6 harg6 arg7 harg7 arg8 harg8 v2 v96 v98 v100 v102 v103 v105 X_arg1 G7 G8 (tr5 3).val).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 2,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
    show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 2).val + 1)).2 = _
    rw [pb_k0_t5_succ]; dsimp only; rw [trip_t5_snd, e2]; rfl
  show (pb_k0_t5 (F := F) 𝒱 c bd i arg1 harg1 arg2 harg2 arg3 harg3 arg4 harg4 arg5 harg5 arg6 harg6 arg7 harg7 arg8 harg8 v2 v96 v98 v100 v102 v103 v105 X_arg1 G7 G8 ((tr5 3).val + 1)).2 = _
  rw [pb_k0_t5_succ]; dsimp only; rw [trip_t5_snd, e3]; rfl

/-- The four stores, whatever the trip count is called. -/
theorem pb_t5_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t5 (F := F) 𝒱 c bd i arg1 harg1 arg2 harg2 arg3 harg3 arg4 harg4 arg5 harg5 arg6 harg6 arg7 harg7 arg8 harg8 v2 v96 v98 v100 v102 v103 v105 X_arg1 G7 G8 n).2
      = [TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 3,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 2,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 1,
         TileStrip.piece (fun j => k0_off10 (tr5 j)) (fun j => k0_off10_inb (tr5 j)) (strip_t5 (F := F) 𝒱 c bd i arg1 harg1 arg2 harg2 arg3 harg3 arg4 harg4 arg5 harg5 arg6 harg6 arg7 harg7 arg8 harg8 v2 v96 v98 v100 v102 v103 v105 X_arg1) 0] := by
  subst hn; exact pb_t5_snd (F := F) 𝒱 c bd i arg1 harg1 arg2 harg2 arg3 harg3 arg4 harg4 arg5 harg5 arg6 harg6 arg7 harg7 arg8 harg8 v2 v96 v98 v100 v102 v103 v105 X_arg1 G7 G8

/-- The head-output scratch after the loop: head 4's four tiles on columns 128 .. 159, the earlier contents elsewhere. -/
theorem read_after_t5 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t5 (F := F) 𝒱 c bd i arg1 harg1 arg2 harg2 arg3 harg3 arg4 harg4 arg5 harg5 arg6 harg6 arg7 harg7 arg8 harg8 v2 v96 v98 v100 v102 v103 v105 X_arg1 G7 G8 k0_t5_loop.trips).2)
      = fun y => if (y 1).val / 32 = 4 then TileStrip.stripFn (strip_t5 (F := F) 𝒱 c bd i arg1 harg1 arg2 harg2 arg3 harg3 arg4 harg4 arg5 harg5 arg6 harg6 arg7 harg7 arg8 harg8 v2 v96 v98 v100 v102 v103 v105 X_arg1) y else arg8.view.read (Elt F) f y := by
  rw [pb_t5_trips (F := F) 𝒱 c bd i arg1 harg1 arg2 harg2 arg3 harg3 arg4 harg4 arg5 harg5 arg6 harg6 arg7 harg7 arg8 harg8 v2 v96 v98 v100 v102 v103 v105 X_arg1 G7 G8 _ trips_t5]
  exact TileStrip.read_strip 4 (fun j => k0_off10 (tr5 j)) (fun j => k0_off10_inb (tr5 j))
    (fun j => by rw [k0_off10_eq]; rfl) (fun j => by rw [k0_off10_eq]; rfl) (strip_t5 (F := F) 𝒱 c bd i arg1 harg1 arg2 harg2 arg3 harg3 arg4 harg4 arg5 harg5 arg6 harg6 arg7 harg7 arg8 harg8 v2 v96 v98 v100 v102 v103 v105 X_arg1) arg8.view f

/-- The same when the loop's stores sit in front of earlier ones: those are read where head 4's columns end. -/
theorem read_after_t5_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v96 : FVec F S32x256 .bf16) (v98 : FVec F S32x256 .bf16) (v100 : FVec F S32x256 .bf16) (v102 : FVec F S1x32 .f32) (v103 : Vec F S32 .f32) (v105 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t5 (F := F) 𝒱 c bd i arg1 harg1 arg2 harg2 arg3 harg3 arg4 harg4 arg5 harg5 arg6 harg6 arg7 harg7 arg8 harg8 v2 v96 v98 v100 v102 v103 v105 X_arg1 G7 G8 k0_t5_loop.trips).2 ++ L))
      = fun y => if (y 1).val / 32 = 4 then TileStrip.stripFn (strip_t5 (F := F) 𝒱 c bd i arg1 harg1 arg2 harg2 arg3 harg3 arg4 harg4 arg5 harg5 arg6 harg6 arg7 harg7 arg8 harg8 v2 v96 v98 v100 v102 v103 v105 X_arg1) y else arg8.view.read (Elt F) (arg8.view.writes (Elt F) f L) y := by
  rw [View.writes_append]
  exact read_after_t5 (F := F) 𝒱 c bd i arg1 harg1 arg2 harg2 arg3 harg3 arg4 harg4 arg5 harg5 arg6 harg6 arg7 harg7 arg8 harg8 v2 v96 v98 v100 v102 v103 v105 X_arg1 G7 G8 _

/-! ## Head 5: the loop `k0_t6_loop` -/

theorem trips_t6 : k0_t6_loop.trips = 4 := by decide

/-- Trip j of the loop, for j below 4. -/
abbrev tr6 (j : Fin 4) : Fin k0_t6_loop.trips := Fin.cast trips_t6.symm j

/-- The output tile trip j stores: the head's payload of that trip's 512 query rows. -/
def strip_t6 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (j : Fin 4) : TileStrip.STile.Idx → Elt F .f32 :=
  (k0_pay31 v139 (k0_pay30 v119 v125 v138 (View.readAt (Elt F) arg1.view (Rect.unit (s := S1x1x2048x256) (k0_off11 (tr6 j)) S1x1x512x256.size (k0_off11_inb (tr6 j))).toLoadRect X_arg1)))

/-- One trip stores exactly that tile, at rows 512 k .., columns 160 .., whatever the two scratch buffers held. -/
theorem trip_t6_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (k : Fin k0_t6_loop.trips) (f7 : BufTy.Contents (Elt F) arg7.view.ty) (f8 : BufTy.Contents (Elt F) arg8.view.ty) :
    (trip_k0_t6 (F := F) 𝒱 c bd i arg1 harg1 arg2 harg2 arg3 harg3 arg4 harg4 arg5 harg5 arg6 harg6 arg7 harg7 arg8 harg8 v2 v119 v125 v138 v139 c0_i32_68 c1_i32_70 X_arg1 k).2.1 f7 f8
      = [⟨Rect.unit (s := S2048x256) (k0_off12 k) S512x32.size (k0_off12_inb k), (k0_pay31 v139 (k0_pay30 v119 v125 v138 (View.readAt (Elt F) arg1.view (Rect.unit (s := S1x1x2048x256) (k0_off11 k) S1x1x512x256.size (k0_off11_inb k)).toLoadRect X_arg1)))⟩] := by
  unfold trip_k0_t6
  dsimp only
  sl_unfold_run_names
  rw [View.readCov_unit_zero _ zero2]

/-- The four trips' stores into the head-output scratch, last first. -/
theorem pb_t6_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) :
    (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 4).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 3,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 2,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
  have e0 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 0).val).2 = [] := rfl
  have e1 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 1).val).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
    show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 0).val + 1)).2 = _
    rw [pb_k0_t6_succ]; dsimp only; rw [trip_t6_snd, e0]; rfl
  have e2 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 2).val).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
    show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 1).val + 1)).2 = _
    rw [pb_k0_t6_succ]; dsimp only; rw [trip_t6_snd, e1]; rfl
  have e3 : (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 (tr6 3).val).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 2,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
    show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 2).val + 1)).2 = _
    rw [pb_k0_t6_succ]; dsimp only; rw [trip_t6_snd, e2]; rfl
  show (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 ((tr6 3).val + 1)).2 = _
  rw [pb_k0_t6_succ]; dsimp only; rw [trip_t6_snd, e3]; rfl

/-- The four stores, whatever the trip count is called. -/
theorem pb_t6_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) (n : ℕ) (hn : n = 4) :
    (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 n).2
      = [TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 3,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 2,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 1,
         TileStrip.piece (fun j => k0_off12 (tr6 j)) (fun j => k0_off12_inb (tr6 j)) (strip_t6 (F := F) 𝒱 c bd i arg1 harg1 arg2 harg2 arg3 harg3 arg4 harg4 arg5 harg5 arg6 harg6 arg7 harg7 arg8 harg8 v2 v119 v125 v138 v139 c0_i32_68 c1_i32_70 X_arg1) 0] := by
  subst hn; exact pb_t6_snd (F := F) 𝒱 c bd i arg1 harg1 arg2 harg2 arg3 harg3 arg4 harg4 arg5 harg5 arg6 harg6 arg7 harg7 arg8 harg8 v2 v119 v125 v138 v139 c0_i32_68 c1_i32_70 X_arg1 G7 G8

/-- The head-output scratch after the loop: head 5's four tiles on columns 160 .. 191, the earlier contents elsewhere. -/
theorem read_after_t6 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 k0_t6_loop.trips).2)
      = fun y => if (y 1).val / 32 = 5 then TileStrip.stripFn (strip_t6 (F := F) 𝒱 c bd i arg1 harg1 arg2 harg2 arg3 harg3 arg4 harg4 arg5 harg5 arg6 harg6 arg7 harg7 arg8 harg8 v2 v119 v125 v138 v139 c0_i32_68 c1_i32_70 X_arg1) y else arg8.view.read (Elt F) f y := by
  rw [pb_t6_trips (F := F) 𝒱 c bd i arg1 harg1 arg2 harg2 arg3 harg3 arg4 harg4 arg5 harg5 arg6 harg6 arg7 harg7 arg8 harg8 v2 v119 v125 v138 v139 c0_i32_68 c1_i32_70 X_arg1 G7 G8 _ trips_t6]
  exact TileStrip.read_strip 5 (fun j => k0_off12 (tr6 j)) (fun j => k0_off12_inb (tr6 j))
    (fun j => by rw [k0_off12_eq]; rfl) (fun j => by rw [k0_off12_eq]; rfl) (strip_t6 (F := F) 𝒱 c bd i arg1 harg1 arg2 harg2 arg3 harg3 arg4 harg4 arg5 harg5 arg6 harg6 arg7 harg7 arg8 harg8 v2 v119 v125 v138 v139 c0_i32_68 c1_i32_70 X_arg1) arg8.view f

/-- The same when the loop's stores sit in front of earlier ones: those are read where head 5's columns end. -/
theorem read_after_t6_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 k0_t6_loop.trips).2 ++ L))
      = fun y => if (y 1).val / 32 = 5 then TileStrip.stripFn (strip_t6 (F := F) 𝒱 c bd i arg1 harg1 arg2 harg2 arg3 harg3 arg4 harg4 arg5 harg5 arg6 harg6 arg7 harg7 arg8 harg8 v2 v119 v125 v138 v139 c0_i32_68 c1_i32_70 X_arg1) y else arg8.view.read (Elt F) (arg8.view.writes (Elt F) f L) y := by
  rw [View.writes_append]
  exact read_after_t6 (F := F) 𝒱 c bd i arg1 harg1 arg2 harg2 arg3 harg3 arg4 harg4 arg5 harg5 arg6 harg6 arg7 harg7 arg8 harg8 v2 v119 v125 v138 v139 c0_i32_68 c1_i32_70 X_arg1 G7 G8 _

/-! ## Head 6: the loop `k0_t7_loop` -/

theorem trips_t7 : k0_t7_loop.trips = 4 := by decide

/-- Trip j of the loop, for j below 4. -/
abbrev tr7 (j : Fin 4) : Fin k0_t7_loop.trips := Fin.cast trips_t7.symm j

/-- The output tile trip j stores: the head's payload of that trip's 512 query rows. -/
def strip_t7 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (j : Fin 4) : TileStrip.STile.Idx → Elt F .f32 :=
  (k0_pay33 v2 v145 v151 (k0_pay32 v2 v141 v143 v147 v149 (View.readAt (Elt F) arg1.view (Rect.unit (s := S1x1x2048x256) (k0_off13 (tr7 j)) S1x1x512x256.size (k0_off13_inb (tr7 j))).toLoadRect X_arg1)))

/-- One trip stores exactly that tile, at rows 512 k .., columns 192 .., whatever the two scratch buffers held. -/
theorem trip_t7_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (k : Fin k0_t7_loop.trips) (f7 : BufTy.Contents (Elt F) arg7.view.ty) (f8 : BufTy.Contents (Elt F) arg8.view.ty) :
    (trip_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 k).2.1 f7 f8
      = [⟨Rect.unit (s := S2048x256) (k0_off14 k) S512x32.size (k0_off14_inb k), (k0_pay33 v2 v145 v151 (k0_pay32 v2 v141 v143 v147 v149 (View.readAt (Elt F) arg1.view (Rect.unit (s := S1x1x2048x256) (k0_off13 k) S1x1x512x256.size (k0_off13_inb k)).toLoadRect X_arg1)))⟩] := by
  unfold trip_k0_t7
  dsimp only
  sl_unfold_run_names
  rw [View.readCov_unit_zero _ zero2]

/-- The four trips' stores into the head-output scratch, last first. -/
theorem pb_t7_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) :
    (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 4).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 3,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 2,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
  have e0 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 0).val).2 = [] := rfl
  have e1 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 1).val).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
    show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 0).val + 1)).2 = _
    rw [pb_k0_t7_succ]; dsimp only; rw [trip_t7_snd, e0]; rfl
  have e2 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 2).val).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
    show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 1).val + 1)).2 = _
    rw [pb_k0_t7_succ]; dsimp only; rw [trip_t7_snd, e1]; rfl
  have e3 : (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 (tr7 3).val).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 2,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
    show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 2).val + 1)).2 = _
    rw [pb_k0_t7_succ]; dsimp only; rw [trip_t7_snd, e2]; rfl
  show (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 ((tr7 3).val + 1)).2 = _
  rw [pb_k0_t7_succ]; dsimp only; rw [trip_t7_snd, e3]; rfl

/-- The four stores, whatever the trip count is called. -/
theorem pb_t7_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 n).2
      = [TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 3,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 2,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 1,
         TileStrip.piece (fun j => k0_off14 (tr7 j)) (fun j => k0_off14_inb (tr7 j)) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) 0] := by
  subst hn; exact pb_t7_snd (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8

/-- The head-output scratch after the loop: head 6's four tiles on columns 192 .. 223, the earlier contents elsewhere. -/
theorem read_after_t7 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 k0_t7_loop.trips).2)
      = fun y => if (y 1).val / 32 = 6 then TileStrip.stripFn (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) y else arg8.view.read (Elt F) f y := by
  rw [pb_t7_trips (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 _ trips_t7]
  exact TileStrip.read_strip 6 (fun j => k0_off14 (tr7 j)) (fun j => k0_off14_inb (tr7 j))
    (fun j => by rw [k0_off14_eq]; rfl) (fun j => by rw [k0_off14_eq]; rfl) (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) arg8.view f

/-- The same when the loop's stores sit in front of earlier ones: those are read where head 6's columns end. -/
theorem read_after_t7_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v119 : FVec F S32x256 .bf16) (v125 : FVec F S1x32 .f32) (v138 : FVec F S2048x32 .bf16) (v139 : FVec F S2048x32 .bf16) (c0_i32_68 : BitVec 32) (c1_i32_70 : BitVec 32) (v141 : Vec F S32x256 .f32) (v143 : Vec F S32x256 .f32) (v145 : Vec F S32x256 .f32) (v147 : Vec F S32 .f32) (v149 : Vec F S32 .f32) (v151 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 k0_t7_loop.trips).2 ++ L))
      = fun y => if (y 1).val / 32 = 6 then TileStrip.stripFn (strip_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1) y else arg8.view.read (Elt F) (arg8.view.writes (Elt F) f L) y := by
  rw [View.writes_append]
  exact read_after_t7 (F := F) 𝒱 c bd i arg1 harg1 arg2 harg2 arg3 harg3 arg4 harg4 arg5 harg5 arg6 harg6 arg7 harg7 arg8 harg8 v2 v119 v125 v138 v139 c0_i32_68 c1_i32_70 v141 v143 v145 v147 v149 v151 X_arg1 G7 G8 _

/-! ## Head 7: the loop `k0_t8_loop` -/

theorem trips_t8 : k0_t8_loop.trips = 4 := by decide

/-- Trip j of the loop, for j below 4. -/
abbrev tr8 (j : Fin 4) : Fin k0_t8_loop.trips := Fin.cast trips_t8.symm j

/-- The output tile trip j stores: the head's payload of that trip's 512 query rows. -/
def strip_t8 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (j : Fin 4) : TileStrip.STile.Idx → Elt F .f32 :=
  (k0_pay2 v2 v169 v174 (k0_pay1 v2 v165 v167 v171 v173 (View.readAt (Elt F) arg1.view (Rect.unit (s := S1x1x2048x256) (k0_off15 (tr8 j)) S1x1x512x256.size (k0_off15_inb (tr8 j))).toLoadRect X_arg1)))

/-- One trip stores exactly that tile, at rows 512 k .., columns 224 .., whatever the two scratch buffers held. -/
theorem trip_t8_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (k : Fin k0_t8_loop.trips) (f7 : BufTy.Contents (Elt F) arg7.view.ty) (f8 : BufTy.Contents (Elt F) arg8.view.ty) :
    (trip_k0_t8 (F := F) 𝒱 c bd i arg1 harg1 arg2 harg2 arg3 harg3 arg4 harg4 arg5 harg5 arg6 harg6 arg7 harg7 arg8 harg8 v2 v165 v167 v169 v171 v173 v174 X_arg1 k).2.1 f7 f8
      = [⟨Rect.unit (s := S2048x256) (k0_off16 k) S512x32.size (k0_off16_inb k), (k0_pay2 v2 v169 v174 (k0_pay1 v2 v165 v167 v171 v173 (View.readAt (Elt F) arg1.view (Rect.unit (s := S1x1x2048x256) (k0_off15 k) S1x1x512x256.size (k0_off15_inb k)).toLoadRect X_arg1)))⟩] := by
  unfold trip_k0_t8
  dsimp only
  sl_unfold_run_names
  rw [View.readCov_unit_zero _ zero2]

/-- The four trips' stores into the head-output scratch, last first. -/
theorem pb_t8_snd (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) :
    (pb_k0_t8 (F := F) 𝒱 c bd i arg1 harg1 arg2 harg2 arg3 harg3 arg4 harg4 arg5 harg5 arg6 harg6 arg7 harg7 arg8 harg8 v2 v165 v167 v169 v171 v173 v174 X_arg1 G7 G8 4).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 3,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 2,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
  have e0 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 0).val).2 = [] := rfl
  have e1 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 1).val).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
    show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 0).val + 1)).2 = _
    rw [pb_k0_t8_succ]; dsimp only; rw [trip_t8_snd, e0]; rfl
  have e2 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 2).val).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
    show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 1).val + 1)).2 = _
    rw [pb_k0_t8_succ]; dsimp only; rw [trip_t8_snd, e1]; rfl
  have e3 : (pb_k0_t8 (F := F) 𝒱 c bd i arg1 harg1 arg2 harg2 arg3 harg3 arg4 harg4 arg5 harg5 arg6 harg6 arg7 harg7 arg8 harg8 v2 v165 v167 v169 v171 v173 v174 X_arg1 G7 G8 (tr8 3).val).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 2,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
    show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 2).val + 1)).2 = _
    rw [pb_k0_t8_succ]; dsimp only; rw [trip_t8_snd, e2]; rfl
  show (pb_k0_t8 (F := F) 𝒱 c bd i arg1 harg1 arg2 harg2 arg3 harg3 arg4 harg4 arg5 harg5 arg6 harg6 arg7 harg7 arg8 harg8 v2 v165 v167 v169 v171 v173 v174 X_arg1 G7 G8 ((tr8 3).val + 1)).2 = _
  rw [pb_k0_t8_succ]; dsimp only; rw [trip_t8_snd, e3]; rfl

/-- The four stores, whatever the trip count is called. -/
theorem pb_t8_trips (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) (n : ℕ) (hn : n = 4) :
    (pb_k0_t8 (F := F) 𝒱 c bd i arg1 harg1 arg2 harg2 arg3 harg3 arg4 harg4 arg5 harg5 arg6 harg6 arg7 harg7 arg8 harg8 v2 v165 v167 v169 v171 v173 v174 X_arg1 G7 G8 n).2
      = [TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 3,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 2,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 1,
         TileStrip.piece (fun j => k0_off16 (tr8 j)) (fun j => k0_off16_inb (tr8 j)) (strip_t8 (F := F) 𝒱 c bd i arg1 harg1 arg2 harg2 arg3 harg3 arg4 harg4 arg5 harg5 arg6 harg6 arg7 harg7 arg8 harg8 v2 v165 v167 v169 v171 v173 v174 X_arg1) 0] := by
  subst hn; exact pb_t8_snd (F := F) 𝒱 c bd i arg1 harg1 arg2 harg2 arg3 harg3 arg4 harg4 arg5 harg5 arg6 harg6 arg7 harg7 arg8 harg8 v2 v165 v167 v169 v171 v173 v174 X_arg1 G7 G8

/-- The head-output scratch after the loop: head 7's four tiles on columns 224 .. 255, the earlier contents elsewhere. -/
theorem read_after_t8 (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty) :
    arg8.view.read (Elt F) (arg8.view.writes (Elt F) f (pb_k0_t8 (F := F) 𝒱 c bd i arg1 harg1 arg2 harg2 arg3 harg3 arg4 harg4 arg5 harg5 arg6 harg6 arg7 harg7 arg8 harg8 v2 v165 v167 v169 v171 v173 v174 X_arg1 G7 G8 k0_t8_loop.trips).2)
      = fun y => if (y 1).val / 32 = 7 then TileStrip.stripFn (strip_t8 (F := F) 𝒱 c bd i arg1 harg1 arg2 harg2 arg3 harg3 arg4 harg4 arg5 harg5 arg6 harg6 arg7 harg7 arg8 harg8 v2 v165 v167 v169 v171 v173 v174 X_arg1) y else arg8.view.read (Elt F) f y := by
  rw [pb_t8_trips (F := F) 𝒱 c bd i arg1 harg1 arg2 harg2 arg3 harg3 arg4 harg4 arg5 harg5 arg6 harg6 arg7 harg7 arg8 harg8 v2 v165 v167 v169 v171 v173 v174 X_arg1 G7 G8 _ trips_t8]
  exact TileStrip.read_strip 7 (fun j => k0_off16 (tr8 j)) (fun j => k0_off16_inb (tr8 j))
    (fun j => by rw [k0_off16_eq]; rfl) (fun j => by rw [k0_off16_eq]; rfl) (strip_t8 (F := F) 𝒱 c bd i arg1 harg1 arg2 harg2 arg3 harg3 arg4 harg4 arg5 harg5 arg6 harg6 arg7 harg7 arg8 harg8 v2 v165 v167 v169 v171 v173 v174 X_arg1) arg8.view f

/-- The same when the loop's stores sit in front of earlier ones: those are read where head 7's columns end. -/
theorem read_after_t8_app (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole) (v2 : FVec F S2048x256 .bf16) (v165 : FVec F S32x256 .bf16) (v167 : FVec F S32x256 .bf16) (v169 : FVec F S32x256 .bf16) (v171 : FVec F S1x32 .f32) (v173 : FVec F S1x32 .f32) (v174 : Vec F S32 .f32) (X_arg1 : BufTy.Contents (Elt F) arg1.view.ty) (G7 : BufTy.Contents (Elt F) arg7.view.ty) (G8 : BufTy.Contents (Elt F) arg8.view.ty) (f : BufTy.Contents (Elt F) arg8.view.ty)
    (L : List (View.Piece (Elt F) S2048x256 .f32)) :
    arg8.view.read (Elt F) (arg8.view.writes (Elt F) f ((pb_k0_t8 (F := F) 𝒱 c bd i arg1 harg1 arg2 harg2 arg3 harg3 arg4 harg4 arg5 harg5 arg6 harg6 arg7 harg7 arg8 harg8 v2 v165 v167 v169 v171 v173 v174 X_arg1 G7 G8 k0_t8_loop.trips).2 ++ L))
      = fun y => if (y 1).val / 32 = 7 then TileStrip.stripFn (strip_t8 (F := F) 𝒱 c bd i arg1 harg1 arg2 harg2 arg3 harg3 arg4 harg4 arg5 harg5 arg6 harg6 arg7 harg7 arg8 harg8 v2 v165 v167 v169 v171 v173 v174 X_arg1) y else arg8.view.read (Elt F) (arg8.view.writes (Elt F) f L) y := by
  rw [View.writes_append]
  exact read_after_t8 (F := F) 𝒱 c bd i arg1 harg1 arg2 harg2 arg3 harg3 arg4 harg4 arg5 harg5 arg6 harg6 arg7 harg7 arg8 harg8 v2 v165 v167 v169 v171 v173 v174 X_arg1 G7 G8 _

/-! ## All eight heads -/

/-- The eight heads' tiles side by side: the head-output scratch as one function of its index. -/
def oaccOf (s1 s2 s3 s4 s5 s6 s7 s8 : Fin 4 → TileStrip.STile.Idx → Elt F .f32) : TileStrip.SBuf.Idx → Elt F .f32 := fun y =>
  if (y 1).val / 32 = 7 then TileStrip.stripFn s8 y else if (y 1).val / 32 = 6 then TileStrip.stripFn s7 y
  else if (y 1).val / 32 = 5 then TileStrip.stripFn s6 y else if (y 1).val / 32 = 4 then TileStrip.stripFn s5 y
  else if (y 1).val / 32 = 3 then TileStrip.stripFn s4 y else if (y 1).val / 32 = 2 then TileStrip.stripFn s3 y
  else if (y 1).val / 32 = 1 then TileStrip.stripFn s2 y else TileStrip.stripFn s1 y

/-- Every column belongs to one of the eight heads, so nothing of the entry contents is left. -/
theorem chain_total (s1 s2 s3 s4 s5 s6 s7 s8 : Fin 4 → TileStrip.STile.Idx → Elt F .f32) (g : TileStrip.SBuf.Idx → Elt F .f32) :
    (fun y : TileStrip.SBuf.Idx => if (y 1).val / 32 = 7 then TileStrip.stripFn s8 y else if (y 1).val / 32 = 6 then TileStrip.stripFn s7 y
      else if (y 1).val / 32 = 5 then TileStrip.stripFn s6 y else if (y 1).val / 32 = 4 then TileStrip.stripFn s5 y
      else if (y 1).val / 32 = 3 then TileStrip.stripFn s4 y else if (y 1).val / 32 = 2 then TileStrip.stripFn s3 y
      else if (y 1).val / 32 = 1 then TileStrip.stripFn s2 y else if (y 1).val / 32 = 0 then TileStrip.stripFn s1 y else g y)
      = oaccOf s1 s2 s3 s4 s5 s6 s7 s8 := by
  funext y
  have h1 : (y 1).val < 256 := (y 1).isLt
  unfold oaccOf
  by_cases c7 : (y 1).val / 32 = 7
  · rw [if_pos c7, if_pos c7]
  rw [if_neg c7, if_neg c7]
  by_cases c6 : (y 1).val / 32 = 6
  · rw [if_pos c6, if_pos c6]
  rw [if_neg c6, if_neg c6]
  by_cases c5 : (y 1).val / 32 = 5
  · rw [if_pos c5, if_pos c5]
  rw [if_neg c5, if_neg c5]
  by_cases c4 : (y 1).val / 32 = 4
  · rw [if_pos c4, if_pos c4]
  rw [if_neg c4, if_neg c4]
  by_cases c3 : (y 1).val / 32 = 3
  · rw [if_pos c3, if_pos c3]
  rw [if_neg c3, if_neg c3]
  by_cases c2 : (y 1).val / 32 = 2
  · rw [if_pos c2, if_pos c2]
  rw [if_neg c2, if_neg c2]
  by_cases c1 : (y 1).val / 32 = 1
  · rw [if_pos c1, if_pos c1]
  rw [if_neg c1, if_neg c1]
  have c0 : (y 1).val / 32 = 0 := by omega
  rw [if_pos c0]

end Cert.KernelIdeal.GenP

end
-- ==== Proof.Spec.lean ====
/-
  MULTI-HEAD SELF-ATTENTION OVER THE EXTENDED REALS: the two orders of the softmax-weighted average, as functions.

  For one sequence group, a query token's input row xq, all 2048 tokens' input rows xf, and one head's three 32-row slices
  (wq, wk, wv) of the projection matrix with their bias slices (bq, bk, bv):
      q(e)    = sum_c xq(c) * wq(e,c) + bq(e)
      k(m,e)  = sum_c xf(m,c) * wk(e,c) + bk(e),   v(m,e) likewise with wv, bv
      s(m)    = (sum_e q(e) * k(m,e)) * 2^-10
      mx      = the maximum of s over the 2048 tokens, started from minus infinity
      p(m)    = exp(s(m) - mx)
  and the head's output coordinate d is the p-weighted average of v(.,d): either the weighted sum divided once by the sum
  of the weights (attnK), or the sum of v weighted by the already normalised weights (attnR). The whole layer's output
  at (n, l, o) is the output projection sum_c head(n, c / 32, l, c % 32) * wo(o, c) + bo(o) of the heads side by side.
-/
import Idealize.ShloMosaic.PureOps.Ideal
import Idealize.ShloMosaic.Lib.ValueIdx

noncomputable section

open scoped BigOperators

namespace Cert.Mhsa.Spec

open Idealize.ShloMosaic Idealize.ShloMosaic.ValueIdx

/-- The score scale 2^-10 as both programs spell it, and the reductions' starting values. -/
abbrev scale : EReal := Ideal.ofBits .f32 0x3A800000#32
abbrev negInf : EReal := Ideal.ofBits .f32 0xFF800000#32

section Head
variable (xf : Fin 2048 → Fin 256 → EReal) (xq : Fin 256 → EReal) (wq wk wv : Fin 32 → Fin 256 → EReal) (bq bk bv : Fin 32 → EReal)

/-- One query token's projection onto a head's 32 query rows. -/
def qvec (e : Fin 32) : EReal := (∑ c : Fin 256, xq c * wq e c) + bq e
/-- Every token's projection onto 32 rows (used for the keys and for the values). -/
def tokProj (w : Fin 32 → Fin 256 → EReal) (b : Fin 32 → EReal) (m : Fin 2048) (e : Fin 32) : EReal :=
  (∑ c : Fin 256, xf m c * w e c) + b e
/-- The scaled score of the query token against token m. -/
def score (m : Fin 2048) : EReal := (∑ e : Fin 32, qvec xq wq bq e * tokProj xf wk bk m e) * scale
/-- The row maximum, started from minus infinity. -/
def rowMax : EReal := (Finset.univ : Finset (Fin 2048)).fold max negInf (score xf xq wq wk bq bk)
/-- The shifted exponentials. -/
def pexp (m : Fin 2048) : EReal := Ideal.exp (score xf xq wq wk bq bk m - rowMax xf xq wq wk bq bk)
/-- Their sum. -/
def den : EReal := ∑ m : Fin 2048, pexp xf xq wq wk bq bk m

/-- Weighted sum first, one division after. -/
def attnK (d : Fin 32) : EReal :=
  Ideal.div (∑ m : Fin 2048, pexp xf xq wq wk bq bk m * tokProj xf wv bv m d) (den xf xq wq wk bq bk)
/-- Normalised weights first, weighted sum after. -/
def attnR (d : Fin 32) : EReal :=
  ∑ m : Fin 2048, Ideal.div (pexp xf xq wq wk bq bk m) (den xf xq wq wk bq bk) * tokProj xf wv bv m d
end Head

abbrev SX : Shape := ⟨4, ![1, 4, 2048, 256]⟩
abbrev SW : Shape := ⟨2, ![768, 256]⟩
abbrev SB : Shape := ⟨1, ![768]⟩
abbrev SWo : Shape := ⟨2, ![256, 256]⟩
abbrev SBo : Shape := ⟨1, ![256]⟩

/-- Row 32 * h + e of block g (0 queries, 1 keys, 2 values) of the 768-row projection matrix. -/
def prow (g : Fin 3) (h : Fin 8) (e : Fin 32) : Fin 768 :=
  ⟨256 * g.val + 32 * h.val + e.val, by have := g.isLt; have := h.isLt; have := e.isLt; omega⟩

section Layer
variable (x : SX.Idx → EReal) (w : SW.Idx → EReal) (b : SB.Idx → EReal) (wo : SWo.Idx → EReal) (bo : SBo.Idx → EReal)

/-- A head's output with either order `attn` of the average, at sequence group n, head h, token l, coordinate d. -/
def headOf (attn : (Fin 2048 → Fin 256 → EReal) → (Fin 256 → EReal) → (Fin 32 → Fin 256 → EReal) → (Fin 32 → Fin 256 → EReal)
      → (Fin 32 → Fin 256 → EReal) → (Fin 32 → EReal) → (Fin 32 → EReal) → (Fin 32 → EReal) → Fin 32 → EReal)
    (n : Fin 4) (h : Fin 8) (l : Fin 2048) (d : Fin 32) : EReal :=
  attn (fun m c => x (ix4 (0 : Fin 1) n m c)) (fun c => x (ix4 (0 : Fin 1) n l c))
    (fun e c => w (ix2 (prow 0 h e) c)) (fun e c => w (ix2 (prow 1 h e) c)) (fun e c => w (ix2 (prow 2 h e) c))
    (fun e => b (ix1 (prow 0 h e))) (fun e => b (ix1 (prow 1 h e))) (fun e => b (ix1 (prow 2 h e))) d

/-- The heads side by side: column c of token l holds head c / 32, coordinate c % 32. -/
def concatOf (head : Fin 4 → Fin 8 → Fin 2048 → Fin 32 → EReal) (n : Fin 4) (l : Fin 2048) (c : Fin 256) : EReal :=
  head n ⟨c.val / 32, by have := c.isLt; omega⟩ l ⟨c.val % 32, Nat.mod_lt _ (by norm_num)⟩

/-- The output projection of the concatenated heads. -/
def outOf (head : Fin 4 → Fin 8 → Fin 2048 → Fin 32 → EReal) (n : Fin 4) (l : Fin 2048) (o : Fin 256) : EReal :=
  (∑ c : Fin 256, concatOf head n l c * wo (ix2 o c)) + bo (ix1 o)

/-- The layer with the kernel's order of the average, and with the reference's. -/
def kerOut : SX.Idx → EReal := fun i => outOf wo bo (headOf x w b attnK) (i 1) (i 2) (i 3)
def refOut : SX.Idx → EReal := fun i => outOf wo bo (headOf x w b attnR) (i 1) (i 2) (i 3)
end Layer

end Cert.Mhsa.Spec

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.LibKeepdims.lean ====
/-
  A COLUMN KEPT AS A UNIT AXIS: two layout operations read at an index.

  A reduction along the last axis of an `[a, b]` matrix gives an `[a]` vector; keeping the reduced axis as a unit axis
  casts it to `[a, 1]`, and using it against the matrix again broadcasts that column to `[a, b]`. At an index:
    * the cast  `[a] → [a, 1]`  reads, at `(i, u)`, the vector at `i` (row-major position `i * 1 + u = i`);
    * the broadcast `[a, 1] → [a, b]` reads, at `(p, c)`, the column at `(p, 0)`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims
-- ==== Proof.HeadValue.lean ====
/-
  ONE HEAD OF THE FUSED KERNEL, READ AT AN INDEX.

  For one head the kernel projects every token's row onto 32 key coordinates and 32 value coordinates, projects a tile of
  512 query rows onto 32 query coordinates, multiplies queries by keys into a [512, 2048] block of scores scaled by
  2^-10, and then, row by row, subtracts the row maximum, exponentiates, sums, multiplies the exponentials by the
  values and divides by the row sum. On the extended reals a narrowing of the format is the identity, a product into
  a zero accumulator is the plain contraction sum, and each transpose, cast and broadcast reads one entry of its
  operand; so at entry (r, d) the result is the weighted sum divided once by the sum of the weights, as the
  specification writes it (Spec.attnK). This module states that once, over the four blocks the eight heads share
  (token projection, query projection, scores, normalised average); the heads differ only in how far their operands
  were prepared beforehand.
-/
import proofs.«127032_j4604204941406_2_alg».proof.Proof.Gen.KernelIdeal.Skeleton
import proofs.«127032_j4604204941406_2_alg».proof.Proof.Spec
import proofs.«127032_j4604204941406_2_alg».proof.Proof.LibPlainDot
import proofs.«127032_j4604204941406_2_alg».proof.Proof.LibKeepdims
import Idealize.ShloMosaic.Lib.ValueLayout

noncomputable section

open scoped BigOperators

namespace Cert.Mhsa.HeadValue

open Cert.KernelIdeal Cert.KernelIdeal.Gen Idealize.ShloMosaic Idealize.ShloMosaic.ValueIdx

/-! ## The five products into a zero accumulator, as sums over the inner extent -/

/-- Tokens [2048, 256] by a transposed weight block [256, 32]. -/
theorem mm_tok {φ₁ φ₂ : FTy} (x : FVec Ideal S2048x256 φ₁) (w : FVec Ideal S256x32 φ₂) (m : Fin 2048) (e : Fin 32) :
    matmul dot_S2048x256_S256x32_S2048x32_1_0_0_1_n_n none x w (constant S2048x32 .f32 0x00000000#32) (ix2 m e)
      = ∑ c : Fin 256, x (ix2 m c) * w (ix2 c e) := by
  refine (Ideal.matmul_constant_zero_apply _ none x w (ix2 m e)).trans ?_
  exact PlainDot.contraction_eq_sum dot_S2048x256_S256x32_S2048x32_1_0_0_1_n_n rfl rfl (fun _ _ => rfl)
    (fun j k => DotDims.lhsIdx_val_of_single _ rfl j k) (fun j k => DotDims.rhsIdx_val_of_single _ rfl j k) (fun _ _ => rfl) x w m e

/-- A query tile [512, 256] by a transposed weight block [256, 32]. -/
theorem mm_qry {φ₁ φ₂ : FTy} (x : FVec Ideal S512x256 φ₁) (w : FVec Ideal S256x32 φ₂) (m : Fin 512) (e : Fin 32) :
    matmul dot_S512x256_S256x32_S512x32_1_0_0_1_n_n none x w (constant S512x32 .f32 0x00000000#32) (ix2 m e)
      = ∑ c : Fin 256, x (ix2 m c) * w (ix2 c e) := by
  refine (Ideal.matmul_constant_zero_apply _ none x w (ix2 m e)).trans ?_
  exact PlainDot.contraction_eq_sum dot_S512x256_S256x32_S512x32_1_0_0_1_n_n rfl rfl (fun _ _ => rfl)
    (fun j k => DotDims.lhsIdx_val_of_single _ rfl j k) (fun j k => DotDims.rhsIdx_val_of_single _ rfl j k) (fun _ _ => rfl) x w m e

/-- Queries [512, 32] by transposed keys [32, 2048]. -/
theorem mm_score {φ₁ φ₂ : FTy} (x : FVec Ideal S512x32 φ₁) (w : FVec Ideal S32x2048 φ₂) (m : Fin 512) (e : Fin 2048) :
    matmul dot_S512x32_S32x2048_S512x2048_1_0_0_1_n_n none x w (constant S512x2048 .f32 0x00000000#32) (ix2 m e)
      = ∑ c : Fin 32, x (ix2 m c) * w (ix2 c e) := by
  refine (Ideal.matmul_constant_zero_apply _ none x w (ix2 m e)).trans ?_
  exact PlainDot.contraction_eq_sum dot_S512x32_S32x2048_S512x2048_1_0_0_1_n_n rfl rfl (fun _ _ => rfl)
    (fun j k => DotDims.lhsIdx_val_of_single _ rfl j k) (fun j k => DotDims.rhsIdx_val_of_single _ rfl j k) (fun _ _ => rfl) x w m e

/-- Weights [512, 2048] by values [2048, 32]. -/
theorem mm_avg {φ₁ φ₂ : FTy} (x : FVec Ideal S512x2048 φ₁) (w : FVec Ideal S2048x32 φ₂) (m : Fin 512) (e : Fin 32) :
    matmul dot_S512x2048_S2048x32_S512x32_1_0_0_1_n_n none x w (constant S512x32 .f32 0x00000000#32) (ix2 m e)
      = ∑ c : Fin 2048, x (ix2 m c) * w (ix2 c e) := by
  refine (Ideal.matmul_constant_zero_apply _ none x w (ix2 m e)).trans ?_
  exact PlainDot.contraction_eq_sum dot_S512x2048_S2048x32_S512x32_1_0_0_1_n_n rfl rfl (fun _ _ => rfl)
    (fun j k => DotDims.lhsIdx_val_of_single _ rfl j k) (fun j k => DotDims.rhsIdx_val_of_single _ rfl j k) (fun _ _ => rfl) x w m e

/-- Concatenated heads [2048, 256] by the transposed output matrix [256, 256]. -/
theorem mm_out {φ₁ φ₂ : FTy} (x : FVec Ideal S2048x256 φ₁) (w : FVec Ideal S256x256 φ₂) (m : Fin 2048) (e : Fin 256) :
    matmul dot_S2048x256_S256x256_S2048x256_1_0_0_1_n_n none x w (constant S2048x256 .f32 0x00000000#32) (ix2 m e)
      = ∑ c : Fin 256, x (ix2 m c) * w (ix2 c e) := by
  refine (Ideal.matmul_constant_zero_apply _ none x w (ix2 m e)).trans ?_
  exact PlainDot.contraction_eq_sum dot_S2048x256_S256x256_S2048x256_1_0_0_1_n_n rfl rfl (fun _ _ => rfl)
    (fun j k => DotDims.lhsIdx_val_of_single _ rfl j k) (fun j k => DotDims.rhsIdx_val_of_single _ rfl j k) (fun _ _ => rfl) x w m e

/-! ## Two casts that drop or add the two leading unit axes -/

/-- A `[1, 1, a, b]` array cast to `[a, b]` reads, at `(i, j)`, the operand at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(0, 0, i, j)`, the operand at `(i, j)`. -/
theorem shapeCast_ab_11ab_apply {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

/-! ## The two transposes -/

/-- A weight block transposed reads, at `(c, e)`, the block at `(e, c)`. -/
theorem wT_apply (w : FVec Ideal S32x256 .bf16) (c : Fin 256) (e : Fin 32) :
    transpose S256x32 [1, 0] w transposes_S32x256_p1_0_S256x32 (ix2 c e) = w (ix2 e c) :=
  transpose_ix2_apply w _ c e

/-- The keys transposed read, at `(e, m)`, the keys at `(m, e)`. -/
theorem kT_apply (k : FVec Ideal S2048x32 .bf16) (e : Fin 32) (m : Fin 2048) :
    transpose S32x2048 [1, 0] k transposes_S2048x32_p1_0_S32x2048 (ix2 e m) = k (ix2 m e) :=
  transpose_ix2_apply k _ e m

/-- The output matrix transposed reads, at `(c, o)`, the matrix at `(o, c)`. -/
theorem woT_apply (w : FVec Ideal S256x256 .bf16) (c o : Fin 256) :
    transpose S256x256 [1, 0] w transposes_S256x256_p1_0_S256x256 (ix2 c o) = w (ix2 o c) :=
  transpose_ix2_apply w _ c o

/-- The query tile without its two unit axes. -/
theorem qtile_apply (v203 : Vec Ideal S1x1x512x256 .f32) (r : Fin 512) (c : Fin 256) :
    shapeCast S512x256 v203 shapeCasts_S1x1x512x256_S512x256 (ix2 r c) = v203 (ix4 (0 : Fin 1) (0 : Fin 1) r c) :=
  shapeCast_11ab_ab_apply v203 _ r c

/-! ## The four blocks a head is made of -/

/-- Every token's projection onto 32 coordinates: the product with the transposed weight block plus the bias row. -/
def tokP (x : FVec Ideal S2048x256 .bf16) (w : FVec Ideal S32x256 .bf16) (b : FVec Ideal S1x32 .f32) : FVec Ideal S2048x32 .bf16 :=
  truncf .bf16 (addf (matmul dot_S2048x256_S256x32_S2048x32_1_0_0_1_n_n none x
      (transpose S256x32 [1, 0] w transposes_S32x256_p1_0_S256x32) (constant S2048x32 .f32 0x00000000#32))
    (broadcastTo S2048x32 b broadcasts_S1x32_S2048x32)) bitsLt_bf16_f32

/-- The query tile's projection onto 32 coordinates. -/
def qryP (v203 : Vec Ideal S1x1x512x256 .f32) (w : FVec Ideal S32x256 .bf16) (b : FVec Ideal S1x32 .f32) : FVec Ideal S512x32 .bf16 :=
  truncf .bf16 (addf (matmul dot_S512x256_S256x32_S512x32_1_0_0_1_n_n none
      (truncf .bf16 (shapeCast S512x256 v203 shapeCasts_S1x1x512x256_S512x256) bitsLt_bf16_f32)
      (transpose S256x32 [1, 0] w transposes_S32x256_p1_0_S256x32) (constant S512x32 .f32 0x00000000#32))
    (broadcastTo S512x32 b broadcasts_S1x32_S512x32)) bitsLt_bf16_f32

/-- The scaled scores of a query tile against all keys. -/
def scoreP (q : FVec Ideal S512x32 .bf16) (k : FVec Ideal S2048x32 .bf16) : FVec Ideal S512x2048 .f32 :=
  shapeCast S512x2048 (mulf (matmul dot_S512x32_S32x2048_S512x2048_1_0_0_1_n_n none q
      (transpose S32x2048 [1, 0] k transposes_S2048x32_p1_0_S32x2048) (constant S512x2048 .f32 0x00000000#32))
    (broadcast S512x2048 (Scalar.ofBits .f32 0x3A800000#32))) shapeCasts_S512x2048_S512x2048

/-- The rows' shifted exponentials. -/
def expP (s : Vec Ideal S512x2048 .f32) : FVec Ideal S512x2048 .f32 :=
  exp (subf s (broadcastTo S512x2048 (shapeCast S512x1
    (multiReduction .maximumf [1] S512 s 0xFF800000#32 reduces_S512x2048_S512 (.inl rfl) rfl) shapeCasts_S512_S512x1)
    broadcasts_S512x1_S512x2048))

/-- The exponential-weighted sum of the values divided by the sum of the exponentials. -/
def tailP (v : FVec Ideal S2048x32 .bf16) (s : Vec Ideal S512x2048 .f32) : FVec Ideal S512x32 .f32 :=
  shapeCast S512x32 (divf (matmul dot_S512x2048_S2048x32_S512x32_1_0_0_1_n_n none
      (truncf .bf16 (expP s) bitsLt_bf16_f32) v (constant S512x32 .f32 0x00000000#32))
    (broadcastTo S512x32 (shapeCast S512x1
      (multiReduction .add [1] S512 (expP s) 0x00000000#32 reduces_S512x2048_S512 (.inl rfl) rfl) shapeCasts_S512_S512x1)
      broadcasts_S512x1_S512x32)) shapeCasts_S512x32_S512x32

/-- A bias vector kept as a one-row matrix reads its entry. -/
theorem bias_apply (b : Vec Ideal S32 .f32) (e : Fin 32) :
    shapeCast S1x32 b shapeCasts_S32_S1x32 (ix2 (0 : Fin 1) e) = b (ix1 e) :=
  shapeCast_a_1a_apply b _ 0 e

theorem tokP_apply (x : FVec Ideal S2048x256 .bf16) (w : FVec Ideal S32x256 .bf16) (b : FVec Ideal S1x32 .f32) (m : Fin 2048) (e : Fin 32) :
    tokP x w b (ix2 m e)
      = Spec.tokProj (fun m c => x (ix2 m c)) (fun e c => w (ix2 e c)) (fun e => b (ix2 (0 : Fin 1) e)) m e := by
  show matmul _ none x _ _ (ix2 m e) + broadcastTo S2048x32 b broadcasts_S1x32_S2048x32 (ix2 m e) = _
  rw [mm_tok, broadcastTo_1b_ab_apply]
  exact congrArg (· + b (ix2 (0 : Fin 1) e)) (Finset.sum_congr rfl fun c _ => congrArg (x (ix2 m c) * ·) (wT_apply w c e))

theorem qryP_apply (v203 : Vec Ideal S1x1x512x256 .f32) (w : FVec Ideal S32x256 .bf16) (b : FVec Ideal S1x32 .f32) (r : Fin 512) (e : Fin 32) :
    qryP v203 w b (ix2 r e)
      = Spec.qvec (fun c => v203 (ix4 (0 : Fin 1) (0 : Fin 1) r c)) (fun e c => w (ix2 e c)) (fun e => b (ix2 (0 : Fin 1) e)) e := by
  show matmul _ none _ _ _ (ix2 r e) + broadcastTo S512x32 b broadcasts_S1x32_S512x32 (ix2 r e) = _
  rw [mm_qry, broadcastTo_1b_ab_apply]
  exact congrArg (· + b (ix2 (0 : Fin 1) e)) (Finset.sum_congr rfl fun c _ => congrArg₂ (· * ·) (qtile_apply v203 r c) (wT_apply w c e))

/-- The scores at `(r, m)`: the query row against key row `m`, scaled. -/
theorem scoreP_apply (q : FVec Ideal S512x32 .bf16) (k : FVec Ideal S2048x32 .bf16) (r : Fin 512) (m : Fin 2048) :
    scoreP q k (ix2 r m) = (∑ e : Fin 32, q (ix2 r e) * k (ix2 m e)) * Spec.scale := by
  unfold scoreP
  rw [shapeCast_self]
  show matmul _ none q _ _ (ix2 r m) * Spec.scale = _
  rw [mm_score]
  exact congrArg (· * Spec.scale) (Finset.sum_congr rfl fun e _ => congrArg (q (ix2 r e) * ·) (kT_apply k e m))

/-- The lane reductions' inserted index: row `r`, lane `m`. -/
theorem lift_row (r : Fin 512) (m : Fin 2048) : reduces_S512x2048_S512.lift (ix1 r) m = ix2 r m := by
  funext a
  refine Fin.ext ?_
  match a with
  | ⟨0, _⟩ => rfl
  | ⟨1, _⟩ => rfl

/-- The row maximum, kept as a column and spread over the row again, at `(r, m)`. -/
theorem rowmax_apply (s : Vec Ideal S512x2048 .f32) (r : Fin 512) (m : Fin 2048) :
    broadcastTo S512x2048 (shapeCast S512x1
        (multiReduction (F := Ideal) .maximumf [1] S512 s 0xFF800000#32 reduces_S512x2048_S512 (.inl rfl) rfl) shapeCasts_S512_S512x1)
      broadcasts_S512x1_S512x2048 (ix2 r m)
      = (Finset.univ : Finset (Fin 2048)).fold max Spec.negInf (fun m => s (ix2 r m)) := by
  refine (Keepdims.broadcastTo_a1_ab_apply _ _ r m).trans ?_
  refine (Keepdims.shapeCast_a_a1_apply _ _ r 0).trans ?_
  refine (Ideal.multiReduction_maximumf_single s _ reduces_S512x2048_S512 (.inl rfl) rfl (ix1 r)).trans ?_
  exact congrArg ((Finset.univ : Finset (Fin 2048)).fold max Spec.negInf) (funext fun m => congrArg s (lift_row r m))

theorem expP_apply (s : Vec Ideal S512x2048 .f32) (r : Fin 512) (m : Fin 2048) :
    expP s (ix2 r m) = Ideal.exp (s (ix2 r m) - (Finset.univ : Finset (Fin 2048)).fold max Spec.negInf (fun m => s (ix2 r m))) :=
  congrArg (fun t => Ideal.exp (s (ix2 r m) - t)) (rowmax_apply s r m)

/-- The exponentials' row sum, kept as a column and spread over the 32 output coordinates, at `(r, d)`. -/
theorem rowsum_apply (p : FVec Ideal S512x2048 .f32) (r : Fin 512) (d : Fin 32) :
    broadcastTo S512x32 (shapeCast S512x1
        (multiReduction .add [1] S512 p 0x00000000#32 reduces_S512x2048_S512 (.inl rfl) rfl) shapeCasts_S512_S512x1)
      broadcasts_S512x1_S512x32 (ix2 r d)
      = ∑ m : Fin 2048, p (ix2 r m) := by
  refine (Keepdims.broadcastTo_a1_ab_apply _ _ r d).trans ?_
  refine (Keepdims.shapeCast_a_a1_apply _ _ r 0).trans ?_
  refine (Ideal.multiReduction_add_single p _ reduces_S512x2048_S512 (.inl rfl) rfl (ix1 r)).trans ?_
  exact Finset.sum_congr rfl fun m _ => congrArg p (lift_row r m)

theorem tailP_apply (v : FVec Ideal S2048x32 .bf16) (s : Vec Ideal S512x2048 .f32) (r : Fin 512) (d : Fin 32) :
    tailP v s (ix2 r d) = Ideal.div (∑ m : Fin 2048, expP s (ix2 r m) * v (ix2 m d)) (∑ m : Fin 2048, expP s (ix2 r m)) := by
  unfold tailP
  rw [shapeCast_self]
  exact congrArg₂ Ideal.div (mm_avg _ v r d) (rowsum_apply (expP s) r d)

/-- The same with the score row and the value column named. -/
theorem tailP_of (v : FVec Ideal S2048x32 .bf16) (s : Vec Ideal S512x2048 .f32) (r : Fin 512) (d : Fin 32)
    (S V : Fin 2048 → EReal) (hS : ∀ m, s (ix2 r m) = S m) (hV : ∀ m, v (ix2 m d) = V m) :
    tailP v s (ix2 r d)
      = Ideal.div (∑ m : Fin 2048, Ideal.exp (S m - (Finset.univ : Finset (Fin 2048)).fold max Spec.negInf S) * V m)
          (∑ m : Fin 2048, Ideal.exp (S m - (Finset.univ : Finset (Fin 2048)).fold max Spec.negInf S)) := by
  obtain rfl : (fun m => s (ix2 r m)) = S := funext hS
  obtain rfl : (fun m => v (ix2 m d)) = V := funext hV
  rw [tailP_apply]
  exact congrArg₂ Ideal.div (Finset.sum_congr rfl fun m _ => congrArg (· * v (ix2 m d)) (expP_apply s r m))
    (Finset.sum_congr rfl fun m _ => expP_apply s r m)

/-- The scores with the query row and the key row named. -/
theorem scoreP_of (q : FVec Ideal S512x32 .bf16) (k : FVec Ideal S2048x32 .bf16) (r : Fin 512) (m : Fin 2048)
    (Q K : Fin 32 → EReal) (hQ : ∀ e, q (ix2 r e) = Q e) (hK : ∀ e, k (ix2 m e) = K e) :
    scoreP q k (ix2 r m) = (∑ e : Fin 32, Q e * K e) * Spec.scale := by
  obtain rfl : (fun e => q (ix2 r e)) = Q := funext hQ
  obtain rfl : (fun e => k (ix2 m e)) = K := funext hK
  exact scoreP_apply q k r m

/-! ## One head -/

/-- A head over the token block `x`, raw weight blocks and raw bias vectors, at tile entry `(r, d)`. -/
theorem core (x : FVec Ideal S2048x256 .bf16) (X : Fin 2048 → Fin 256 → EReal) (hx : ∀ m c, x (ix2 m c) = X m c)
    (wq wk wv : Vec Ideal S32x256 .f32) (bq bk bv : Vec Ideal S32 .f32) (v203 : Vec Ideal S1x1x512x256 .f32)
    (r : Fin 512) (d : Fin 32) :
    tailP (tokP x (truncf .bf16 wv bitsLt_bf16_f32) (shapeCast S1x32 bv shapeCasts_S32_S1x32))
        (scoreP (qryP v203 (truncf .bf16 wq bitsLt_bf16_f32) (shapeCast S1x32 bq shapeCasts_S32_S1x32))
          (tokP x (truncf .bf16 wk bitsLt_bf16_f32) (shapeCast S1x32 bk shapeCasts_S32_S1x32))) (ix2 r d)
      = Spec.attnK X (fun c => v203 (ix4 (0 : Fin 1) (0 : Fin 1) r c)) (fun e c => wq (ix2 e c)) (fun e c => wk (ix2 e c))
          (fun e c => wv (ix2 e c)) (fun e => bq (ix1 e)) (fun e => bk (ix1 e)) (fun e => bv (ix1 e)) d := by
  obtain rfl : (fun m c => x (ix2 m c)) = X := funext fun m => funext fun c => hx m c
  have hb : ∀ b : Vec Ideal S32 .f32, (fun e => shapeCast S1x32 b shapeCasts_S32_S1x32 (ix2 (0 : Fin 1) e)) = fun e => b (ix1 e) :=
    fun b => funext fun e => bias_apply b e
  refine (tailP_of _ _ r d
    (Spec.score (fun m c => x (ix2 m c)) (fun c => v203 (ix4 (0 : Fin 1) (0 : Fin 1) r c)) (fun e c => wq (ix2 e c))
      (fun e c => wk (ix2 e c)) (fun e => bq (ix1 e)) (fun e => bk (ix1 e)))
    (fun m => Spec.tokProj (fun m c => x (ix2 m c)) (fun e c => wv (ix2 e c)) (fun e => bv (ix1 e)) m d)
    (fun m => ?_) (fun m => ?_)).trans rfl
  · refine scoreP_of _ _ r m _ _ (fun e => ?_) (fun e => ?_)
    · exact (qryP_apply v203 _ _ r e).trans (by rw [hb bq]; rfl)
    · exact (tokP_apply x _ _ m e).trans (by rw [hb bk]; rfl)
  · exact (tokP_apply x _ _ m d).trans (by rw [hb bv]; rfl)

/-! ## The stored payloads -/

theorem pay4_apply (v0 : Vec Ideal S1x1x2048x256 .f32) (m : Fin 2048) (c : Fin 256) :
    k0_pay4 v0 (ix2 m c) = v0 (ix4 (0 : Fin 1) (0 : Fin 1) m c) :=
  shapeCast_11ab_ab_apply v0 _ m c

theorem head0 (v0 : Vec Ideal S1x1x2048x256 .f32) (v3 v5 v7 : Vec Ideal S32x256 .f32) (v9 v11 v13 : Vec Ideal S32 .f32)
    (v203 : Vec Ideal S1x1x512x256 .f32) (r : Fin 512) (d : Fin 32) :
    k0_pay6 v0 v7 v13 (k0_pay5 v0 v3 v5 v9 v11 v203) (ix2 r d)
      = Spec.attnK (fun m c => v0 (ix4 (0 : Fin 1) (0 : Fin 1) m c)) (fun c => v203 (ix4 (0 : Fin 1) (0 : Fin 1) r c))
          (fun e c => v3 (ix2 e c)) (fun e c => v5 (ix2 e c)) (fun e c => v7 (ix2 e c))
          (fun e => v9 (ix1 e)) (fun e => v11 (ix1 e)) (fun e => v13 (ix1 e)) d :=
  core (k0_pay4 v0) _ (pay4_apply v0) v3 v5 v7 v9 v11 v13 v203 r d

theorem head1 (v2 : FVec Ideal S2048x256 .bf16) (v26 v28 v30 : Vec Ideal S32x256 .f32) (v32 v34 v36 : Vec Ideal S32 .f32)
    (v203 : Vec Ideal S1x1x512x256 .f32) (r : Fin 512) (d : Fin 32) :
    k0_pay11 v2 (k0_pay9 v30) v36 (k0_pay10 v2 (k0_pay7 v26) (k0_pay8 v28) v32 v34 v203) (ix2 r d)
      = Spec.attnK (fun m c => v2 (ix2 m c)) (fun c => v203 (ix4 (0 : Fin 1) (0 : Fin 1) r c))
          (fun e c => v26 (ix2 e c)) (fun e c => v28 (ix2 e c)) (fun e c => v30 (ix2 e c))
          (fun e => v32 (ix1 e)) (fun e => v34 (ix1 e)) (fun e => v36 (ix1 e)) d :=
  core v2 _ (fun _ _ => rfl) v26 v28 v30 v32 v34 v36 v203 r d

theorem head2 (v2 : FVec Ideal S2048x256 .bf16) (v49 v51 v53 : Vec Ideal S32x256 .f32) (v55 v57 v59 : Vec Ideal S32 .f32)
    (v203 : Vec Ideal S1x1x512x256 .f32) (r : Fin 512) (d : Fin 32) :
    k0_pay17 (k0_pay15 v2 v53 v59) (k0_pay16 (k0_pay12 v49) (k0_pay13 v55) (k0_pay14 v2 v51 v57) v203) (ix2 r d)
      = Spec.attnK (fun m c => v2 (ix2 m c)) (fun c => v203 (ix4 (0 : Fin 1) (0 : Fin 1) r c))
          (fun e c => v49 (ix2 e c)) (fun e c => v51 (ix2 e c)) (fun e c => v53 (ix2 e c))
          (fun e => v55 (ix1 e)) (fun e => v57 (ix1 e)) (fun e => v59 (ix1 e)) d :=
  core v2 _ (fun _ _ => rfl) v49 v51 v53 v55 v57 v59 v203 r d

theorem head3 (v2 : FVec Ideal S2048x256 .bf16) (v72 v74 v76 : Vec Ideal S32x256 .f32) (v78 v80 v82 : Vec Ideal S32 .f32)
    (v203 : Vec Ideal S1x1x512x256 .f32) (r : Fin 512) (d : Fin 32) :
    k0_pay19 v2 v76 v82 (k0_pay18 v2 v72 v74 v78 v80 v203) (ix2 r d)
      = Spec.attnK (fun m c => v2 (ix2 m c)) (fun c => v203 (ix4 (0 : Fin 1) (0 : Fin 1) r c))
          (fun e c => v72 (ix2 e c)) (fun e c => v74 (ix2 e c)) (fun e c => v76 (ix2 e c))
          (fun e => v78 (ix1 e)) (fun e => v80 (ix1 e)) (fun e => v82 (ix1 e)) d :=
  core v2 _ (fun _ _ => rfl) v72 v74 v76 v78 v80 v82 v203 r d

theorem head4 (v2 : FVec Ideal S2048x256 .bf16) (v95 v97 v99 : Vec Ideal S32x256 .f32) (v101 v103 v105 : Vec Ideal S32 .f32)
    (v203 : Vec Ideal S1x1x512x256 .f32) (r : Fin 512) (d : Fin 32) :
    k0_pay25 v2 (k0_pay22 v99) v105 (k0_pay24 v2 (k0_pay20 v95) (k0_pay21 v97) (k0_pay23 v101) v103 v203) (ix2 r d)
      = Spec.attnK (fun m c => v2 (ix2 m c)) (fun c => v203 (ix4 (0 : Fin 1) (0 : Fin 1) r c))
          (fun e c => v95 (ix2 e c)) (fun e c => v97 (ix2 e c)) (fun e c => v99 (ix2 e c))
          (fun e => v101 (ix1 e)) (fun e => v103 (ix1 e)) (fun e => v105 (ix1 e)) d :=
  core v2 _ (fun _ _ => rfl) v95 v97 v99 v101 v103 v105 v203 r d

theorem head5 (v2 : FVec Ideal S2048x256 .bf16) (v118 v120 v122 : Vec Ideal S32x256 .f32) (v124 v126 v128 : Vec Ideal S32 .f32)
    (v203 : Vec Ideal S1x1x512x256 .f32) (r : Fin 512) (d : Fin 32) :
    k0_pay31 (k0_pay29 v2 v122 v128) (k0_pay30 (k0_pay26 v118) (k0_pay27 v124) (k0_pay28 v2 v120 v126) v203) (ix2 r d)
      = Spec.attnK (fun m c => v2 (ix2 m c)) (fun c => v203 (ix4 (0 : Fin 1) (0 : Fin 1) r c))
          (fun e c => v118 (ix2 e c)) (fun e c => v120 (ix2 e c)) (fun e c => v122 (ix2 e c))
          (fun e => v124 (ix1 e)) (fun e => v126 (ix1 e)) (fun e => v128 (ix1 e)) d :=
  core v2 _ (fun _ _ => rfl) v118 v120 v122 v124 v126 v128 v203 r d

theorem head6 (v2 : FVec Ideal S2048x256 .bf16) (v141 v143 v145 : Vec Ideal S32x256 .f32) (v147 v149 v151 : Vec Ideal S32 .f32)
    (v203 : Vec Ideal S1x1x512x256 .f32) (r : Fin 512) (d : Fin 32) :
    k0_pay33 v2 v145 v151 (k0_pay32 v2 v141 v143 v147 v149 v203) (ix2 r d)
      = Spec.attnK (fun m c => v2 (ix2 m c)) (fun c => v203 (ix4 (0 : Fin 1) (0 : Fin 1) r c))
          (fun e c => v141 (ix2 e c)) (fun e c => v143 (ix2 e c)) (fun e c => v145 (ix2 e c))
          (fun e => v147 (ix1 e)) (fun e => v149 (ix1 e)) (fun e => v151 (ix1 e)) d :=
  core v2 _ (fun _ _ => rfl) v141 v143 v145 v147 v149 v151 v203 r d

theorem head7 (v2 : FVec Ideal S2048x256 .bf16) (v164 v166 v168 : Vec Ideal S32x256 .f32) (v170 v172 v174 : Vec Ideal S32 .f32)
    (v203 : Vec Ideal S1x1x512x256 .f32) (r : Fin 512) (d : Fin 32) :
    k0_pay2 v2 (k0_pay36 v168) v174 (k0_pay1 v2 (k0_pay34 v164) (k0_pay35 v166) (k0_pay37 v170) (k0_pay38 v172) v203) (ix2 r d)
      = Spec.attnK (fun m c => v2 (ix2 m c)) (fun c => v203 (ix4 (0 : Fin 1) (0 : Fin 1) r c))
          (fun e c => v164 (ix2 e c)) (fun e c => v166 (ix2 e c)) (fun e c => v168 (ix2 e c))
          (fun e => v170 (ix1 e)) (fun e => v172 (ix1 e)) (fun e => v174 (ix1 e)) d :=
  core v2 _ (fun _ _ => rfl) v164 v166 v168 v170 v172 v174 v203 r d

/-! ## The output projection -/

/-- The concatenated heads times the transposed output matrix plus the output bias, with its two unit axes put back. -/
theorem pay3_apply (v187 : Vec Ideal S2048x256 .f32) (v189 : Vec Ideal S256x256 .f32) (v193 : Vec Ideal S256 .f32)
    (l : Fin 2048) (o : Fin 256) :
    k0_pay3 v187 v189 v193 (ix4 (0 : Fin 1) (0 : Fin 1) l o)
      = (∑ c : Fin 256, v187 (ix2 l c) * v189 (ix2 o c)) + v193 (ix1 o) := by
  unfold k0_pay3
  refine (shapeCast_ab_11ab_apply _ shapeCasts_S2048x256_S1x1x2048x256 l o).trans ?_
  show matmul (F := Ideal) dot_S2048x256_S256x256_S2048x256_1_0_0_1_n_n none (truncf .bf16 v187 bitsLt_bf16_f32) _ _ (ix2 l o)
      + broadcastTo S2048x256 (shapeCast S1x256 v193 shapeCasts_S256_S1x256) broadcasts_S1x256_S2048x256 (ix2 l o) = _
  rw [mm_out, broadcastTo_1b_ab_apply, shapeCast_a_1a_apply]
  exact congrArg (· + v193 (ix1 o)) (Finset.sum_congr rfl fun c _ =>
    congrArg (v187 (ix2 l c) * ·) (woT_apply (truncf .bf16 v189 bitsLt_bf16_f32) c o))

end Cert.Mhsa.HeadValue

end
-- ==== Proof.StripHeads.lean ====
/-
  EACH QUERY-TILE LOOP'S OUTPUT STRIP IS ONE HEAD OF THE SPECIFICATION.

  Loop N (N = 1..8) computes head H = N - 1. Its four 512 x 32 tiles, read as one function of the head-output buffer's
  index (y0, y1), give band y0 / 512's tile at (y0 % 512, y1 % 32). That tile entry is the kernel's order of the
  softmax-weighted average for the query row 512 (y0 / 512) + y0 % 512 = y0 against all 2048 tokens, with the head's
  three 32-row weight blocks and bias slices. When the loop's operands hold the corresponding entries of three global
  arrays (the sequence group's rows, rows 256 g + 32 H + e of the projection matrix and of its bias, g = 0, 1, 2 for
  queries, keys, values), this is the specification's head H at token y0 and coordinate y1 % 32.
-/
import proofs.«127032_j4604204941406_2_alg».proof.Proof.StripsKI
import proofs.«127032_j4604204941406_2_alg».proof.Proof.HeadValue
import proofs.«127032_j4604204941406_2_alg».proof.Proof.Spec

set_option maxRecDepth 16384

noncomputable section

namespace Cert.Mhsa.StripHeads

open Cert.KernelIdeal Cert.KernelIdeal.Gen Cert.KernelIdeal.GenP Idealize.ShloMosaic Idealize.ShloMosaic.ValueIdx Cert.Mhsa

/-- The row of band y0 / 512 at position y0 % 512 is row y0. -/
theorem row_eq (y : TileStrip.SBuf.Idx)
    (h : 512 * (TileStrip.band y).val + (y 0).val % 512 < 2048) :
    (⟨512 * (TileStrip.band y).val + (y 0).val % 512, h⟩ : Fin 2048) = y 0 :=
  Fin.ext (Nat.div_add_mod (y 0).val 512)

/-- The shared step: four tiles, each entry of which is the kernel's order of the average over operands that hold the
    global arrays' entries, read as one function of the buffer index, are the specification's head. -/
theorem strip_head_of (s : Fin 4 → TileStrip.STile.Idx → Elt Ideal .f32)
    (Xg : Spec.SX.Idx → EReal) (Wg : Spec.SW.Idx → EReal) (Bg : Spec.SB.Idx → EReal) (n : Fin 4) (H : Fin 8)
    (X : Fin 2048 → Fin 256 → EReal) (Q : Fin 4 → Vec Ideal S1x1x512x256 .f32)
    (wq wk wv : Fin 32 → Fin 256 → EReal) (bq bk bv : Fin 32 → EReal)
    (hs : ∀ (j : Fin 4) (r : Fin 512) (d : Fin 32), s j (ix2 r d)
        = Spec.attnK X (fun c' => Q j (ix4 (0 : Fin 1) (0 : Fin 1) r c')) wq wk wv bq bk bv d)
    (hX : ∀ m c', X m c' = Xg (ix4 (0 : Fin 1) n m c'))
    (hQ : ∀ (j : Fin 4) (r : Fin 512) (c' : Fin 256), Q j (ix4 (0 : Fin 1) (0 : Fin 1) r c')
        = Xg (ix4 (0 : Fin 1) n ⟨512 * j.val + r.val, by have := j.isLt; have := r.isLt; omega⟩ c'))
    (hwq : ∀ e c', wq e c' = Wg (ix2 (Spec.prow 0 H e) c')) (hwk : ∀ e c', wk e c' = Wg (ix2 (Spec.prow 1 H e) c'))
    (hwv : ∀ e c', wv e c' = Wg (ix2 (Spec.prow 2 H e) c'))
    (hbq : ∀ e, bq e = Bg (ix1 (Spec.prow 0 H e))) (hbk : ∀ e, bk e = Bg (ix1 (Spec.prow 1 H e)))
    (hbv : ∀ e, bv e = Bg (ix1 (Spec.prow 2 H e)))
    (y : TileStrip.SBuf.Idx) :
    TileStrip.stripFn (Val := Elt Ideal) (e := .f32) s y
      = Spec.headOf Xg Wg Bg Spec.attnK n H (y 0) ⟨(y 1).val % 32, Nat.mod_lt _ (by norm_num)⟩ := by
  refine (hs (TileStrip.band y) ⟨(y 0).val % 512, Nat.mod_lt _ (by norm_num)⟩ ⟨(y 1).val % 32, Nat.mod_lt _ (by norm_num)⟩).trans ?_
  obtain rfl : X = fun m c' => Xg (ix4 (0 : Fin 1) n m c') := funext fun m => funext fun c' => hX m c'
  obtain rfl : wq = fun e c' => Wg (ix2 (Spec.prow 0 H e) c') := funext fun e => funext fun c' => hwq e c'
  obtain rfl : wk = fun e c' => Wg (ix2 (Spec.prow 1 H e) c') := funext fun e => funext fun c' => hwk e c'
  obtain rfl : wv = fun e c' => Wg (ix2 (Spec.prow 2 H e) c') := funext fun e => funext fun c' => hwv e c'
  obtain rfl : bq = fun e => Bg (ix1 (Spec.prow 0 H e)) := funext hbq
  obtain rfl : bk = fun e => Bg (ix1 (Spec.prow 1 H e)) := funext hbk
  obtain rfl : bv = fun e => Bg (ix1 (Spec.prow 2 H e)) := funext hbv
  have hq' : (fun c' => Q (TileStrip.band y) (ix4 (0 : Fin 1) (0 : Fin 1) (⟨(y 0).val % 512, Nat.mod_lt _ (by norm_num)⟩ : Fin 512) c'))
      = fun c' => Xg (ix4 (0 : Fin 1) n (y 0) c') := funext fun c' =>
    (hQ (TileStrip.band y) ⟨(y 0).val % 512, Nat.mod_lt _ (by norm_num)⟩ c').trans
      (congrArg (fun l : Fin 2048 => Xg (ix4 (0 : Fin 1) n l c')) (row_eq y _))
  rw [hq']
  rfl

/-- Loop 1's strip is head 0. -/
theorem strip1_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v0 : Vec Ideal S1x1x2048x256 .f32) (v3 v5 v7 : Vec Ideal S32x256 .f32) (v9 v11 v13 : Vec Ideal S32 .f32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v0 (ix4 (0 : Fin 1) (0 : Fin 1) l c') = Xg (ix4 (0 : Fin 1) n l c'))
    (hq : ∀ (j : Fin 4) (r : Fin 512) (c' : Fin 256),
        (View.readAt (Elt Ideal) arg1.view (Rect.unit (s := S1x1x2048x256) (k0_off1 (tr1 j)) S1x1x512x256.size (k0_off1_inb (tr1 j))).toLoadRect X_arg1) (ix4 (0 : Fin 1) (0 : Fin 1) r c')
          = Xg (ix4 (0 : Fin 1) n ⟨512 * j.val + r.val, by have := j.isLt; have := r.isLt; omega⟩ c'))
    (hwq : ∀ e c', v3 (ix2 e c') = Wg (ix2 (Spec.prow 0 0 e) c'))
    (hwk : ∀ e c', v5 (ix2 e c') = Wg (ix2 (Spec.prow 1 0 e) c'))
    (hwv : ∀ e c', v7 (ix2 e c') = Wg (ix2 (Spec.prow 2 0 e) c'))
    (hbq : ∀ e, v9 (ix1 e) = Bg (ix1 (Spec.prow 0 0 e)))
    (hbk : ∀ e, v11 (ix1 e) = Bg (ix1 (Spec.prow 1 0 e)))
    (hbv : ∀ e, v13 (ix1 e) = Bg (ix1 (Spec.prow 2 0 e)))
    (y : TileStrip.SBuf.Idx) :
    TileStrip.stripFn (strip_t1 (F := Ideal) 𝒱 c bd i arg1 harg1 arg2 harg2 arg3 harg3 arg4 harg4 arg5 harg5 arg6 harg6 arg7 harg7 arg8 harg8 v0 v3 v5 v7 v9 v11 v13 X_arg1) y
      = Spec.headOf Xg Wg Bg Spec.attnK n (0 : Fin 8) (y 0) ⟨(y 1).val % 32, Nat.mod_lt _ (by norm_num)⟩ :=
  strip_head_of (strip_t1 (F := Ideal) 𝒱 c bd i arg1 harg1 arg2 harg2 arg3 harg3 arg4 harg4 arg5 harg5 arg6 harg6 arg7 harg7 arg8 harg8 v0 v3 v5 v7 v9 v11 v13 X_arg1) Xg Wg Bg n (0 : Fin 8) _
    (fun j => (View.readAt (Elt Ideal) arg1.view (Rect.unit (s := S1x1x2048x256) (k0_off1 (tr1 j)) S1x1x512x256.size (k0_off1_inb (tr1 j))).toLoadRect X_arg1)) _ _ _ _ _ _
    (fun j r d => HeadValue.head0 v0 v3 v5 v7 v9 v11 v13 (View.readAt (Elt Ideal) arg1.view (Rect.unit (s := S1x1x2048x256) (k0_off1 (tr1 j)) S1x1x512x256.size (k0_off1_inb (tr1 j))).toLoadRect X_arg1) r d)
    hx hq hwq hwk hwv hbq hbk hbv y

/-- Loop 2's strip is head 1. -/
theorem strip2_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v2 : FVec Ideal S2048x256 .bf16) (v26 v28 v30 : Vec Ideal S32x256 .f32) (v32 v34 v36 : Vec Ideal S32 .f32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v2 (ix2 l c') = Xg (ix4 (0 : Fin 1) n l c'))
    (hq : ∀ (j : Fin 4) (r : Fin 512) (c' : Fin 256),
        (View.readAt (Elt Ideal) arg1.view (Rect.unit (s := S1x1x2048x256) (k0_off3 (tr2 j)) S1x1x512x256.size (k0_off3_inb (tr2 j))).toLoadRect X_arg1) (ix4 (0 : Fin 1) (0 : Fin 1) r c')
          = Xg (ix4 (0 : Fin 1) n ⟨512 * j.val + r.val, by have := j.isLt; have := r.isLt; omega⟩ c'))
    (hwq : ∀ e c', v26 (ix2 e c') = Wg (ix2 (Spec.prow 0 1 e) c'))
    (hwk : ∀ e c', v28 (ix2 e c') = Wg (ix2 (Spec.prow 1 1 e) c'))
    (hwv : ∀ e c', v30 (ix2 e c') = Wg (ix2 (Spec.prow 2 1 e) c'))
    (hbq : ∀ e, v32 (ix1 e) = Bg (ix1 (Spec.prow 0 1 e)))
    (hbk : ∀ e, v34 (ix1 e) = Bg (ix1 (Spec.prow 1 1 e)))
    (hbv : ∀ e, v36 (ix1 e) = Bg (ix1 (Spec.prow 2 1 e)))
    (y : TileStrip.SBuf.Idx) :
    TileStrip.stripFn (strip_t2 (F := Ideal) 𝒱 c bd i arg1 harg1 arg2 harg2 arg3 harg3 arg4 harg4 arg5 harg5 arg6 harg6 arg7 harg7 arg8 harg8 v2 (k0_pay7 v26) (k0_pay8 v28) (k0_pay9 v30) v32 v34 v36 X_arg1) y
      = Spec.headOf Xg Wg Bg Spec.attnK n (1 : Fin 8) (y 0) ⟨(y 1).val % 32, Nat.mod_lt _ (by norm_num)⟩ :=
  strip_head_of (strip_t2 (F := Ideal) 𝒱 c bd i arg1 harg1 arg2 harg2 arg3 harg3 arg4 harg4 arg5 harg5 arg6 harg6 arg7 harg7 arg8 harg8 v2 (k0_pay7 v26) (k0_pay8 v28) (k0_pay9 v30) v32 v34 v36 X_arg1) Xg Wg Bg n (1 : Fin 8) _
    (fun j => (View.readAt (Elt Ideal) arg1.view (Rect.unit (s := S1x1x2048x256) (k0_off3 (tr2 j)) S1x1x512x256.size (k0_off3_inb (tr2 j))).toLoadRect X_arg1)) _ _ _ _ _ _
    (fun j r d => HeadValue.head1 v2 v26 v28 v30 v32 v34 v36 (View.readAt (Elt Ideal) arg1.view (Rect.unit (s := S1x1x2048x256) (k0_off3 (tr2 j)) S1x1x512x256.size (k0_off3_inb (tr2 j))).toLoadRect X_arg1) r d)
    hx hq hwq hwk hwv hbq hbk hbv y

/-- Loop 3's strip is head 2. -/
theorem strip3_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v2 : FVec Ideal S2048x256 .bf16) (v49 v51 v53 : Vec Ideal S32x256 .f32) (v55 v57 v59 : Vec Ideal S32 .f32) (c0 : BitVec 32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v2 (ix2 l c') = Xg (ix4 (0 : Fin 1) n l c'))
    (hq : ∀ (j : Fin 4) (r : Fin 512) (c' : Fin 256),
        (View.readAt (Elt Ideal) arg1.view (Rect.unit (s := S1x1x2048x256) (k0_off5 (tr3 j)) S1x1x512x256.size (k0_off5_inb (tr3 j))).toLoadRect X_arg1) (ix4 (0 : Fin 1) (0 : Fin 1) r c')
          = Xg (ix4 (0 : Fin 1) n ⟨512 * j.val + r.val, by have := j.isLt; have := r.isLt; omega⟩ c'))
    (hwq : ∀ e c', v49 (ix2 e c') = Wg (ix2 (Spec.prow 0 2 e) c'))
    (hwk : ∀ e c', v51 (ix2 e c') = Wg (ix2 (Spec.prow 1 2 e) c'))
    (hwv : ∀ e c', v53 (ix2 e c') = Wg (ix2 (Spec.prow 2 2 e) c'))
    (hbq : ∀ e, v55 (ix1 e) = Bg (ix1 (Spec.prow 0 2 e)))
    (hbk : ∀ e, v57 (ix1 e) = Bg (ix1 (Spec.prow 1 2 e)))
    (hbv : ∀ e, v59 (ix1 e) = Bg (ix1 (Spec.prow 2 2 e)))
    (y : TileStrip.SBuf.Idx) :
    TileStrip.stripFn (strip_t3 (F := Ideal) 𝒱 c bd i arg1 harg1 arg2 harg2 arg3 harg3 arg4 harg4 arg5 harg5 arg6 harg6 arg7 harg7 arg8 harg8 v2 (k0_pay12 v49) (k0_pay13 v55) (k0_pay14 v2 v51 v57) (k0_pay15 v2 v53 v59) c0 X_arg1) y
      = Spec.headOf Xg Wg Bg Spec.attnK n (2 : Fin 8) (y 0) ⟨(y 1).val % 32, Nat.mod_lt _ (by norm_num)⟩ :=
  strip_head_of (strip_t3 (F := Ideal) 𝒱 c bd i arg1 harg1 arg2 harg2 arg3 harg3 arg4 harg4 arg5 harg5 arg6 harg6 arg7 harg7 arg8 harg8 v2 (k0_pay12 v49) (k0_pay13 v55) (k0_pay14 v2 v51 v57) (k0_pay15 v2 v53 v59) c0 X_arg1) Xg Wg Bg n (2 : Fin 8) _
    (fun j => (View.readAt (Elt Ideal) arg1.view (Rect.unit (s := S1x1x2048x256) (k0_off5 (tr3 j)) S1x1x512x256.size (k0_off5_inb (tr3 j))).toLoadRect X_arg1)) _ _ _ _ _ _
    (fun j r d => HeadValue.head2 v2 v49 v51 v53 v55 v57 v59 (View.readAt (Elt Ideal) arg1.view (Rect.unit (s := S1x1x2048x256) (k0_off5 (tr3 j)) S1x1x512x256.size (k0_off5_inb (tr3 j))).toLoadRect X_arg1) r d)
    hx hq hwq hwk hwv hbq hbk hbv y

/-- Loop 4's strip is head 3. -/
theorem strip4_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v2 : FVec Ideal S2048x256 .bf16) (v50 : FVec Ideal S32x256 .bf16) (v56 : FVec Ideal S1x32 .f32) (v69 v70 : FVec Ideal S2048x32 .bf16) (c0 : BitVec 32) (v72 v74 v76 : Vec Ideal S32x256 .f32) (v78 v80 v82 : Vec Ideal S32 .f32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v2 (ix2 l c') = Xg (ix4 (0 : Fin 1) n l c'))
    (hq : ∀ (j : Fin 4) (r : Fin 512) (c' : Fin 256),
        (View.readAt (Elt Ideal) arg1.view (Rect.unit (s := S1x1x2048x256) (k0_off7 (tr4 j)) S1x1x512x256.size (k0_off7_inb (tr4 j))).toLoadRect X_arg1) (ix4 (0 : Fin 1) (0 : Fin 1) r c')
          = Xg (ix4 (0 : Fin 1) n ⟨512 * j.val + r.val, by have := j.isLt; have := r.isLt; omega⟩ c'))
    (hwq : ∀ e c', v72 (ix2 e c') = Wg (ix2 (Spec.prow 0 3 e) c'))
    (hwk : ∀ e c', v74 (ix2 e c') = Wg (ix2 (Spec.prow 1 3 e) c'))
    (hwv : ∀ e c', v76 (ix2 e c') = Wg (ix2 (Spec.prow 2 3 e) c'))
    (hbq : ∀ e, v78 (ix1 e) = Bg (ix1 (Spec.prow 0 3 e)))
    (hbk : ∀ e, v80 (ix1 e) = Bg (ix1 (Spec.prow 1 3 e)))
    (hbv : ∀ e, v82 (ix1 e) = Bg (ix1 (Spec.prow 2 3 e)))
    (y : TileStrip.SBuf.Idx) :
    TileStrip.stripFn (strip_t4 (F := Ideal) 𝒱 c bd i arg1 harg1 arg2 harg2 arg3 harg3 arg4 harg4 arg5 harg5 arg6 harg6 arg7 harg7 arg8 harg8 v2 v50 v56 v69 v70 c0 v72 v74 v76 v78 v80 v82 X_arg1) y
      = Spec.headOf Xg Wg Bg Spec.attnK n (3 : Fin 8) (y 0) ⟨(y 1).val % 32, Nat.mod_lt _ (by norm_num)⟩ :=
  strip_head_of (strip_t4 (F := Ideal) 𝒱 c bd i arg1 harg1 arg2 harg2 arg3 harg3 arg4 harg4 arg5 harg5 arg6 harg6 arg7 harg7 arg8 harg8 v2 v50 v56 v69 v70 c0 v72 v74 v76 v78 v80 v82 X_arg1) Xg Wg Bg n (3 : Fin 8) _
    (fun j => (View.readAt (Elt Ideal) arg1.view (Rect.unit (s := S1x1x2048x256) (k0_off7 (tr4 j)) S1x1x512x256.size (k0_off7_inb (tr4 j))).toLoadRect X_arg1)) _ _ _ _ _ _
    (fun j r d => HeadValue.head3 v2 v72 v74 v76 v78 v80 v82 (View.readAt (Elt Ideal) arg1.view (Rect.unit (s := S1x1x2048x256) (k0_off7 (tr4 j)) S1x1x512x256.size (k0_off7_inb (tr4 j))).toLoadRect X_arg1) r d)
    hx hq hwq hwk hwv hbq hbk hbv y

/-- Loop 5's strip is head 4. -/
theorem strip5_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v2 : FVec Ideal S2048x256 .bf16) (v95 v97 v99 : Vec Ideal S32x256 .f32) (v101 v103 v105 : Vec Ideal S32 .f32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v2 (ix2 l c') = Xg (ix4 (0 : Fin 1) n l c'))
    (hq : ∀ (j : Fin 4) (r : Fin 512) (c' : Fin 256),
        (View.readAt (Elt Ideal) arg1.view (Rect.unit (s := S1x1x2048x256) (k0_off9 (tr5 j)) S1x1x512x256.size (k0_off9_inb (tr5 j))).toLoadRect X_arg1) (ix4 (0 : Fin 1) (0 : Fin 1) r c')
          = Xg (ix4 (0 : Fin 1) n ⟨512 * j.val + r.val, by have := j.isLt; have := r.isLt; omega⟩ c'))
    (hwq : ∀ e c', v95 (ix2 e c') = Wg (ix2 (Spec.prow 0 4 e) c'))
    (hwk : ∀ e c', v97 (ix2 e c') = Wg (ix2 (Spec.prow 1 4 e) c'))
    (hwv : ∀ e c', v99 (ix2 e c') = Wg (ix2 (Spec.prow 2 4 e) c'))
    (hbq : ∀ e, v101 (ix1 e) = Bg (ix1 (Spec.prow 0 4 e)))
    (hbk : ∀ e, v103 (ix1 e) = Bg (ix1 (Spec.prow 1 4 e)))
    (hbv : ∀ e, v105 (ix1 e) = Bg (ix1 (Spec.prow 2 4 e)))
    (y : TileStrip.SBuf.Idx) :
    TileStrip.stripFn (strip_t5 (F := Ideal) 𝒱 c bd i arg1 harg1 arg2 harg2 arg3 harg3 arg4 harg4 arg5 harg5 arg6 harg6 arg7 harg7 arg8 harg8 v2 (k0_pay20 v95) (k0_pay21 v97) (k0_pay22 v99) (k0_pay23 v101) v103 v105 X_arg1) y
      = Spec.headOf Xg Wg Bg Spec.attnK n (4 : Fin 8) (y 0) ⟨(y 1).val % 32, Nat.mod_lt _ (by norm_num)⟩ :=
  strip_head_of (strip_t5 (F := Ideal) 𝒱 c bd i arg1 harg1 arg2 harg2 arg3 harg3 arg4 harg4 arg5 harg5 arg6 harg6 arg7 harg7 arg8 harg8 v2 (k0_pay20 v95) (k0_pay21 v97) (k0_pay22 v99) (k0_pay23 v101) v103 v105 X_arg1) Xg Wg Bg n (4 : Fin 8) _
    (fun j => (View.readAt (Elt Ideal) arg1.view (Rect.unit (s := S1x1x2048x256) (k0_off9 (tr5 j)) S1x1x512x256.size (k0_off9_inb (tr5 j))).toLoadRect X_arg1)) _ _ _ _ _ _
    (fun j r d => HeadValue.head4 v2 v95 v97 v99 v101 v103 v105 (View.readAt (Elt Ideal) arg1.view (Rect.unit (s := S1x1x2048x256) (k0_off9 (tr5 j)) S1x1x512x256.size (k0_off9_inb (tr5 j))).toLoadRect X_arg1) r d)
    hx hq hwq hwk hwv hbq hbk hbv y

/-- Loop 6's strip is head 5. -/
theorem strip6_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v2 : FVec Ideal S2048x256 .bf16) (v118 v120 v122 : Vec Ideal S32x256 .f32) (v124 v126 v128 : Vec Ideal S32 .f32) (c0 c1 : BitVec 32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v2 (ix2 l c') = Xg (ix4 (0 : Fin 1) n l c'))
    (hq : ∀ (j : Fin 4) (r : Fin 512) (c' : Fin 256),
        (View.readAt (Elt Ideal) arg1.view (Rect.unit (s := S1x1x2048x256) (k0_off11 (tr6 j)) S1x1x512x256.size (k0_off11_inb (tr6 j))).toLoadRect X_arg1) (ix4 (0 : Fin 1) (0 : Fin 1) r c')
          = Xg (ix4 (0 : Fin 1) n ⟨512 * j.val + r.val, by have := j.isLt; have := r.isLt; omega⟩ c'))
    (hwq : ∀ e c', v118 (ix2 e c') = Wg (ix2 (Spec.prow 0 5 e) c'))
    (hwk : ∀ e c', v120 (ix2 e c') = Wg (ix2 (Spec.prow 1 5 e) c'))
    (hwv : ∀ e c', v122 (ix2 e c') = Wg (ix2 (Spec.prow 2 5 e) c'))
    (hbq : ∀ e, v124 (ix1 e) = Bg (ix1 (Spec.prow 0 5 e)))
    (hbk : ∀ e, v126 (ix1 e) = Bg (ix1 (Spec.prow 1 5 e)))
    (hbv : ∀ e, v128 (ix1 e) = Bg (ix1 (Spec.prow 2 5 e)))
    (y : TileStrip.SBuf.Idx) :
    TileStrip.stripFn (strip_t6 (F := Ideal) 𝒱 c bd i arg1 harg1 arg2 harg2 arg3 harg3 arg4 harg4 arg5 harg5 arg6 harg6 arg7 harg7 arg8 harg8 v2 (k0_pay26 v118) (k0_pay27 v124) (k0_pay28 v2 v120 v126) (k0_pay29 v2 v122 v128) c0 c1 X_arg1) y
      = Spec.headOf Xg Wg Bg Spec.attnK n (5 : Fin 8) (y 0) ⟨(y 1).val % 32, Nat.mod_lt _ (by norm_num)⟩ :=
  strip_head_of (strip_t6 (F := Ideal) 𝒱 c bd i arg1 harg1 arg2 harg2 arg3 harg3 arg4 harg4 arg5 harg5 arg6 harg6 arg7 harg7 arg8 harg8 v2 (k0_pay26 v118) (k0_pay27 v124) (k0_pay28 v2 v120 v126) (k0_pay29 v2 v122 v128) c0 c1 X_arg1) Xg Wg Bg n (5 : Fin 8) _
    (fun j => (View.readAt (Elt Ideal) arg1.view (Rect.unit (s := S1x1x2048x256) (k0_off11 (tr6 j)) S1x1x512x256.size (k0_off11_inb (tr6 j))).toLoadRect X_arg1)) _ _ _ _ _ _
    (fun j r d => HeadValue.head5 v2 v118 v120 v122 v124 v126 v128 (View.readAt (Elt Ideal) arg1.view (Rect.unit (s := S1x1x2048x256) (k0_off11 (tr6 j)) S1x1x512x256.size (k0_off11_inb (tr6 j))).toLoadRect X_arg1) r d)
    hx hq hwq hwk hwv hbq hbk hbv y

/-- Loop 7's strip is head 6. -/
theorem strip7_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v2 : FVec Ideal S2048x256 .bf16) (v119 : FVec Ideal S32x256 .bf16) (v125 : FVec Ideal S1x32 .f32) (v138 v139 : FVec Ideal S2048x32 .bf16) (c0 c1 : BitVec 32) (v141 v143 v145 : Vec Ideal S32x256 .f32) (v147 v149 v151 : Vec Ideal S32 .f32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v2 (ix2 l c') = Xg (ix4 (0 : Fin 1) n l c'))
    (hq : ∀ (j : Fin 4) (r : Fin 512) (c' : Fin 256),
        (View.readAt (Elt Ideal) arg1.view (Rect.unit (s := S1x1x2048x256) (k0_off13 (tr7 j)) S1x1x512x256.size (k0_off13_inb (tr7 j))).toLoadRect X_arg1) (ix4 (0 : Fin 1) (0 : Fin 1) r c')
          = Xg (ix4 (0 : Fin 1) n ⟨512 * j.val + r.val, by have := j.isLt; have := r.isLt; omega⟩ c'))
    (hwq : ∀ e c', v141 (ix2 e c') = Wg (ix2 (Spec.prow 0 6 e) c'))
    (hwk : ∀ e c', v143 (ix2 e c') = Wg (ix2 (Spec.prow 1 6 e) c'))
    (hwv : ∀ e c', v145 (ix2 e c') = Wg (ix2 (Spec.prow 2 6 e) c'))
    (hbq : ∀ e, v147 (ix1 e) = Bg (ix1 (Spec.prow 0 6 e)))
    (hbk : ∀ e, v149 (ix1 e) = Bg (ix1 (Spec.prow 1 6 e)))
    (hbv : ∀ e, v151 (ix1 e) = Bg (ix1 (Spec.prow 2 6 e)))
    (y : TileStrip.SBuf.Idx) :
    TileStrip.stripFn (strip_t7 (F := Ideal) 𝒱 c bd i arg1 harg1 arg2 harg2 arg3 harg3 arg4 harg4 arg5 harg5 arg6 harg6 arg7 harg7 arg8 harg8 v2 v119 v125 v138 v139 c0 c1 v141 v143 v145 v147 v149 v151 X_arg1) y
      = Spec.headOf Xg Wg Bg Spec.attnK n (6 : Fin 8) (y 0) ⟨(y 1).val % 32, Nat.mod_lt _ (by norm_num)⟩ :=
  strip_head_of (strip_t7 (F := Ideal) 𝒱 c bd i arg1 harg1 arg2 harg2 arg3 harg3 arg4 harg4 arg5 harg5 arg6 harg6 arg7 harg7 arg8 harg8 v2 v119 v125 v138 v139 c0 c1 v141 v143 v145 v147 v149 v151 X_arg1) Xg Wg Bg n (6 : Fin 8) _
    (fun j => (View.readAt (Elt Ideal) arg1.view (Rect.unit (s := S1x1x2048x256) (k0_off13 (tr7 j)) S1x1x512x256.size (k0_off13_inb (tr7 j))).toLoadRect X_arg1)) _ _ _ _ _ _
    (fun j r d => HeadValue.head6 v2 v141 v143 v145 v147 v149 v151 (View.readAt (Elt Ideal) arg1.view (Rect.unit (s := S1x1x2048x256) (k0_off13 (tr7 j)) S1x1x512x256.size (k0_off13_inb (tr7 j))).toLoadRect X_arg1) r d)
    hx hq hwq hwk hwv hbq hbk hbv y

/-- Loop 8's strip is head 7. -/
theorem strip8_head (𝒱 : Variants) (c : Dev nD) (bd : Option 𝒱.V) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (v2 : FVec Ideal S2048x256 .bf16) (v164 v166 v168 : Vec Ideal S32x256 .f32) (v170 v172 v174 : Vec Ideal S32 .f32) (X_arg1 : BufTy.Contents (Elt Ideal) arg1.view.ty)
    (Xg : Spec.SX.Idx → EReal) (Wg : Spec.SW.Idx → EReal) (Bg : Spec.SB.Idx → EReal) (n : Fin 4)
    (hx : ∀ (l : Fin 2048) (c' : Fin 256), v2 (ix2 l c') = Xg (ix4 (0 : Fin 1) n l c'))
    (hq : ∀ (j : Fin 4) (r : Fin 512) (c' : Fin 256),
        (View.readAt (Elt Ideal) arg1.view (Rect.unit (s := S1x1x2048x256) (k0_off15 (tr8 j)) S1x1x512x256.size (k0_off15_inb (tr8 j))).toLoadRect X_arg1) (ix4 (0 : Fin 1) (0 : Fin 1) r c')
          = Xg (ix4 (0 : Fin 1) n ⟨512 * j.val + r.val, by have := j.isLt; have := r.isLt; omega⟩ c'))
    (hwq : ∀ e c', v164 (ix2 e c') = Wg (ix2 (Spec.prow 0 7 e) c'))
    (hwk : ∀ e c', v166 (ix2 e c') = Wg (ix2 (Spec.prow 1 7 e) c'))
    (hwv : ∀ e c', v168 (ix2 e c') = Wg (ix2 (Spec.prow 2 7 e) c'))
    (hbq : ∀ e, v170 (ix1 e) = Bg (ix1 (Spec.prow 0 7 e)))
    (hbk : ∀ e, v172 (ix1 e) = Bg (ix1 (Spec.prow 1 7 e)))
    (hbv : ∀ e, v174 (ix1 e) = Bg (ix1 (Spec.prow 2 7 e)))
    (y : TileStrip.SBuf.Idx) :
    TileStrip.stripFn (strip_t8 (F := Ideal) 𝒱 c bd i arg1 harg1 arg2 harg2 arg3 harg3 arg4 harg4 arg5 harg5 arg6 harg6 arg7 harg7 arg8 harg8 v2 (k0_pay34 v164) (k0_pay35 v166) (k0_pay36 v168) (k0_pay37 v170) (k0_pay38 v172) v174 X_arg1) y
      = Spec.headOf Xg Wg Bg Spec.attnK n (7 : Fin 8) (y 0) ⟨(y 1).val % 32, Nat.mod_lt _ (by norm_num)⟩ :=
  strip_head_of (strip_t8 (F := Ideal) 𝒱 c bd i arg1 harg1 arg2 harg2 arg3 harg3 arg4 harg4 arg5 harg5 arg6 harg6 arg7 harg7 arg8 harg8 v2 (k0_pay34 v164) (k0_pay35 v166) (k0_pay36 v168) (k0_pay37 v170) (k0_pay38 v172) v174 X_arg1) Xg Wg Bg n (7 : Fin 8) _
    (fun j => (View.readAt (Elt Ideal) arg1.view (Rect.unit (s := S1x1x2048x256) (k0_off15 (tr8 j)) S1x1x512x256.size (k0_off15_inb (tr8 j))).toLoadRect X_arg1)) _ _ _ _ _ _
    (fun j r d => HeadValue.head7 v2 v164 v166 v168 v170 v172 v174 (View.readAt (Elt Ideal) arg1.view (Rect.unit (s := S1x1x2048x256) (k0_off15 (tr8 j)) S1x1x512x256.size (k0_off15_inb (tr8 j))).toLoadRect X_arg1) r d)
    hx hq hwq hwk hwv hbq hbk hbv y

end Cert.Mhsa.StripHeads

end
-- ==== Proof.KIBlocks.lean ====
/-
  THE INPUT WINDOWS' BLOCKS AND THE BODY'S LOADS, READ AT AN INDEX.

  Input window 0 cuts the (1, 4, 2048, 256) array into four blocks of shape (1, 1, 2048, 256) along its second axis:
  at grid point t its block index is (0, t, 0, 0), so the block's element (y0, y1, y2, y3) is the array's element
  (0, t, y2, y3). The four other input windows take their whole array as one block at block index zero, so a block's
  element is the array's element at the same index. A load of a rectangle from a whole staging buffer reads, at a
  coordinate inside the rectangle, the buffer's element at the rectangle's offset plus that coordinate.
-/
import proofs.«127032_j4604204941406_2_alg».proof.Proof.Gen.KernelIdeal.Frame.Runs
import Idealize.ShloMosaic.Lib.Pipeline.Value
import Idealize.ShloMosaic.Lib.ValueIdx
import Idealize.ShloMosaic.Lib.WholeRead

set_option maxRecDepth 16384

noncomputable section

namespace Cert.Mhsa.KIBlocks

open Cert.KernelIdeal Cert.KernelIdeal.Gen Idealize.ShloMosaic Idealize.ShloMosaic.ValueIdx

variable {F : FTy → Type} [FloatOps F]
variable (m : (ℓ : Loc nD τ sig) → Buf (Elt F) ℓ)

/-! ## The input windows' blocks -/

/-- The block indices of the five input windows, at every grid point. -/
theorem idx_facts : ∀ t : Fin cfg0.N,
    (win0_0.index t (0 : Fin 4) = 0 ∧ win0_0.index t (1 : Fin 4) = t.val
      ∧ win0_0.index t (2 : Fin 4) = 0 ∧ win0_0.index t (3 : Fin 4) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0 :=
  (by decide +kernel : ∀ t : Fin grid0.N, _)

theorem t_lt (t : Fin cfg0.N) : t.val < 4 := by
  have h := t.isLt
  have hN : cfg0.N = 4 := N_0
  omega

/-- Window 0's block at point t is row t of the array's second axis. -/
theorem iblk0_apply (c : Dev nD) (t : Fin cfg0.N) (y : S1x1x2048x256.Idx) :
    iblk m c 0 t y = V m c main_arg0 (ix4 (0 : Fin 1) (⟨t.val, t_lt t⟩ : Fin 4) (y 2) (y 3)) := by
  obtain ⟨⟨e0, e1, e2, e3⟩, -⟩ := idx_facts t
  show V m c main_arg0 (((cfg0.win 0).blk t).view.emb y) = V m c main_arg0 _
  refine congrArg _ ?_
  funext a; apply Fin.ext
  match a with
  | ⟨0, _⟩ =>
    show win0_0.index t (0 : Fin 4) * 1 + 1 * (y 0).val = 0
    have hj : (y 0).val < 1 := (y 0).isLt
    omega
  | ⟨1, _⟩ =>
    show win0_0.index t (1 : Fin 4) * 1 + 1 * (y 1).val = t.val
    have hj : (y 1).val < 1 := (y 1).isLt
    omega
  | ⟨2, _⟩ =>
    show win0_0.index t (2 : Fin 4) * 2048 + 1 * (y 2).val = (y 2).val
    omega
  | ⟨3, _⟩ =>
    show win0_0.index t (3 : Fin 4) * 256 + 1 * (y 3).val = (y 3).val
    omega

/-- Window 1's block is its whole array. -/
theorem iblk1_apply (c : Dev nD) (t : Fin cfg0.N) (y : S768x256.Idx) : iblk m c 1 t y = V m c main_arg1 y := by
  obtain ⟨-, ⟨e0, e1⟩, -⟩ := idx_facts t
  show V m c main_arg1 (((cfg0.win 1).blk t).view.emb y) = V m c main_arg1 y
  refine congrArg _ ?_
  funext a; apply Fin.ext
  match a with
  | ⟨0, _⟩ => show win0_1.index t (0 : Fin 2) * 768 + 1 * (y 0).val = (y 0).val; omega
  | ⟨1, _⟩ => show win0_1.index t (1 : Fin 2) * 256 + 1 * (y 1).val = (y 1).val; omega

/-- Window 2's block is its whole array. -/
theorem iblk2_apply (c : Dev nD) (t : Fin cfg0.N) (y : S768.Idx) : iblk m c 2 t y = V m c main_arg2 y := by
  obtain ⟨-, -, e0, -⟩ := idx_facts t
  show V m c main_arg2 (((cfg0.win 2).blk t).view.emb y) = V m c main_arg2 y
  refine congrArg _ ?_
  funext a; apply Fin.ext
  match a with
  | ⟨0, _⟩ => show win0_2.index t (0 : Fin 1) * 768 + 1 * (y 0).val = (y 0).val; omega

/-- Window 3's block is its whole array. -/
theorem iblk3_apply (c : Dev nD) (t : Fin cfg0.N) (y : S256x256.Idx) : iblk m c 3 t y = V m c main_arg3 y := by
  obtain ⟨-, -, -, ⟨e0, e1⟩, -⟩ := idx_facts t
  show V m c main_arg3 (((cfg0.win 3).blk t).view.emb y) = V m c main_arg3 y
  refine congrArg _ ?_
  funext a; apply Fin.ext
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- Window 4's block is its whole array. -/
theorem iblk4_apply (c : Dev nD) (t : Fin cfg0.N) (y : S256.Idx) : iblk m c 4 t y = V m c main_arg4 y := by
  obtain ⟨-, -, -, -, e0⟩ := idx_facts t
  show V m c main_arg4 (((cfg0.win 4).blk t).view.emb y) = V m c main_arg4 y
  refine congrArg _ ?_
  funext a; apply Fin.ext
  match a with
  | ⟨0, _⟩ => show win0_4.index t (0 : Fin 1) * 256 + 1 * (y 0).val = (y 0).val; omega

/-! ## The body's loads from a whole staging buffer -/

section Loads

/-- Rows o .. o + 31 of a (768, 256) buffer: the load's element (e, c) is the buffer's element (o + e, c). -/
theorem load_w (mm : Memref sig .tc .vmem S768x256 .f32) (hm : mm.IsWhole) (X : Vec F S768x256 .f32) (o : ℕ)
    (inb : ∀ a, (![o, 0] : Fin 2 → ℕ) a + S32x256.size a ≤ S768x256.size a) (e : Fin 32) (c : Fin 256) :
    View.readAt (Elt F) mm.view (Rect.unit (s := S768x256) ![o, 0] S32x256.size inb).toLoadRect (hm.unread X) (ix2 e c)
      = X (ix2 (⟨o + e.val, by have h0 : o + 32 ≤ 768 := inb 0; have := e.isLt; omega⟩ : Fin 768) c) := by
  refine (hm.readAt_unread X _ _).trans ?_
  refine congrArg X ?_
  funext a; apply Fin.ext
  match a with
  | ⟨0, _⟩ => show o + 1 * e.val = o + e.val; omega
  | ⟨1, _⟩ => show 0 + 1 * c.val = c.val; omega

/-- Entries o .. o + 31 of a 768-vector: the load's element e is the buffer's element o + e. -/
theorem load_b (mm : Memref sig .tc .vmem S768 .f32) (hm : mm.IsWhole) (X : Vec F S768 .f32) (o : ℕ)
    (inb : ∀ a, (![o] : Fin 1 → ℕ) a + S32.size a ≤ S768.size a) (e : Fin 32) :
    View.readAt (Elt F) mm.view (Rect.unit (s := S768) ![o] S32.size inb).toLoadRect (hm.unread X) (ix1 e)
      = X (ix1 (⟨o + e.val, by have h0 : o + 32 ≤ 768 := inb 0; have := e.isLt; omega⟩ : Fin 768)) := by
  refine (hm.readAt_unread X _ _).trans ?_
  refine congrArg X ?_
  funext a; apply Fin.ext
  match a with
  | ⟨0, _⟩ => show o + 1 * e.val = o + e.val; omega

/-- Rows 512 j .. 512 j + 511 of the (1, 1, 2048, 256) buffer: the load's element (0, 0, r, c) is the buffer's element
    (0, 0, 512 j + r, c). -/
theorem load_xtile (mm : Memref sig .tc .vmem S1x1x2048x256 .f32) (hm : mm.IsWhole) (X : Vec F S1x1x2048x256 .f32)
    (off : Fin 4 → ℕ) (j : ℕ) (hoff : off = ![0, 0, 512 * j, 0])
    (inb : ∀ a, off a + S1x1x512x256.size a ≤ S1x1x2048x256.size a) (r : Fin 512) (c : Fin 256) :
    View.readAt (Elt F) mm.view (Rect.unit (s := S1x1x2048x256) off S1x1x512x256.size inb).toLoadRect (hm.unread X)
        (ix4 (0 : Fin 1) (0 : Fin 1) r c)
      = X (ix4 (0 : Fin 1) (0 : Fin 1)
          (⟨512 * j + r.val, by subst hoff; have h2 : 512 * j + 512 ≤ 2048 := inb 2; have := r.isLt; omega⟩ : Fin 2048) c) := by
  subst hoff
  refine (hm.readAt_unread X _ _).trans ?_
  refine congrArg X ?_
  funext a; apply Fin.ext
  match a with
  | ⟨0, _⟩ => show 0 + 1 * 0 = 0; omega
  | ⟨1, _⟩ => show 0 + 1 * 0 = 0; omega
  | ⟨2, _⟩ => show 512 * j + 1 * r.val = 512 * j + r.val; omega
  | ⟨3, _⟩ => show 0 + 1 * c.val = c.val; omega

/-- A load of the whole (1, 1, 2048, 256) buffer reads the buffer. -/
theorem load_whole4 (mm : Memref sig .tc .vmem S1x1x2048x256 .f32) (hm : mm.IsWhole) (X : Vec F S1x1x2048x256 .f32)
    (inb : ∀ a, (![0, 0, 0, 0] : Fin 4 → ℕ) a + S1x1x2048x256.size a ≤ S1x1x2048x256.size a) :
    View.readAt (Elt F) mm.view (Rect.unit (s := S1x1x2048x256) ![0, 0, 0, 0] S1x1x2048x256.size inb).toLoadRect (hm.unread X)
      = X := by
  funext x
  refine (hm.readAt_unread X _ x).trans ?_
  refine congrArg X ?_
  funext a; apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega
  | ⟨3, _⟩ => show 0 + 1 * (x 3).val = (x 3).val; omega

/-- A load of the whole (256, 256) buffer reads the buffer. -/
theorem load_whole_ow (mm : Memref sig .tc .vmem S256x256 .f32) (hm : mm.IsWhole) (X : Vec F S256x256 .f32)
    (inb : ∀ a, (![0, 0] : Fin 2 → ℕ) a + S256x256.size a ≤ S256x256.size a) :
    View.readAt (Elt F) mm.view (Rect.unit (s := S256x256) ![0, 0] S256x256.size inb).toLoadRect (hm.unread X) = X := by
  funext x
  refine (hm.readAt_unread X _ x).trans ?_
  refine congrArg X ?_
  funext a; apply Fin.ext
  match a with
  | ⟨0, _⟩ => show 0 + 1 * (x 0).val = (x 0).val; omega
  | ⟨1, _⟩ => show 0 + 1 * (x 1).val = (x 1).val; omega

/-- A load of the whole 256-vector reads the vector. -/
theorem load_whole_ob (mm : Memref sig .tc .vmem S256 .f32) (hm : mm.IsWhole) (X : Vec F S256 .f32)
    (inb : ∀ a, (![0] : Fin 1 → ℕ) a + S256.size a ≤ S256.size a) :
    View.readAt (Elt F) mm.view (Rect.unit (s := S256) ![0] S256.size inb).toLoadRect (hm.unread X) = X := by
  funext x
  refine (hm.readAt_unread X _ x).trans ?_
  refine congrArg X ?_
  funext a; apply Fin.ext
  match a with
  | ⟨0, _⟩ => show 0 + 1 * (x 0).val = (x 0).val; omega

end Loads

end Cert.Mhsa.KIBlocks

end
-- ==== Proof.OutValue.lean ====
/-
  WHAT ONE GRID POINT'S BODY LEAVES IN THE OUTPUT BLOCK.

  The body's one store into the output block is the output projection of the eight heads' tiles side by side. Column c
  of that buffer belongs to head c / 32, whose strip gives the specification's head c / 32 at coordinate c % 32: the
  concatenation of the heads. The projection's entry (l, o) is then the sum over c of the concatenated heads times row o
  of the output matrix, plus the output bias: the specification's layer output for the sequence group the body was
  handed.
-/
import proofs.«127032_j4604204941406_2_alg».proof.Proof.StripHeads
import proofs.«127032_j4604204941406_2_alg».proof.Proof.HeadValue
import proofs.«127032_j4604204941406_2_alg».proof.Proof.KIBlocks
import proofs.«127032_j4604204941406_2_alg».proof.Proof.Spec
import proofs.«127032_j4604204941406_2_alg».proof.Proof.FrameKI

set_option maxRecDepth 16384

noncomputable section

namespace Cert.Mhsa.OutValue

open Cert.KernelIdeal Cert.KernelIdeal.Gen Cert.KernelIdeal.GenP Idealize.ShloMosaic Idealize.ShloMosaic.ValueIdx Cert.Mhsa

/-! ## The eight strips side by side are the concatenated heads -/

theorem oacc_concat (s1 s2 s3 s4 s5 s6 s7 s8 : Fin 4 → TileStrip.STile.Idx → Elt Ideal .f32)
    (Xg : Spec.SX.Idx → EReal) (Wg : Spec.SW.Idx → EReal) (Bg : Spec.SB.Idx → EReal) (n : Fin 4)
    (h1 : ∀ y, TileStrip.stripFn s1 y = Spec.headOf Xg Wg Bg Spec.attnK n (0 : Fin 8) (y 0) ⟨(y 1).val % 32, Nat.mod_lt _ (by norm_num)⟩)
    (h2 : ∀ y, TileStrip.stripFn s2 y = Spec.headOf Xg Wg Bg Spec.attnK n (1 : Fin 8) (y 0) ⟨(y 1).val % 32, Nat.mod_lt _ (by norm_num)⟩)
    (h3 : ∀ y, TileStrip.stripFn s3 y = Spec.headOf Xg Wg Bg Spec.attnK n (2 : Fin 8) (y 0) ⟨(y 1).val % 32, Nat.mod_lt _ (by norm_num)⟩)
    (h4 : ∀ y, TileStrip.stripFn s4 y = Spec.headOf Xg Wg Bg Spec.attnK n (3 : Fin 8) (y 0) ⟨(y 1).val % 32, Nat.mod_lt _ (by norm_num)⟩)
    (h5 : ∀ y, TileStrip.stripFn s5 y = Spec.headOf Xg Wg Bg Spec.attnK n (4 : Fin 8) (y 0) ⟨(y 1).val % 32, Nat.mod_lt _ (by norm_num)⟩)
    (h6 : ∀ y, TileStrip.stripFn s6 y = Spec.headOf Xg Wg Bg Spec.attnK n (5 : Fin 8) (y 0) ⟨(y 1).val % 32, Nat.mod_lt _ (by norm_num)⟩)
    (h7 : ∀ y, TileStrip.stripFn s7 y = Spec.headOf Xg Wg Bg Spec.attnK n (6 : Fin 8) (y 0) ⟨(y 1).val % 32, Nat.mod_lt _ (by norm_num)⟩)
    (h8 : ∀ y, TileStrip.stripFn s8 y = Spec.headOf Xg Wg Bg Spec.attnK n (7 : Fin 8) (y 0) ⟨(y 1).val % 32, Nat.mod_lt _ (by norm_num)⟩)
    (l : Fin 2048) (c : Fin 256) :
    Cert.KernelIdeal.GenP.oaccOf (F := Ideal) s1 s2 s3 s4 s5 s6 s7 s8 (ix2 l c)
      = Spec.concatOf (Spec.headOf Xg Wg Bg Spec.attnK) n l c := by
  have hc : c.val < 256 := c.isLt
  have key : ∀ H : Fin 8, c.val / 32 = H.val →
      Spec.headOf Xg Wg Bg Spec.attnK n H l ⟨c.val % 32, Nat.mod_lt _ (by norm_num)⟩
        = Spec.concatOf (Spec.headOf Xg Wg Bg Spec.attnK) n l c := by
    intro H hH
    unfold Spec.concatOf
    have hh : (⟨c.val / 32, by omega⟩ : Fin 8) = H := Fin.ext hH
    rw [hh]
  show (if c.val / 32 = 7 then TileStrip.stripFn s8 (ix2 l c) else if c.val / 32 = 6 then TileStrip.stripFn s7 (ix2 l c)
    else if c.val / 32 = 5 then TileStrip.stripFn s6 (ix2 l c) else if c.val / 32 = 4 then TileStrip.stripFn s5 (ix2 l c)
    else if c.val / 32 = 3 then TileStrip.stripFn s4 (ix2 l c) else if c.val / 32 = 2 then TileStrip.stripFn s3 (ix2 l c)
    else if c.val / 32 = 1 then TileStrip.stripFn s2 (ix2 l c) else TileStrip.stripFn s1 (ix2 l c)) = _
  by_cases c7 : c.val / 32 = 7
  · rw [if_pos c7]; exact (h8 (ix2 l c)).trans (key 7 c7)
  rw [if_neg c7]
  by_cases c6 : c.val / 32 = 6
  · rw [if_pos c6]; exact (h7 (ix2 l c)).trans (key 6 c6)
  rw [if_neg c6]
  by_cases c5 : c.val / 32 = 5
  · rw [if_pos c5]; exact (h6 (ix2 l c)).trans (key 5 c5)
  rw [if_neg c5]
  by_cases c4 : c.val / 32 = 4
  · rw [if_pos c4]; exact (h5 (ix2 l c)).trans (key 4 c4)
  rw [if_neg c4]
  by_cases c3 : c.val / 32 = 3
  · rw [if_pos c3]; exact (h4 (ix2 l c)).trans (key 3 c3)
  rw [if_neg c3]
  by_cases c2 : c.val / 32 = 2
  · rw [if_pos c2]; exact (h3 (ix2 l c)).trans (key 2 c2)
  rw [if_neg c2]
  by_cases c1 : c.val / 32 = 1
  · rw [if_pos c1]; exact (h2 (ix2 l c)).trans (key 1 c1)
  rw [if_neg c1]
  have c0 : c.val / 32 = 0 := by omega
  exact (h1 (ix2 l c)).trans (key 0 c0)

/-! ## The body's loads, read at the global arrays -/

theorem hz4 : (![0, 0, 0, 0] : Fin 4 → ℕ) = fun _ => 0 := by
  funext a; match a with | ⟨0, _⟩ => rfl | ⟨1, _⟩ => rfl | ⟨2, _⟩ => rfl | ⟨3, _⟩ => rfl

/-- Rows o .. o + 31 of the projection matrix, o = 256 g + 32 H, are head H's block g. -/
theorem w_row (mm : Memref sig .tc .vmem S768x256 .f32) (hm : mm.IsWhole) (X : Vec Ideal S768x256 .f32)
    (g : Fin 3) (H : Fin 8) (o : ℕ) (ho : o = 256 * g.val + 32 * H.val)
    (inb : ∀ a, (![o, 0] : Fin 2 → ℕ) a + S32x256.size a ≤ S768x256.size a) (e : Fin 32) (c' : Fin 256) :
    View.readAt (Elt Ideal) mm.view (Rect.unit (s := S768x256) ![o, 0] S32x256.size inb).toLoadRect (hm.unread X) (ix2 e c')
      = X (ix2 (Spec.prow g H e) c') :=
  (KIBlocks.load_w mm hm X o inb e c').trans (congrArg (fun r : Fin 768 => X (ix2 r c')) (Fin.ext (by subst ho; rfl)))

/-- Entries o .. o + 31 of the projection bias, o = 256 g + 32 H, are head H's slice g. -/
theorem b_row (mm : Memref sig .tc .vmem S768 .f32) (hm : mm.IsWhole) (X : Vec Ideal S768 .f32)
    (g : Fin 3) (H : Fin 8) (o : ℕ) (ho : o = 256 * g.val + 32 * H.val)
    (inb : ∀ a, (![o] : Fin 1 → ℕ) a + S32.size a ≤ S768.size a) (e : Fin 32) :
    View.readAt (Elt Ideal) mm.view (Rect.unit (s := S768) ![o] S32.size inb).toLoadRect (hm.unread X) (ix1 e)
      = X (ix1 (Spec.prow g H e)) :=
  (KIBlocks.load_b mm hm X o inb e).trans (congrArg (fun r : Fin 768 => X (ix1 r)) (Fin.ext (by subst ho; rfl)))

/-- A query tile's load reads the sequence group's rows 512 j .. 512 j + 511. -/
theorem q_tile (mm : Memref sig .tc .vmem S1x1x2048x256 .f32) (hm : mm.IsWhole) (X : Vec Ideal S1x1x2048x256 .f32)
    (Xg : Spec.SX.Idx → EReal) (n : Fin 4)
    (hx : ∀ (l : Fin 2048) (c' : Fin 256), X (ix4 (0 : Fin 1) (0 : Fin 1) l c') = Xg (ix4 (0 : Fin 1) n l c'))
    (off : Fin 4 → ℕ) (j : Fin 4) (hoff : off = ![0, 0, 512 * j.val, 0])
    (inb : ∀ a, off a + S1x1x512x256.size a ≤ S1x1x2048x256.size a) (r : Fin 512) (c' : Fin 256) :
    View.readAt (Elt Ideal) mm.view (Rect.unit (s := S1x1x2048x256) off S1x1x512x256.size inb).toLoadRect (hm.unread X)
        (ix4 (0 : Fin 1) (0 : Fin 1) r c')
      = Xg (ix4 (0 : Fin 1) n ⟨512 * j.val + r.val, by have := j.isLt; have := r.isLt; omega⟩ c') :=
  (KIBlocks.load_xtile mm hm X off j.val hoff inb r c').trans (hx _ c')

/-! ## The stored payload is the specification's layer output -/

theorem pay3_oacc_eq (c : Dev nD) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (x0 : Vec Ideal S1x1x2048x256 .f32) (x1 : Vec Ideal S768x256 .f32) (x2 : Vec Ideal S768 .f32) (x3 : Vec Ideal S256x256 .f32) (x4 : Vec Ideal S256 .f32)
    (Xg : Spec.SX.Idx → EReal) (n : Fin 4)
    (hx : ∀ (l : Fin 2048) (c' : Fin 256), x0 (ix4 (0 : Fin 1) (0 : Fin 1) l c') = Xg (ix4 (0 : Fin 1) n l c'))
    (l : Fin 2048) (o : Fin 256) :
    k0_pay3 (F := Ideal) (oaccOf (F := Ideal)
        (strip_t1 (F := Ideal) Variants.none c none i arg1 harg1 arg2 harg2 arg3 harg3 arg4 harg4 arg5 harg5 arg6 harg6 arg7 harg7 arg8 harg8 (View.readAt (Elt Ideal) arg1.view (Rect.unit (s := S1x1x2048x256) ![0, 0, 0, 0] S1x1x2048x256.size inb_S1x1x2048x256_S1x1x2048x256_0_0_0_0).toLoadRect (harg1.unread x0)) (View.readAt (Elt Ideal) arg2.view (Rect.unit (s := S768x256) ![0, 0] S32x256.size inb_S768x256_S32x256_0_0).toLoadRect (harg2.unread x1)) (View.readAt (Elt Ideal) arg2.view (Rect.unit (s := S768x256) ![256, 0] S32x256.size inb_S768x256_S32x256_256_0).toLoadRect (harg2.unread x1)) (View.readAt (Elt Ideal) arg2.view (Rect.unit (s := S768x256) ![512, 0] S32x256.size inb_S768x256_S32x256_512_0).toLoadRect (harg2.unread x1)) (View.readAt (Elt Ideal) arg3.view (Rect.unit (s := S768) ![0] S32.size inb_S768_S32_0).toLoadRect (harg3.unread x2)) (View.readAt (Elt Ideal) arg3.view (Rect.unit (s := S768) ![256] S32.size inb_S768_S32_256).toLoadRect (harg3.unread x2)) (View.readAt (Elt Ideal) arg3.view (Rect.unit (s := S768) ![512] S32.size inb_S768_S32_512).toLoadRect (harg3.unread x2)) (harg1.unread x0))
        (strip_t2 (F := Ideal) Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay7 (View.readAt (Elt Ideal) arg2.view (Rect.unit (s := S768x256) ![32, 0] S32x256.size inb_S768x256_S32x256_32_0).toLoadRect (harg2.unread x1))) (k0_pay8 (View.readAt (Elt Ideal) arg2.view (Rect.unit (s := S768x256) ![288, 0] S32x256.size inb_S768x256_S32x256_288_0).toLoadRect (harg2.unread x1))) (k0_pay9 (View.readAt (Elt Ideal) arg2.view (Rect.unit (s := S768x256) ![544, 0] S32x256.size inb_S768x256_S32x256_544_0).toLoadRect (harg2.unread x1))) (View.readAt (Elt Ideal) arg3.view (Rect.unit (s := S768) ![32] S32.size inb_S768_S32_32).toLoadRect (harg3.unread x2)) (View.readAt (Elt Ideal) arg3.view (Rect.unit (s := S768) ![288] S32.size inb_S768_S32_288).toLoadRect (harg3.unread x2)) (View.readAt (Elt Ideal) arg3.view (Rect.unit (s := S768) ![544] S32.size inb_S768_S32_544).toLoadRect (harg3.unread x2)) (harg1.unread x0))
        (strip_t3 (F := Ideal) Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay12 (View.readAt (Elt Ideal) arg2.view (Rect.unit (s := S768x256) ![64, 0] S32x256.size inb_S768x256_S32x256_64_0).toLoadRect (harg2.unread x1))) (k0_pay13 (View.readAt (Elt Ideal) arg3.view (Rect.unit (s := S768) ![64] S32.size inb_S768_S32_64).toLoadRect (harg3.unread x2))) (k0_pay14 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![320, 0] S32x256.size inb_S768x256_S32x256_320_0).toLoadRect (harg2.unread x1)) (View.readAt (Elt Ideal) arg3.view (Rect.unit (s := S768) ![320] S32.size inb_S768_S32_320).toLoadRect (harg3.unread x2))) (k0_pay15 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![576, 0] S32x256.size inb_S768x256_S32x256_576_0).toLoadRect (harg2.unread x1)) (View.readAt (Elt Ideal) arg3.view (Rect.unit (s := S768) ![576] S32.size inb_S768_S32_576).toLoadRect (harg3.unread x2))) 0#32 (harg1.unread x0))
        (strip_t4 (F := Ideal) Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay12 (View.readAt (Elt Ideal) arg2.view (Rect.unit (s := S768x256) ![64, 0] S32x256.size inb_S768x256_S32x256_64_0).toLoadRect (harg2.unread x1))) (k0_pay13 (View.readAt (Elt Ideal) arg3.view (Rect.unit (s := S768) ![64] S32.size inb_S768_S32_64).toLoadRect (harg3.unread x2))) (k0_pay14 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![320, 0] S32x256.size inb_S768x256_S32x256_320_0).toLoadRect (harg2.unread x1)) (View.readAt (Elt Ideal) arg3.view (Rect.unit (s := S768) ![320] S32.size inb_S768_S32_320).toLoadRect (harg3.unread x2))) (k0_pay15 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![576, 0] S32x256.size inb_S768x256_S32x256_576_0).toLoadRect (harg2.unread x1)) (View.readAt (Elt Ideal) arg3.view (Rect.unit (s := S768) ![576] S32.size inb_S768_S32_576).toLoadRect (harg3.unread x2))) 0#32 (View.readAt (Elt Ideal) arg2.view (Rect.unit (s := S768x256) ![96, 0] S32x256.size inb_S768x256_S32x256_96_0).toLoadRect (harg2.unread x1)) (View.readAt (Elt Ideal) arg2.view (Rect.unit (s := S768x256) ![352, 0] S32x256.size inb_S768x256_S32x256_352_0).toLoadRect (harg2.unread x1)) (View.readAt (Elt Ideal) arg2.view (Rect.unit (s := S768x256) ![608, 0] S32x256.size inb_S768x256_S32x256_608_0).toLoadRect (harg2.unread x1)) (View.readAt (Elt Ideal) arg3.view (Rect.unit (s := S768) ![96] S32.size inb_S768_S32_96).toLoadRect (harg3.unread x2)) (View.readAt (Elt Ideal) arg3.view (Rect.unit (s := S768) ![352] S32.size inb_S768_S32_352).toLoadRect (harg3.unread x2)) (View.readAt (Elt Ideal) arg3.view (Rect.unit (s := S768) ![608] S32.size inb_S768_S32_608).toLoadRect (harg3.unread x2)) (harg1.unread x0))
        (strip_t5 (F := Ideal) Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay20 (View.readAt (Elt Ideal) arg2.view (Rect.unit (s := S768x256) ![128, 0] S32x256.size inb_S768x256_S32x256_128_0).toLoadRect (harg2.unread x1))) (k0_pay21 (View.readAt (Elt Ideal) arg2.view (Rect.unit (s := S768x256) ![384, 0] S32x256.size inb_S768x256_S32x256_384_0).toLoadRect (harg2.unread x1))) (k0_pay22 (View.readAt (Elt Ideal) arg2.view (Rect.unit (s := S768x256) ![640, 0] S32x256.size inb_S768x256_S32x256_640_0).toLoadRect (harg2.unread x1))) (k0_pay23 (View.readAt (Elt Ideal) arg3.view (Rect.unit (s := S768) ![128] S32.size inb_S768_S32_128).toLoadRect (harg3.unread x2))) (View.readAt (Elt Ideal) arg3.view (Rect.unit (s := S768) ![384] S32.size inb_S768_S32_384).toLoadRect (harg3.unread x2)) (View.readAt (Elt Ideal) arg3.view (Rect.unit (s := S768) ![640] S32.size inb_S768_S32_640).toLoadRect (harg3.unread x2)) (harg1.unread x0))
        (strip_t6 (F := Ideal) Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay26 (View.readAt (Elt Ideal) arg2.view (Rect.unit (s := S768x256) ![160, 0] S32x256.size inb_S768x256_S32x256_160_0).toLoadRect (harg2.unread x1))) (k0_pay27 (View.readAt (Elt Ideal) arg3.view (Rect.unit (s := S768) ![160] S32.size inb_S768_S32_160).toLoadRect (harg3.unread x2))) (k0_pay28 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![416, 0] S32x256.size inb_S768x256_S32x256_416_0).toLoadRect (harg2.unread x1)) (View.readAt (Elt Ideal) arg3.view (Rect.unit (s := S768) ![416] S32.size inb_S768_S32_416).toLoadRect (harg3.unread x2))) (k0_pay29 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![672, 0] S32x256.size inb_S768x256_S32x256_672_0).toLoadRect (harg2.unread x1)) (View.readAt (Elt Ideal) arg3.view (Rect.unit (s := S768) ![672] S32.size inb_S768_S32_672).toLoadRect (harg3.unread x2))) 0#32 1#32 (harg1.unread x0))
        (strip_t7 (F := Ideal) Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay26 (View.readAt (Elt Ideal) arg2.view (Rect.unit (s := S768x256) ![160, 0] S32x256.size inb_S768x256_S32x256_160_0).toLoadRect (harg2.unread x1))) (k0_pay27 (View.readAt (Elt Ideal) arg3.view (Rect.unit (s := S768) ![160] S32.size inb_S768_S32_160).toLoadRect (harg3.unread x2))) (k0_pay28 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![416, 0] S32x256.size inb_S768x256_S32x256_416_0).toLoadRect (harg2.unread x1)) (View.readAt (Elt Ideal) arg3.view (Rect.unit (s := S768) ![416] S32.size inb_S768_S32_416).toLoadRect (harg3.unread x2))) (k0_pay29 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![672, 0] S32x256.size inb_S768x256_S32x256_672_0).toLoadRect (harg2.unread x1)) (View.readAt (Elt Ideal) arg3.view (Rect.unit (s := S768) ![672] S32.size inb_S768_S32_672).toLoadRect (harg3.unread x2))) 0#32 1#32 (View.readAt (Elt Ideal) arg2.view (Rect.unit (s := S768x256) ![192, 0] S32x256.size inb_S768x256_S32x256_192_0).toLoadRect (harg2.unread x1)) (View.readAt (Elt Ideal) arg2.view (Rect.unit (s := S768x256) ![448, 0] S32x256.size inb_S768x256_S32x256_448_0).toLoadRect (harg2.unread x1)) (View.readAt (Elt Ideal) arg2.view (Rect.unit (s := S768x256) ![704, 0] S32x256.size inb_S768x256_S32x256_704_0).toLoadRect (harg2.unread x1)) (View.readAt (Elt Ideal) arg3.view (Rect.unit (s := S768) ![192] S32.size inb_S768_S32_192).toLoadRect (harg3.unread x2)) (View.readAt (Elt Ideal) arg3.view (Rect.unit (s := S768) ![448] S32.size inb_S768_S32_448).toLoadRect (harg3.unread x2)) (View.readAt (Elt Ideal) arg3.view (Rect.unit (s := S768) ![704] S32.size inb_S768_S32_704).toLoadRect (harg3.unread x2)) (harg1.unread x0))
        (strip_t8 (F := Ideal) Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay34 (View.readAt (Elt Ideal) arg2.view (Rect.unit (s := S768x256) ![224, 0] S32x256.size inb_S768x256_S32x256_224_0).toLoadRect (harg2.unread x1))) (k0_pay35 (View.readAt (Elt Ideal) arg2.view (Rect.unit (s := S768x256) ![480, 0] S32x256.size inb_S768x256_S32x256_480_0).toLoadRect (harg2.unread x1))) (k0_pay36 (View.readAt (Elt Ideal) arg2.view (Rect.unit (s := S768x256) ![736, 0] S32x256.size inb_S768x256_S32x256_736_0).toLoadRect (harg2.unread x1))) (k0_pay37 (View.readAt (Elt Ideal) arg3.view (Rect.unit (s := S768) ![224] S32.size inb_S768_S32_224).toLoadRect (harg3.unread x2))) (k0_pay38 (View.readAt (Elt Ideal) arg3.view (Rect.unit (s := S768) ![480] S32.size inb_S768_S32_480).toLoadRect (harg3.unread x2))) (View.readAt (Elt Ideal) arg3.view (Rect.unit (s := S768) ![736] S32.size inb_S768_S32_736).toLoadRect (harg3.unread x2)) (harg1.unread x0)))
      (View.readAt (Elt Ideal) arg4.view (Rect.unit (s := S256x256) ![0, 0] S256x256.size inb_S256x256_S256x256_0_0).toLoadRect (harg4.unread x3))
      (View.readAt (Elt Ideal) arg5.view (Rect.unit (s := S256) ![0] S256.size inb_S256_S256_0).toLoadRect (harg5.unread x4)) (ix4 (0 : Fin 1) (0 : Fin 1) l o)
      = Spec.outOf x3 x4 (Spec.headOf Xg x1 x2 Spec.attnK) n l o := by
  have hX0 : ∀ (l : Fin 2048) (c' : Fin 256), (View.readAt (Elt Ideal) arg1.view (Rect.unit (s := S1x1x2048x256) ![0, 0, 0, 0] S1x1x2048x256.size inb_S1x1x2048x256_S1x1x2048x256_0_0_0_0).toLoadRect (harg1.unread x0)) (ix4 (0 : Fin 1) (0 : Fin 1) l c') = Xg (ix4 (0 : Fin 1) n l c') :=
    fun l c' => (congrFun (KIBlocks.load_whole4 arg1 harg1 x0 _) _).trans (hx l c')
  have hV2 : ∀ (l : Fin 2048) (c' : Fin 256), (k0_pay4 (View.readAt (Elt Ideal) arg1.view (Rect.unit (s := S1x1x2048x256) ![0, 0, 0, 0] S1x1x2048x256.size inb_S1x1x2048x256_S1x1x2048x256_0_0_0_0).toLoadRect (harg1.unread x0))) (ix2 l c') = Xg (ix4 (0 : Fin 1) n l c') :=
    fun l c' => (HeadValue.pay4_apply _ l c').trans (hX0 l c')
  refine (HeadValue.pay3_apply _ _ _ l o).trans ?_
  unfold Spec.outOf
  refine congrArg₂ (· + ·) (Finset.sum_congr rfl fun cc _ => congrArg₂ (· * ·) ?_ ?_) ?_
  · refine oacc_concat _ _ _ _ _ _ _ _ Xg x1 x2 n
        (fun y => StripHeads.strip1_head Variants.none c none i arg1 harg1 arg2 harg2 arg3 harg3 arg4 harg4 arg5 harg5 arg6 harg6 arg7 harg7 arg8 harg8 (View.readAt (Elt Ideal) arg1.view (Rect.unit (s := S1x1x2048x256) ![0, 0, 0, 0] S1x1x2048x256.size inb_S1x1x2048x256_S1x1x2048x256_0_0_0_0).toLoadRect (harg1.unread x0)) (View.readAt (Elt Ideal) arg2.view (Rect.unit (s := S768x256) ![0, 0] S32x256.size inb_S768x256_S32x256_0_0).toLoadRect (harg2.unread x1)) (View.readAt (Elt Ideal) arg2.view (Rect.unit (s := S768x256) ![256, 0] S32x256.size inb_S768x256_S32x256_256_0).toLoadRect (harg2.unread x1)) (View.readAt (Elt Ideal) arg2.view (Rect.unit (s := S768x256) ![512, 0] S32x256.size inb_S768x256_S32x256_512_0).toLoadRect (harg2.unread x1)) (View.readAt (Elt Ideal) arg3.view (Rect.unit (s := S768) ![0] S32.size inb_S768_S32_0).toLoadRect (harg3.unread x2)) (View.readAt (Elt Ideal) arg3.view (Rect.unit (s := S768) ![256] S32.size inb_S768_S32_256).toLoadRect (harg3.unread x2)) (View.readAt (Elt Ideal) arg3.view (Rect.unit (s := S768) ![512] S32.size inb_S768_S32_512).toLoadRect (harg3.unread x2)) (harg1.unread x0) Xg x1 x2 n hX0
          (fun j r c' => q_tile arg1 harg1 x0 Xg n hx _ j (k0_off1_eq (tr1 j)) _ r c')
          (fun e c' => w_row arg2 harg2 x1 0 0 0 (by decide) _ e c')
          (fun e c' => w_row arg2 harg2 x1 1 0 256 (by decide) _ e c')
          (fun e c' => w_row arg2 harg2 x1 2 0 512 (by decide) _ e c')
          (fun e => b_row arg3 harg3 x2 0 0 0 (by decide) _ e)
          (fun e => b_row arg3 harg3 x2 1 0 256 (by decide) _ e)
          (fun e => b_row arg3 harg3 x2 2 0 512 (by decide) _ e) y)
        (fun y => StripHeads.strip2_head Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![32, 0] S32x256.size inb_S768x256_S32x256_32_0).toLoadRect (harg2.unread x1)) (View.readAt (Elt Ideal) arg2.view (Rect.unit (s := S768x256) ![288, 0] S32x256.size inb_S768x256_S32x256_288_0).toLoadRect (harg2.unread x1)) (View.readAt (Elt Ideal) arg2.view (Rect.unit (s := S768x256) ![544, 0] S32x256.size inb_S768x256_S32x256_544_0).toLoadRect (harg2.unread x1)) (View.readAt (Elt Ideal) arg3.view (Rect.unit (s := S768) ![32] S32.size inb_S768_S32_32).toLoadRect (harg3.unread x2)) (View.readAt (Elt Ideal) arg3.view (Rect.unit (s := S768) ![288] S32.size inb_S768_S32_288).toLoadRect (harg3.unread x2)) (View.readAt (Elt Ideal) arg3.view (Rect.unit (s := S768) ![544] S32.size inb_S768_S32_544).toLoadRect (harg3.unread x2)) (harg1.unread x0) Xg x1 x2 n hV2
          (fun j r c' => q_tile arg1 harg1 x0 Xg n hx _ j (k0_off3_eq (tr2 j)) _ r c')
          (fun e c' => w_row arg2 harg2 x1 0 1 32 (by decide) _ e c')
          (fun e c' => w_row arg2 harg2 x1 1 1 288 (by decide) _ e c')
          (fun e c' => w_row arg2 harg2 x1 2 1 544 (by decide) _ e c')
          (fun e => b_row arg3 harg3 x2 0 1 32 (by decide) _ e)
          (fun e => b_row arg3 harg3 x2 1 1 288 (by decide) _ e)
          (fun e => b_row arg3 harg3 x2 2 1 544 (by decide) _ e) y)
        (fun y => StripHeads.strip3_head Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![64, 0] S32x256.size inb_S768x256_S32x256_64_0).toLoadRect (harg2.unread x1)) (View.readAt (Elt Ideal) arg2.view (Rect.unit (s := S768x256) ![320, 0] S32x256.size inb_S768x256_S32x256_320_0).toLoadRect (harg2.unread x1)) (View.readAt (Elt Ideal) arg2.view (Rect.unit (s := S768x256) ![576, 0] S32x256.size inb_S768x256_S32x256_576_0).toLoadRect (harg2.unread x1)) (View.readAt (Elt Ideal) arg3.view (Rect.unit (s := S768) ![64] S32.size inb_S768_S32_64).toLoadRect (harg3.unread x2)) (View.readAt (Elt Ideal) arg3.view (Rect.unit (s := S768) ![320] S32.size inb_S768_S32_320).toLoadRect (harg3.unread x2)) (View.readAt (Elt Ideal) arg3.view (Rect.unit (s := S768) ![576] S32.size inb_S768_S32_576).toLoadRect (harg3.unread x2)) 0#32 (harg1.unread x0) Xg x1 x2 n hV2
          (fun j r c' => q_tile arg1 harg1 x0 Xg n hx _ j (k0_off5_eq (tr3 j)) _ r c')
          (fun e c' => w_row arg2 harg2 x1 0 2 64 (by decide) _ e c')
          (fun e c' => w_row arg2 harg2 x1 1 2 320 (by decide) _ e c')
          (fun e c' => w_row arg2 harg2 x1 2 2 576 (by decide) _ e c')
          (fun e => b_row arg3 harg3 x2 0 2 64 (by decide) _ e)
          (fun e => b_row arg3 harg3 x2 1 2 320 (by decide) _ e)
          (fun e => b_row arg3 harg3 x2 2 2 576 (by decide) _ e) y)
        (fun y => StripHeads.strip4_head Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay12 (View.readAt (Elt Ideal) arg2.view (Rect.unit (s := S768x256) ![64, 0] S32x256.size inb_S768x256_S32x256_64_0).toLoadRect (harg2.unread x1))) (k0_pay13 (View.readAt (Elt Ideal) arg3.view (Rect.unit (s := S768) ![64] S32.size inb_S768_S32_64).toLoadRect (harg3.unread x2))) (k0_pay14 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![320, 0] S32x256.size inb_S768x256_S32x256_320_0).toLoadRect (harg2.unread x1)) (View.readAt (Elt Ideal) arg3.view (Rect.unit (s := S768) ![320] S32.size inb_S768_S32_320).toLoadRect (harg3.unread x2))) (k0_pay15 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![576, 0] S32x256.size inb_S768x256_S32x256_576_0).toLoadRect (harg2.unread x1)) (View.readAt (Elt Ideal) arg3.view (Rect.unit (s := S768) ![576] S32.size inb_S768_S32_576).toLoadRect (harg3.unread x2))) 0#32 (View.readAt (Elt Ideal) arg2.view (Rect.unit (s := S768x256) ![96, 0] S32x256.size inb_S768x256_S32x256_96_0).toLoadRect (harg2.unread x1)) (View.readAt (Elt Ideal) arg2.view (Rect.unit (s := S768x256) ![352, 0] S32x256.size inb_S768x256_S32x256_352_0).toLoadRect (harg2.unread x1)) (View.readAt (Elt Ideal) arg2.view (Rect.unit (s := S768x256) ![608, 0] S32x256.size inb_S768x256_S32x256_608_0).toLoadRect (harg2.unread x1)) (View.readAt (Elt Ideal) arg3.view (Rect.unit (s := S768) ![96] S32.size inb_S768_S32_96).toLoadRect (harg3.unread x2)) (View.readAt (Elt Ideal) arg3.view (Rect.unit (s := S768) ![352] S32.size inb_S768_S32_352).toLoadRect (harg3.unread x2)) (View.readAt (Elt Ideal) arg3.view (Rect.unit (s := S768) ![608] S32.size inb_S768_S32_608).toLoadRect (harg3.unread x2)) (harg1.unread x0) Xg x1 x2 n hV2
          (fun j r c' => q_tile arg1 harg1 x0 Xg n hx _ j (k0_off7_eq (tr4 j)) _ r c')
          (fun e c' => w_row arg2 harg2 x1 0 3 96 (by decide) _ e c')
          (fun e c' => w_row arg2 harg2 x1 1 3 352 (by decide) _ e c')
          (fun e c' => w_row arg2 harg2 x1 2 3 608 (by decide) _ e c')
          (fun e => b_row arg3 harg3 x2 0 3 96 (by decide) _ e)
          (fun e => b_row arg3 harg3 x2 1 3 352 (by decide) _ e)
          (fun e => b_row arg3 harg3 x2 2 3 608 (by decide) _ e) y)
        (fun y => StripHeads.strip5_head Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![128, 0] S32x256.size inb_S768x256_S32x256_128_0).toLoadRect (harg2.unread x1)) (View.readAt (Elt Ideal) arg2.view (Rect.unit (s := S768x256) ![384, 0] S32x256.size inb_S768x256_S32x256_384_0).toLoadRect (harg2.unread x1)) (View.readAt (Elt Ideal) arg2.view (Rect.unit (s := S768x256) ![640, 0] S32x256.size inb_S768x256_S32x256_640_0).toLoadRect (harg2.unread x1)) (View.readAt (Elt Ideal) arg3.view (Rect.unit (s := S768) ![128] S32.size inb_S768_S32_128).toLoadRect (harg3.unread x2)) (View.readAt (Elt Ideal) arg3.view (Rect.unit (s := S768) ![384] S32.size inb_S768_S32_384).toLoadRect (harg3.unread x2)) (View.readAt (Elt Ideal) arg3.view (Rect.unit (s := S768) ![640] S32.size inb_S768_S32_640).toLoadRect (harg3.unread x2)) (harg1.unread x0) Xg x1 x2 n hV2
          (fun j r c' => q_tile arg1 harg1 x0 Xg n hx _ j (k0_off9_eq (tr5 j)) _ r c')
          (fun e c' => w_row arg2 harg2 x1 0 4 128 (by decide) _ e c')
          (fun e c' => w_row arg2 harg2 x1 1 4 384 (by decide) _ e c')
          (fun e c' => w_row arg2 harg2 x1 2 4 640 (by decide) _ e c')
          (fun e => b_row arg3 harg3 x2 0 4 128 (by decide) _ e)
          (fun e => b_row arg3 harg3 x2 1 4 384 (by decide) _ e)
          (fun e => b_row arg3 harg3 x2 2 4 640 (by decide) _ e) y)
        (fun y => StripHeads.strip6_head Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![160, 0] S32x256.size inb_S768x256_S32x256_160_0).toLoadRect (harg2.unread x1)) (View.readAt (Elt Ideal) arg2.view (Rect.unit (s := S768x256) ![416, 0] S32x256.size inb_S768x256_S32x256_416_0).toLoadRect (harg2.unread x1)) (View.readAt (Elt Ideal) arg2.view (Rect.unit (s := S768x256) ![672, 0] S32x256.size inb_S768x256_S32x256_672_0).toLoadRect (harg2.unread x1)) (View.readAt (Elt Ideal) arg3.view (Rect.unit (s := S768) ![160] S32.size inb_S768_S32_160).toLoadRect (harg3.unread x2)) (View.readAt (Elt Ideal) arg3.view (Rect.unit (s := S768) ![416] S32.size inb_S768_S32_416).toLoadRect (harg3.unread x2)) (View.readAt (Elt Ideal) arg3.view (Rect.unit (s := S768) ![672] S32.size inb_S768_S32_672).toLoadRect (harg3.unread x2)) 0#32 1#32 (harg1.unread x0) Xg x1 x2 n hV2
          (fun j r c' => q_tile arg1 harg1 x0 Xg n hx _ j (k0_off11_eq (tr6 j)) _ r c')
          (fun e c' => w_row arg2 harg2 x1 0 5 160 (by decide) _ e c')
          (fun e c' => w_row arg2 harg2 x1 1 5 416 (by decide) _ e c')
          (fun e c' => w_row arg2 harg2 x1 2 5 672 (by decide) _ e c')
          (fun e => b_row arg3 harg3 x2 0 5 160 (by decide) _ e)
          (fun e => b_row arg3 harg3 x2 1 5 416 (by decide) _ e)
          (fun e => b_row arg3 harg3 x2 2 5 672 (by decide) _ e) y)
        (fun y => StripHeads.strip7_head Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (k0_pay26 (View.readAt (Elt Ideal) arg2.view (Rect.unit (s := S768x256) ![160, 0] S32x256.size inb_S768x256_S32x256_160_0).toLoadRect (harg2.unread x1))) (k0_pay27 (View.readAt (Elt Ideal) arg3.view (Rect.unit (s := S768) ![160] S32.size inb_S768_S32_160).toLoadRect (harg3.unread x2))) (k0_pay28 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![416, 0] S32x256.size inb_S768x256_S32x256_416_0).toLoadRect (harg2.unread x1)) (View.readAt (Elt Ideal) arg3.view (Rect.unit (s := S768) ![416] S32.size inb_S768_S32_416).toLoadRect (harg3.unread x2))) (k0_pay29 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![672, 0] S32x256.size inb_S768x256_S32x256_672_0).toLoadRect (harg2.unread x1)) (View.readAt (Elt Ideal) arg3.view (Rect.unit (s := S768) ![672] S32.size inb_S768_S32_672).toLoadRect (harg3.unread x2))) 0#32 1#32 (View.readAt (Elt Ideal) arg2.view (Rect.unit (s := S768x256) ![192, 0] S32x256.size inb_S768x256_S32x256_192_0).toLoadRect (harg2.unread x1)) (View.readAt (Elt Ideal) arg2.view (Rect.unit (s := S768x256) ![448, 0] S32x256.size inb_S768x256_S32x256_448_0).toLoadRect (harg2.unread x1)) (View.readAt (Elt Ideal) arg2.view (Rect.unit (s := S768x256) ![704, 0] S32x256.size inb_S768x256_S32x256_704_0).toLoadRect (harg2.unread x1)) (View.readAt (Elt Ideal) arg3.view (Rect.unit (s := S768) ![192] S32.size inb_S768_S32_192).toLoadRect (harg3.unread x2)) (View.readAt (Elt Ideal) arg3.view (Rect.unit (s := S768) ![448] S32.size inb_S768_S32_448).toLoadRect (harg3.unread x2)) (View.readAt (Elt Ideal) arg3.view (Rect.unit (s := S768) ![704] S32.size inb_S768_S32_704).toLoadRect (harg3.unread x2)) (harg1.unread x0) Xg x1 x2 n hV2
          (fun j r c' => q_tile arg1 harg1 x0 Xg n hx _ j (k0_off13_eq (tr7 j)) _ r c')
          (fun e c' => w_row arg2 harg2 x1 0 6 192 (by decide) _ e c')
          (fun e c' => w_row arg2 harg2 x1 1 6 448 (by decide) _ e c')
          (fun e c' => w_row arg2 harg2 x1 2 6 704 (by decide) _ e c')
          (fun e => b_row arg3 harg3 x2 0 6 192 (by decide) _ e)
          (fun e => b_row arg3 harg3 x2 1 6 448 (by decide) _ e)
          (fun e => b_row arg3 harg3 x2 2 6 704 (by decide) _ e) y)
        (fun y => StripHeads.strip8_head Variants.none c none i arg1 harg1 arg2 harg2 arg3 harg3 arg4 harg4 arg5 harg5 arg6 harg6 arg7 harg7 arg8 harg8 (k0_pay4 (View.readAt (Elt Ideal) arg1.view (Rect.unit (s := S1x1x2048x256) ![0, 0, 0, 0] S1x1x2048x256.size inb_S1x1x2048x256_S1x1x2048x256_0_0_0_0).toLoadRect (harg1.unread x0))) (View.readAt (Elt Ideal) arg2.view (Rect.unit (s := S768x256) ![224, 0] S32x256.size inb_S768x256_S32x256_224_0).toLoadRect (harg2.unread x1)) (View.readAt (Elt Ideal) arg2.view (Rect.unit (s := S768x256) ![480, 0] S32x256.size inb_S768x256_S32x256_480_0).toLoadRect (harg2.unread x1)) (View.readAt (Elt Ideal) arg2.view (Rect.unit (s := S768x256) ![736, 0] S32x256.size inb_S768x256_S32x256_736_0).toLoadRect (harg2.unread x1)) (View.readAt (Elt Ideal) arg3.view (Rect.unit (s := S768) ![224] S32.size inb_S768_S32_224).toLoadRect (harg3.unread x2)) (View.readAt (Elt Ideal) arg3.view (Rect.unit (s := S768) ![480] S32.size inb_S768_S32_480).toLoadRect (harg3.unread x2)) (View.readAt (Elt Ideal) arg3.view (Rect.unit (s := S768) ![736] S32.size inb_S768_S32_736).toLoadRect (harg3.unread x2)) (harg1.unread x0) Xg x1 x2 n hV2
          (fun j r c' => q_tile arg1 harg1 x0 Xg n hx _ j (k0_off15_eq (tr8 j)) _ r c')
          (fun e c' => w_row arg2 harg2 x1 0 7 224 (by decide) _ e c')
          (fun e c' => w_row arg2 harg2 x1 1 7 480 (by decide) _ e c')
          (fun e c' => w_row arg2 harg2 x1 2 7 736 (by decide) _ e c')
          (fun e => b_row arg3 harg3 x2 0 7 224 (by decide) _ e)
          (fun e => b_row arg3 harg3 x2 1 7 480 (by decide) _ e)
          (fun e => b_row arg3 harg3 x2 2 7 736 (by decide) _ e) y)
          l cc
  · exact congrFun (KIBlocks.load_whole_ow arg4 harg4 x3 _) _
  · exact congrFun (KIBlocks.load_whole_ob arg5 harg5 x4 _) _

/-! ## The output block after the body -/

theorem out_eq (c : Dev nD) (i : grid0.Coords) (arg1 : Memref sig .tc .vmem S1x1x2048x256 .f32) (harg1 : arg1.IsWhole) (arg2 : Memref sig .tc .vmem S768x256 .f32) (harg2 : arg2.IsWhole) (arg3 : Memref sig .tc .vmem S768 .f32) (harg3 : arg3.IsWhole) (arg4 : Memref sig .tc .vmem S256x256 .f32) (harg4 : arg4.IsWhole) (arg5 : Memref sig .tc .vmem S256 .f32) (harg5 : arg5.IsWhole) (arg6 : Memref sig .tc .vmem S1x1x2048x256 .f32) (harg6 : arg6.IsWhole) (arg7 : Memref sig .tc .vmem S512x2048 .f32) (harg7 : arg7.IsWhole) (arg8 : Memref sig .tc .vmem S2048x256 .f32) (harg8 : arg8.IsWhole)
    (x0 : Vec Ideal S1x1x2048x256 .f32) (x1 : Vec Ideal S768x256 .f32) (x2 : Vec Ideal S768 .f32) (x3 : Vec Ideal S256x256 .f32) (x4 : Vec Ideal S256 .f32)
    (Xg : Spec.SX.Idx → EReal) (n : Fin 4)
    (hx : ∀ (l : Fin 2048) (c' : Fin 256), x0 (ix4 (0 : Fin 1) (0 : Fin 1) l c') = Xg (ix4 (0 : Fin 1) n l c'))
    (l : Fin 2048) (o : Fin 256) :
    Cert.KernelIdeal.GenP.out0_A_5 (F := Ideal) c i arg1 harg1 arg2 harg2 arg3 harg3 arg4 harg4 arg5 harg5 arg6 harg6 arg7 harg7 arg8 harg8 x0 x1 x2 x3 x4 (ix4 (0 : Fin 1) (0 : Fin 1) l o)
      = Spec.outOf x3 x4 (Spec.headOf Xg x1 x2 Spec.attnK) n l o := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  rw [View.canon_unit_zero hz4]
  exact pay3_oacc_eq c i arg1 harg1 arg2 harg2 arg3 harg3 arg4 harg4 arg5 harg5 arg6 harg6 arg7 harg7 arg8 harg8 x0 x1 x2 x3 x4 Xg n hx l o

end Cert.Mhsa.OutValue

end
-- ==== Proof.KernelValue.lean ====
/-
  THE IDEALIZED KERNEL'S RESULT ARRAY IS THE LAYER FUNCTION OF ITS ARGUMENT ARRAYS.

  The kernel runs over four grid points, one per sequence group n. At point n it is handed row-block n of the input
  (all 2048 tokens of that group) and the four parameter arrays whole, and it writes back block n of the result: for
  token l and output column o, the output projection of the eight heads' outputs side by side, each head's output the
  softmax-weighted average of its value rows with the weighted sum divided once by the weights' sum. The four blocks are
  disjoint and fill the result array, so after the run the array is that function at every index.
-/
import proofs.«127032_j4604204941406_2_alg».proof.Proof.ValueKI
import proofs.«127032_j4604204941406_2_alg».proof.Proof.OutValue
import proofs.«127032_j4604204941406_2_alg».proof.Proof.KIBlocks
import proofs.«127032_j4604204941406_2_alg».proof.Proof.Spec

set_option maxRecDepth 16384

noncomputable section

namespace Cert.Mhsa.KernelValue

open Cert.KernelIdeal Cert.KernelIdeal.Gen Cert.KernelIdeal.GenP Cert.KernelIdeal.ValueP
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer function of five arrays (a wrapper that fixes the arrays' index types). -/
def layer (a0 : S1x4x2048x256.Idx → EReal) (a1 : S768x256.Idx → EReal) (a2 : S768.Idx → EReal) (a3 : S256x256.Idx → EReal)
    (a4 : S256.Idx → EReal) : S1x4x2048x256.Idx → EReal :=
  Cert.Mhsa.Spec.kerOut a0 a1 a2 a3 a4

/-- The output window's block index at point t is (0, t, 0, 0). -/
theorem idx_facts5 : ∀ t : Fin cfg0.N, win0_5.index t (0 : Fin 4) = 0 ∧ win0_5.index t (1 : Fin 4) = t.val
    ∧ win0_5.index t (2 : Fin 4) = 0 ∧ win0_5.index t (3 : Fin 4) = 0 ∧ t.val < 4 :=
  (by decide +kernel : ∀ t : Fin grid0.N, _)

/-- Every sequence group is some point's. -/
theorem idx_onto5 : ∀ q : Fin 4, ∃ t : Fin cfg0.N, t.val = q.val :=
  (by decide +kernel : ∀ q : Fin 4, ∃ t : Fin grid0.N, t.val = q.val)

/-- What point t writes back is block t of the layer function of the argument arrays. -/
theorem flushed_eq (c : Dev nD) (t : Fin cfg0.N) :
    (dats m 0 c).flushed 5 t = ((cfg0.win 5).blk t).view.read (Elt Ideal)
      (layer (V m c main_arg0) (V m c main_arg1) (V m c main_arg2) (V m c main_arg3) (V m c main_arg4)) := by
  rw [flushed5_A]
  obtain ⟨e0, e1, e2, e3, e4⟩ := idx_facts5 t
  funext j
  have hj0 : (j 0).val < 1 := (j 0).isLt
  have hj1 : (j 1).val < 1 := (j 1).isLt
  have hj2 : (j 2).val < 2048 := (j 2).isLt
  have hj3 : (j 3).val < 256 := (j 3).isLt
  have hemb : ((cfg0.win 5).blk t).view.emb j = ix4 (0 : Fin 1) (⟨t.val, e4⟩ : Fin 4) (j 2) (j 3) := by
    funext a; apply Fin.ext
    match a with
    | ⟨0, _⟩ => show win0_5.index t (0 : Fin 4) * 1 + 1 * (j 0).val = 0; omega
    | ⟨1, _⟩ => show win0_5.index t (1 : Fin 4) * 1 + 1 * (j 1).val = t.val; omega
    | ⟨2, _⟩ => show win0_5.index t (2 : Fin 4) * 2048 + 1 * (j 2).val = (j 2).val; omega
    | ⟨3, _⟩ => show win0_5.index t (3 : Fin 4) * 256 + 1 * (j 3).val = (j 3).val; omega
  have hjj : j = ix4 (0 : Fin 1) (0 : Fin 1) (j 2) (j 3) := by
    funext a; apply Fin.ext
    match a with
    | ⟨0, _⟩ => show (j 0).val = 0; omega
    | ⟨1, _⟩ => show (j 1).val = 0; omega
    | ⟨2, _⟩ => rfl
    | ⟨3, _⟩ => rfl
  have h1 : iblk m c 1 t = V m c main_arg1 := funext fun y => Cert.Mhsa.KIBlocks.iblk1_apply m c t y
  have h2 : iblk m c 2 t = V m c main_arg2 := funext fun y => Cert.Mhsa.KIBlocks.iblk2_apply m c t y
  have h3 : iblk m c 3 t = V m c main_arg3 := funext fun y => Cert.Mhsa.KIBlocks.iblk3_apply m c t y
  have h4 : iblk m c 4 t = V m c main_arg4 := funext fun y => Cert.Mhsa.KIBlocks.iblk4_apply m c t y
  show out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) scM0_1 (Memref.isWhole_whole _)
      (iblk m c 0 t) (iblk m c 1 t) (iblk m c 2 t) (iblk m c 3 t) (iblk m c 4 t) j
    = layer (V m c main_arg0) (V m c main_arg1) (V m c main_arg2) (V m c main_arg3) (V m c main_arg4)
        (((cfg0.win 5).blk t).view.emb j)
  rw [hemb, h1, h2, h3, h4]
  refine (congrArg _ hjj).trans ?_
  exact Cert.Mhsa.OutValue.out_eq c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) scM0_1 (Memref.isWhole_whole _)
    (iblk m c 0 t) (V m c main_arg1) (V m c main_arg2) (V m c main_arg3) (V m c main_arg4)
    (V m c main_arg0) (⟨t.val, e4⟩ : Fin 4) (fun l c' => Cert.Mhsa.KIBlocks.iblk0_apply m c t _) (j 2) (j 3)

/-- An index of the result array is in point t's block iff its second coordinate is t. -/
theorem mem_blk5 (t : Fin cfg0.N) (i : S1x4x2048x256.Idx) :
    i ∈ ((cfg0.win 5).blk t).view.set ↔ ∀ a : Fin 4, win0_5.index t a * S1x1x2048x256.size a ≤ (i a).val
      ∧ (i a).val < win0_5.index t a * S1x1x2048x256.size a + S1x1x2048x256.size a := by
  show i ∈ ((View.whole main_v0).slice (win0_5.rect t)).set ↔ _
  rw [View.set_slice_whole, Rect.mem_set_unit]
  exact Iff.rfl

/-- Every index is in some writing point's block. -/
theorem cover5 (i : S1x4x2048x256.Idx) : ∃ t : Fin cfg0.N, (cfg0.win 5).flush t = true ∧ i ∈ ((cfg0.win 5).blk t).view.set := by
  have hi0 : (i 0).val < 1 := (i 0).isLt
  have hi1 : (i 1).val < 4 := (i 1).isLt
  have hi2 : (i 2).val < 2048 := (i 2).isLt
  have hi3 : (i 3).val < 256 := (i 3).isLt
  obtain ⟨t, ht⟩ := idx_onto5 ⟨(i 1).val, hi1⟩
  obtain ⟨e0, e1, e2, e3, e4⟩ := idx_facts5 t
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ =>
    show win0_5.index t (1 : Fin 4) * 1 ≤ (i 1).val ∧ (i 1).val < win0_5.index t (1 : Fin 4) * 1 + 1
    have : t.val = (i 1).val := ht
    omega
  | ⟨2, _⟩ => show win0_5.index t (2 : Fin 4) * 2048 ≤ (i 2).val ∧ (i 2).val < win0_5.index t (2 : Fin 4) * 2048 + 2048; omega
  | ⟨3, _⟩ => show win0_5.index t (3 : Fin 4) * 256 ≤ (i 3).val ∧ (i 3).val < win0_5.index t (3 : Fin 4) * 256 + 256; omega

/-- The result array after the run. -/
theorem final5 (c : Dev nD) : (dats m 0 c).arrAt 5 cfg0.N
    = layer (V m c main_arg0) (V m c main_arg1) (V m c main_arg2) (V m c main_arg3) (V m c main_arg4) :=
  (dats m 0 c).arrAt_eq_of_cover 5 _ (fun t _ => flushed_eq m c t) (cover5)

/-- The idealized kernel's run: every weakly fair execution terminates with the result array at the layer function of
    the argument arrays, and the argument arrays unchanged. -/
theorem run : θ_run defs (onTc (τ := τ) (main (F := Ideal))) ⟨m, fun _ => 0, ρ⟩ fun r => ∀ c : Dev nD,
      r.2.mem ((c : Thread nD τ).loc main_v0)
        = layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.Mhsa.KernelValue

end
-- ==== Proof.RefValue.lean ====
/-
  THE REFERENCE'S VALUE IS THE SPECIFICATION'S REFERENCE-ORDER FUNCTION.

  The reference computes, stage by stage: the joint projection x·Wᵀ + b with 768 columns; the split of column
  256 g + 32 h + e into (block g, head h, coordinate e) and the move of the token axis behind the head axis; the three
  blocks as queries, keys and values; the scaled scores; each row's maximum; the shifted exponentials, their row sums
  and the normalised weights; the weighted sum of the values; the heads laid side by side (column 32 h + d); the output
  projection. Each lemma below reads one stage at an index written by its coordinates and names what it holds in
  the specification's words (tokProj, score, rowMax, pexp, den, attnR, headOf, concatOf, outOf).
-/
import proofs.«127032_j4604204941406_2_alg».proof.Proof.Gen.ReferenceIdeal.Read
import proofs.«127032_j4604204941406_2_alg».proof.Proof.Spec
import Idealize.ShloMosaic.Lib.ValueIdxRank6

noncomputable section

open scoped BigOperators

namespace Cert.Mhsa.RefValue

open Idealize.ShloMosaic Idealize.ShloMosaic.ValueIdx Cert.ReferenceIdeal Cert.ReferenceIdeal.Read Cert.Mhsa.Spec

variable (x0 : (⟨S1x4x2048x256, .f32⟩ : BufTy).Contents (Elt Ideal)) (x1 : (⟨S768x256, .f32⟩ : BufTy).Contents (Elt Ideal))
  (x2 : (⟨S768, .f32⟩ : BufTy).Contents (Elt Ideal)) (x3 : (⟨S256x256, .f32⟩ : BufTy).Contents (Elt Ideal))
  (x4 : (⟨S256, .f32⟩ : BufTy).Contents (Elt Ideal))

/-! ## The joint projection -/

/-- The joint projection at token (n, m), column o: the row of x against row o of W, plus b(o). -/
theorem v3_at (a : Fin 1) (n : Fin 4) (m : Fin 2048) (o : Fin 768) :
    val_main_v3 (F := Ideal) x0 x1 x2 (ix4 a n m o)
      = (∑ c : Fin 256, x0 (ix4 a n m c) * x1 (ix2 o c)) + x2 (ix1 o) := by
  rw [val_main_v3_apply, val_main_v0_apply, val_main_v2_apply, val_main_v1_apply]
  have e1 : ∀ k : Fin 256, lidx_main_v0 (ix4 a n m o) k = ix4 a n m k := fun k => funext fun d => by
    match d with
    | ⟨0, _⟩ => rfl
    | ⟨1, _⟩ => rfl
    | ⟨2, _⟩ => rfl
    | ⟨3, _⟩ => rfl
  have e2 : ∀ k : Fin 256, ridx_main_v0 (ix4 a n m o) k = ix2 o k := fun k => funext fun d => by
    match d with
    | ⟨0, _⟩ => rfl
    | ⟨1, _⟩ => rfl
  have e3 : idx_main_v1 (idx_main_v2 (ix4 a n m o)) = ix1 o := funext fun d => by
    match d with
    | ⟨0, _⟩ => rfl
  rw [e3]
  refine congrArg (· + x2 (ix1 o)) (Finset.sum_congr rfl fun k _ => ?_)
  rw [e1, e2]

/-! ## The split into blocks and heads, and the three blocks -/

/-- Column 256 g + 32 h + e of the joint projection is entry (g, h, e) of the split. -/
theorem v4_at (a : Fin 1) (n : Fin 4) (m : Fin 2048) (g : Fin 3) (h : Fin 8) (e : Fin 32) :
    val_main_v4 (F := Ideal) x0 x1 x2 (ix6 a n m g h e)
      = val_main_v3 (F := Ideal) x0 x1 x2 (ix4 a n m (prow g h e)) := by
  unfold val_main_v4
  refine shapeCast_apply _ _ _ _ ?_
  rw [Shape.rowMajor_val_four, Shape.rowMajor_val_six]
  have ha := a.isLt; have hn := n.isLt; have hm := m.isLt; have hg := g.isLt; have hh := h.isLt; have he := e.isLt
  show ((a.val * 4 + n.val) * 2048 + m.val) * 768 + (256 * g.val + 32 * h.val + e.val)
    = ((((a.val * 4 + n.val) * 2048 + m.val) * 3 + g.val) * 8 + h.val) * 32 + e.val
  omega

/-- The token axis moved behind the head axis, the block axis in front. -/
theorem v5_at (g : Fin 3) (a : Fin 1) (n : Fin 4) (h : Fin 8) (m : Fin 2048) (e : Fin 32) :
    val_main_v5 (F := Ideal) x0 x1 x2 (ix6 g a n h m e) = val_main_v4 (F := Ideal) x0 x1 x2 (ix6 a n m g h e) := by
  rw [val_main_v5_apply]
  refine congrArg _ (funext fun d => ?_)
  match d with
  | ⟨0, _⟩ => rfl
  | ⟨1, _⟩ => rfl
  | ⟨2, _⟩ => rfl
  | ⟨3, _⟩ => rfl
  | ⟨4, _⟩ => rfl
  | ⟨5, _⟩ => rfl

/-- Block 0 (the queries). -/
theorem v6_at (b a : Fin 1) (n : Fin 4) (h : Fin 8) (m : Fin 2048) (e : Fin 32) :
    val_main_v6 (F := Ideal) x0 x1 x2 (ix6 b a n h m e) = val_main_v5 (F := Ideal) x0 x1 x2 (ix6 (0 : Fin 3) a n h m e) := by
  rw [val_main_v6_apply]
  refine congrArg _ (funext fun d => ?_)
  match d with
  | ⟨0, _⟩ => exact Fin.ext (by have hb := b.isLt; show b.val = 0; omega)
  | ⟨1, _⟩ => rfl
  | ⟨2, _⟩ => rfl
  | ⟨3, _⟩ => rfl
  | ⟨4, _⟩ => rfl
  | ⟨5, _⟩ => rfl

/-- Block 1 (the keys). -/
theorem v8_at (b a : Fin 1) (n : Fin 4) (h : Fin 8) (m : Fin 2048) (e : Fin 32) :
    val_main_v8 (F := Ideal) x0 x1 x2 (ix6 b a n h m e) = val_main_v5 (F := Ideal) x0 x1 x2 (ix6 (1 : Fin 3) a n h m e) := by
  rw [val_main_v8_apply]
  refine congrArg _ (funext fun d => ?_)
  match d with
  | ⟨0, _⟩ => exact Fin.ext (by have hb := b.isLt; show 1 + b.val = 1; omega)
  | ⟨1, _⟩ => rfl
  | ⟨2, _⟩ => rfl
  | ⟨3, _⟩ => rfl
  | ⟨4, _⟩ => rfl
  | ⟨5, _⟩ => rfl

/-- Block 2 (the values). -/
theorem v10_at (b a : Fin 1) (n : Fin 4) (h : Fin 8) (m : Fin 2048) (e : Fin 32) :
    val_main_v10 (F := Ideal) x0 x1 x2 (ix6 b a n h m e) = val_main_v5 (F := Ideal) x0 x1 x2 (ix6 (2 : Fin 3) a n h m e) := by
  rw [val_main_v10_apply]
  refine congrArg _ (funext fun d => ?_)
  match d with
  | ⟨0, _⟩ => exact Fin.ext (by have hb := b.isLt; show 2 + b.val = 2; omega)
  | ⟨1, _⟩ => rfl
  | ⟨2, _⟩ => rfl
  | ⟨3, _⟩ => rfl
  | ⟨4, _⟩ => rfl
  | ⟨5, _⟩ => rfl

/-- Dropping the block's unit axis keeps the row-major position. -/
theorem drop_unit_pos (a : Fin 1) (n : Fin 4) (h : Fin 8) (m : Fin 2048) (e : Fin 32) :
    (S1x1x4x8x2048x32.rowMajor (ix6 (0 : Fin 1) a n h m e)).val = (S1x4x8x2048x32.rowMajor (ix5 a n h m e)).val := by
  rw [Shape.rowMajor_val_six, Shape.rowMajor_val_five]
  have ha := a.isLt
  show (((((0 : Fin 1).val * 1 + a.val) * 4 + n.val) * 8 + h.val) * 2048 + m.val) * 32 + e.val
    = (((a.val * 4 + n.val) * 8 + h.val) * 2048 + m.val) * 32 + e.val
  have h0 : (0 : Fin 1).val = 0 := rfl
  rw [h0]
  omega

theorem v7_at (a : Fin 1) (n : Fin 4) (h : Fin 8) (m : Fin 2048) (e : Fin 32) :
    val_main_v7 (F := Ideal) x0 x1 x2 (ix5 a n h m e) = val_main_v6 (F := Ideal) x0 x1 x2 (ix6 (0 : Fin 1) a n h m e) := by
  unfold val_main_v7
  exact shapeCast_apply _ _ _ _ (drop_unit_pos a n h m e)

theorem v9_at (a : Fin 1) (n : Fin 4) (h : Fin 8) (m : Fin 2048) (e : Fin 32) :
    val_main_v9 (F := Ideal) x0 x1 x2 (ix5 a n h m e) = val_main_v8 (F := Ideal) x0 x1 x2 (ix6 (0 : Fin 1) a n h m e) := by
  unfold val_main_v9
  exact shapeCast_apply _ _ _ _ (drop_unit_pos a n h m e)

theorem v11_at (a : Fin 1) (n : Fin 4) (h : Fin 8) (m : Fin 2048) (e : Fin 32) :
    val_main_v11 (F := Ideal) x0 x1 x2 (ix5 a n h m e) = val_main_v10 (F := Ideal) x0 x1 x2 (ix6 (0 : Fin 1) a n h m e) := by
  unfold val_main_v11
  exact shapeCast_apply _ _ _ _ (drop_unit_pos a n h m e)

/-- The rows of sequence group n; head h's 32 rows of block g of the projection matrix, and of its bias. -/
abbrev xfOf (n : Fin 4) : Fin 2048 → Fin 256 → EReal := fun m c => x0 (ix4 (0 : Fin 1) n m c)
abbrev wOf (g : Fin 3) (h : Fin 8) : Fin 32 → Fin 256 → EReal := fun e c => x1 (ix2 (prow g h e) c)
abbrev bOf (g : Fin 3) (h : Fin 8) : Fin 32 → EReal := fun e => x2 (ix1 (prow g h e))

/-- Entry (g, n, h, m, e) of the transposed split is token m's projection onto row e of head h's slice of block g. -/
theorem v5_proj (g : Fin 3) (a : Fin 1) (n : Fin 4) (h : Fin 8) (m : Fin 2048) (e : Fin 32) :
    val_main_v5 (F := Ideal) x0 x1 x2 (ix6 g a n h m e) = tokProj (xfOf x0 n) (wOf x1 g h) (bOf x2 g h) m e := by
  obtain rfl : a = 0 := Subsingleton.elim _ _
  rw [v5_at, v4_at, v3_at]
  rfl

theorem q_at (a : Fin 1) (n : Fin 4) (h : Fin 8) (m : Fin 2048) (e : Fin 32) :
    val_main_v7 (F := Ideal) x0 x1 x2 (ix5 a n h m e) = tokProj (xfOf x0 n) (wOf x1 0 h) (bOf x2 0 h) m e := by
  rw [v7_at, v6_at, v5_proj]

theorem k_at (a : Fin 1) (n : Fin 4) (h : Fin 8) (m : Fin 2048) (e : Fin 32) :
    val_main_v9 (F := Ideal) x0 x1 x2 (ix5 a n h m e) = tokProj (xfOf x0 n) (wOf x1 1 h) (bOf x2 1 h) m e := by
  rw [v9_at, v8_at, v5_proj]

theorem v_at (a : Fin 1) (n : Fin 4) (h : Fin 8) (m : Fin 2048) (e : Fin 32) :
    val_main_v11 (F := Ideal) x0 x1 x2 (ix5 a n h m e) = tokProj (xfOf x0 n) (wOf x1 2 h) (bOf x2 2 h) m e := by
  rw [v11_at, v10_at, v5_proj]

/-! ## Scores, row maxima, weights -/

/-- The query token's row. -/
abbrev xqOf (n : Fin 4) (l : Fin 2048) : Fin 256 → EReal := fun c => x0 (ix4 (0 : Fin 1) n l c)

/-- The unscaled score of token l against token m in head h: the inner product of the query and key projections. -/
theorem v12_at (a : Fin 1) (n : Fin 4) (h : Fin 8) (l m : Fin 2048) :
    val_main_v12 (F := Ideal) x0 x1 x2 (ix5 a n h l m)
      = ∑ e : Fin 32, tokProj (xfOf x0 n) (wOf x1 0 h) (bOf x2 0 h) l e * tokProj (xfOf x0 n) (wOf x1 1 h) (bOf x2 1 h) m e := by
  rw [val_main_v12_apply]
  refine Finset.sum_congr rfl fun e _ => ?_
  have e1 : lidx_main_v12 (ix5 a n h l m) e = ix5 a n h l e := funext fun d => by
    match d with
    | ⟨0, _⟩ => rfl
    | ⟨1, _⟩ => rfl
    | ⟨2, _⟩ => rfl
    | ⟨3, _⟩ => rfl
    | ⟨4, _⟩ => rfl
  have e2 : ridx_main_v12 (ix5 a n h l m) e = ix5 a n h m e := funext fun d => by
    match d with
    | ⟨0, _⟩ => rfl
    | ⟨1, _⟩ => rfl
    | ⟨2, _⟩ => rfl
    | ⟨3, _⟩ => rfl
    | ⟨4, _⟩ => rfl
  rw [e1, e2, q_at, k_at]

/-- The scaled score. -/
theorem v14_at (a : Fin 1) (n : Fin 4) (h : Fin 8) (l m : Fin 2048) :
    val_main_v14 (F := Ideal) x0 x1 x2 (ix5 a n h l m)
      = score (xfOf x0 n) (xqOf x0 n l) (wOf x1 0 h) (wOf x1 1 h) (bOf x2 0 h) (bOf x2 1 h) m := by
  rw [val_main_v14_apply, val_main_v13_apply, val_main_cst_apply, v12_at]
  rfl

/-- The row's maximum from minus infinity. -/
theorem v15_at (a : Fin 1) (n : Fin 4) (h : Fin 8) (l : Fin 2048) :
    val_main_v15 (F := Ideal) x0 x1 x2 (ix4 a n h l)
      = rowMax (xfOf x0 n) (xqOf x0 n l) (wOf x1 0 h) (wOf x1 1 h) (bOf x2 0 h) (bOf x2 1 h) := by
  unfold val_main_v15
  refine (Host.reduce_eq_fold_single _ _ _ _ (by decide) _ _).trans ?_
  unfold rowMax
  refine congrArg (fun f => Finset.fold max negInf f (Finset.univ : Finset (Fin 2048))) (funext fun (m : Fin 2048) => ?_)
  have e : (Shape.Reduces.lift (s := S1x4x8x2048x2048) (t := S1x4x8x2048) (a := 4) (by decide) (ix4 a n h l) m) = ix5 a n h l m :=
    funext fun d => Fin.ext (by
      match d with
      | ⟨0, _⟩ => rfl
      | ⟨1, _⟩ => rfl
      | ⟨2, _⟩ => rfl
      | ⟨3, _⟩ => rfl
      | ⟨4, _⟩ => rfl)
  show val_main_v14 (F := Ideal) x0 x1 x2 (Shape.Reduces.lift (s := S1x4x8x2048x2048) (t := S1x4x8x2048) (a := 4) (by decide) (ix4 a n h l) m) = _
  rw [e, v14_at]

/-- Taking the maximum with minus infinity once more changes nothing. -/
theorem v17_at (a : Fin 1) (n : Fin 4) (h : Fin 8) (l : Fin 2048) :
    val_main_v17 (F := Ideal) x0 x1 x2 (ix4 a n h l)
      = rowMax (xfOf x0 n) (xqOf x0 n l) (wOf x1 0 h) (wOf x1 1 h) (bOf x2 0 h) (bOf x2 1 h) := by
  rw [val_main_v17_apply, val_main_v16_apply, val_main_cst_1_apply, v15_at]
  show max negInf _ = _
  refine max_eq_right ?_
  unfold rowMax
  exact (Finset.le_fold_max _).mpr (Or.inl le_rfl)

theorem v19_at (a : Fin 1) (n : Fin 4) (h : Fin 8) (l m : Fin 2048) :
    val_main_v19 (F := Ideal) x0 x1 x2 (ix5 a n h l m)
      = rowMax (xfOf x0 n) (xqOf x0 n l) (wOf x1 0 h) (wOf x1 1 h) (bOf x2 0 h) (bOf x2 1 h) := by
  rw [val_main_v19_apply, val_main_v18_apply]
  have e : idx_main_v18 (idx_main_v19 (ix5 a n h l m)) = ix4 (⟨0, Nat.one_pos⟩ : Fin 1) n h l := funext fun d => by
    match d with
    | ⟨0, _⟩ => rfl
    | ⟨1, _⟩ => rfl
    | ⟨2, _⟩ => rfl
    | ⟨3, _⟩ => rfl
  rw [e, v17_at]

/-- The shifted exponential. -/
theorem v21_at (a : Fin 1) (n : Fin 4) (h : Fin 8) (l m : Fin 2048) :
    val_main_v21 (F := Ideal) x0 x1 x2 (ix5 a n h l m)
      = pexp (xfOf x0 n) (xqOf x0 n l) (wOf x1 0 h) (wOf x1 1 h) (bOf x2 0 h) (bOf x2 1 h) m := by
  rw [val_main_v21_apply, val_main_v20_apply, v14_at, v19_at]
  rfl

/-- The row's sum of exponentials, from zero. -/
theorem v22_at (a : Fin 1) (n : Fin 4) (h : Fin 8) (l : Fin 2048) :
    val_main_v22 (F := Ideal) x0 x1 x2 (ix4 a n h l)
      = den (xfOf x0 n) (xqOf x0 n l) (wOf x1 0 h) (wOf x1 1 h) (bOf x2 0 h) (bOf x2 1 h) := by
  rw [val_main_v22_apply, val_main_cst_2_apply]
  show Ideal.ofBits .f32 0x00000000#32 + _ = _
  rw [Ideal.ofBits_zero_f32, zero_add]
  unfold den
  refine Finset.sum_congr rfl fun k _ => ?_
  have e : idx_main_v22 (ix4 a n h l) k = ix5 a n h l k := funext fun d => by
    match d with
    | ⟨0, _⟩ => rfl
    | ⟨1, _⟩ => rfl
    | ⟨2, _⟩ => rfl
    | ⟨3, _⟩ => rfl
    | ⟨4, _⟩ => rfl
  rw [e, v21_at]

theorem v24_at (a : Fin 1) (n : Fin 4) (h : Fin 8) (l m : Fin 2048) :
    val_main_v24 (F := Ideal) x0 x1 x2 (ix5 a n h l m)
      = den (xfOf x0 n) (xqOf x0 n l) (wOf x1 0 h) (wOf x1 1 h) (bOf x2 0 h) (bOf x2 1 h) := by
  rw [val_main_v24_apply, val_main_v23_apply]
  have e : idx_main_v23 (idx_main_v24 (ix5 a n h l m)) = ix4 (⟨0, Nat.one_pos⟩ : Fin 1) n h l := funext fun d => by
    match d with
    | ⟨0, _⟩ => rfl
    | ⟨1, _⟩ => rfl
    | ⟨2, _⟩ => rfl
    | ⟨3, _⟩ => rfl
  rw [e, v22_at]

/-- The normalised weight. -/
theorem v25_at (a : Fin 1) (n : Fin 4) (h : Fin 8) (l m : Fin 2048) :
    val_main_v25 (F := Ideal) x0 x1 x2 (ix5 a n h l m)
      = Ideal.div (pexp (xfOf x0 n) (xqOf x0 n l) (wOf x1 0 h) (wOf x1 1 h) (bOf x2 0 h) (bOf x2 1 h) m)
          (den (xfOf x0 n) (xqOf x0 n l) (wOf x1 0 h) (wOf x1 1 h) (bOf x2 0 h) (bOf x2 1 h)) := by
  rw [val_main_v25_apply, v21_at, v24_at]
  rfl

/-! ## The heads' outputs, side by side, and the output projection -/

/-- A head's output coordinate: the values weighted by the normalised weights. -/
theorem v26_at (a : Fin 1) (n : Fin 4) (h : Fin 8) (l : Fin 2048) (d : Fin 32) :
    val_main_v26 (F := Ideal) x0 x1 x2 (ix5 a n h l d) = headOf x0 x1 x2 attnR n h l d := by
  rw [val_main_v26_apply]
  show _ = attnR (xfOf x0 n) (xqOf x0 n l) (wOf x1 0 h) (wOf x1 1 h) (wOf x1 2 h) (bOf x2 0 h) (bOf x2 1 h) (bOf x2 2 h) d
  unfold attnR
  refine Finset.sum_congr rfl fun k _ => ?_
  have e1 : lidx_main_v26 (ix5 a n h l d) k = ix5 a n h l k := funext fun b => by
    match b with
    | ⟨0, _⟩ => rfl
    | ⟨1, _⟩ => rfl
    | ⟨2, _⟩ => rfl
    | ⟨3, _⟩ => rfl
    | ⟨4, _⟩ => rfl
  have e2 : ridx_main_v26 (ix5 a n h l d) k = ix5 a n h k d := funext fun b => by
    match b with
    | ⟨0, _⟩ => rfl
    | ⟨1, _⟩ => rfl
    | ⟨2, _⟩ => rfl
    | ⟨3, _⟩ => rfl
    | ⟨4, _⟩ => rfl
  rw [e1, e2, v25_at, v_at]

/-- The head axis moved behind the token axis. -/
theorem v27_at (a : Fin 1) (n : Fin 4) (l : Fin 2048) (h : Fin 8) (d : Fin 32) :
    val_main_v27 (F := Ideal) x0 x1 x2 (ix5 a n l h d) = headOf x0 x1 x2 attnR n h l d := by
  rw [val_main_v27_apply]
  have e : idx_main_v27 (ix5 a n l h d) = ix5 a n h l d := funext fun b => by
    match b with
    | ⟨0, _⟩ => rfl
    | ⟨1, _⟩ => rfl
    | ⟨2, _⟩ => rfl
    | ⟨3, _⟩ => rfl
    | ⟨4, _⟩ => rfl
  rw [e, v26_at]

/-- Column c of the concatenation holds head c / 32, coordinate c % 32. -/
theorem v28_at (a : Fin 1) (n : Fin 4) (l : Fin 2048) (c : Fin 256) :
    val_main_v28 (F := Ideal) x0 x1 x2 (ix4 a n l c) = concatOf (headOf x0 x1 x2 attnR) n l c := by
  rw [val_main_v28_apply]
  have ha := a.isLt; have hn := n.isLt; have hl := l.isLt; have hc := c.isLt
  have e : idx_main_v28 (ix4 a n l c)
      = ix5 (0 : Fin 1) n l (⟨c.val / 32, by omega⟩ : Fin 8) (⟨c.val % 32, Nat.mod_lt _ (by norm_num)⟩ : Fin 32) :=
    funext fun b => Fin.ext (by
      match b with
      | ⟨0, _⟩ => rfl
      | ⟨1, _⟩ =>
        show (((a.val * 4 + n.val) * 2048 + l.val) * 256 + c.val) / 524288 % 4 = n.val
        omega
      | ⟨2, _⟩ =>
        show (((a.val * 4 + n.val) * 2048 + l.val) * 256 + c.val) / 256 % 2048 = l.val
        omega
      | ⟨3, _⟩ =>
        show (((a.val * 4 + n.val) * 2048 + l.val) * 256 + c.val) / 32 % 8 = c.val / 32
        omega
      | ⟨4, _⟩ =>
        show (((a.val * 4 + n.val) * 2048 + l.val) * 256 + c.val) % 32 = c.val % 32
        omega)
  rw [e, v27_at]
  rfl

/-- The output projection of the concatenated heads, plus its bias. -/
theorem out_at (a : Fin 1) (n : Fin 4) (l : Fin 2048) (o : Fin 256) :
    val_main_v32 (F := Ideal) x0 x1 x2 x3 x4 (ix4 a n l o) = outOf x3 x4 (headOf x0 x1 x2 attnR) n l o := by
  rw [val_main_v32_apply, val_main_v29_apply, val_main_v31_apply, val_main_v30_apply]
  have e3 : idx_main_v30 (idx_main_v31 (ix4 a n l o)) = ix1 o := funext fun d => by
    match d with
    | ⟨0, _⟩ => rfl
  rw [e3]
  unfold outOf
  refine congrArg (· + x4 (ix1 o)) (Finset.sum_congr rfl fun k _ => ?_)
  have e1 : lidx_main_v29 (ix4 a n l o) k = ix4 a n l k := funext fun d => by
    match d with
    | ⟨0, _⟩ => rfl
    | ⟨1, _⟩ => rfl
    | ⟨2, _⟩ => rfl
    | ⟨3, _⟩ => rfl
  have e2 : ridx_main_v29 (ix4 a n l o) k = ix2 o k := funext fun d => by
    match d with
    | ⟨0, _⟩ => rfl
    | ⟨1, _⟩ => rfl
  rw [e1, e2, v28_at]

/-- The reference's value is the specification's reference-order layer. -/
theorem ref_eq (x0 : (⟨Cert.ReferenceIdeal.S1x4x2048x256, .f32⟩ : BufTy).Contents (Elt Ideal)) (x1 : (⟨Cert.ReferenceIdeal.S768x256, .f32⟩ : BufTy).Contents (Elt Ideal))
    (x2 : (⟨Cert.ReferenceIdeal.S768, .f32⟩ : BufTy).Contents (Elt Ideal)) (x3 : (⟨Cert.ReferenceIdeal.S256x256, .f32⟩ : BufTy).Contents (Elt Ideal)) (x4 : (⟨Cert.ReferenceIdeal.S256, .f32⟩ : BufTy).Contents (Elt Ideal)) :
    Cert.ReferenceIdeal.Read.val_main_v32 (F := Ideal) x0 x1 x2 x3 x4 = Cert.Mhsa.Spec.refOut x0 x1 x2 x3 x4 := by
  funext i
  refine (congrArg (val_main_v32 (F := Ideal) x0 x1 x2 x3 x4) (eq_ix4 i)).trans ?_
  exact out_at x0 x1 x2 x3 x4 (i 0) (i 1) (i 2) (i 3)

end Cert.Mhsa.RefValue

end
-- ==== Proof.SoftmaxLaw.lean ====
/-
  SOFTMAX-WEIGHTED AVERAGES ON THE EXTENDED REALS.

  For real scores s(m) over a nonempty finite index type, a real shift r and ARBITRARY extended-real values v(m), put
  p(m) = exp(s(m) - r) (a positive real) and L = sum over m of p(m) (a positive real). Then dividing the p-weighted sum of
  v by L equals the sum of v weighted by p(m) / L:

      (sum_m p(m) * v(m)) / L  =  sum_m (p(m) / L) * v(m).

  The quotient by the nonzero real L is the product with the nonnegative real 1 / L, and a product with a nonnegative
  real distributes over every sum of extended reals, infinities included; so no finiteness of v is used. Also: the
  running maximum, from the bottom element, of finitely many reals over a nonempty index type is a real, and a sum of
  reals read as extended reals is the real sum.
-/
import Idealize.ShloMosaic.PureOps.Ideal

noncomputable section

open scoped BigOperators

namespace Cert.Mhsa.Law

open Idealize.ShloMosaic

/-- A finite sum of reals, each read as an extended real, is the real sum read as an extended real. -/
theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- A product with a nonnegative real distributes over any finite sum of extended reals. -/
theorem sum_mul_coe_of_nonneg {ι : Type} (s : Finset ι) (a : ι → EReal) {c : ℝ} (hc : 0 ≤ c) :
    (∑ k ∈ s, a k) * (c : EReal) = ∑ k ∈ s, a k * (c : EReal) := by
  classical
  induction s using Finset.induction_on with
  | empty => simp
  | insert x s hx ih =>
    rw [Finset.sum_insert hx, Finset.sum_insert hx, ← ih]
    exact EReal.right_distrib_of_nonneg_of_ne_top (EReal.coe_nonneg.mpr hc) (EReal.coe_ne_top c) _ _

/-- The maximum, started from the bottom element, of finitely many reals over a nonempty index type is a real. -/
theorem fold_max_coe {ι : Type} [Fintype ι] [Nonempty ι] (s : ι → ℝ) :
    ∃ r : ℝ, (Finset.univ : Finset ι).fold max (⊥ : EReal) (fun m => ((s m : ℝ) : EReal)) = (r : EReal) := by
  have h1 : (Finset.univ : Finset ι).fold max (⊥ : EReal) (fun m => ((s m : ℝ) : EReal)) ≠ ⊤ :=
    ne_of_lt (by rw [Finset.fold_max_lt]; exact ⟨bot_lt_top, fun x _ => EReal.coe_lt_top _⟩)
  have h2 : (Finset.univ : Finset ι).fold max (⊥ : EReal) (fun m => ((s m : ℝ) : EReal)) ≠ ⊥ := by
    obtain ⟨m0⟩ := ‹Nonempty ι›
    have h : ((s m0 : ℝ) : EReal) ≤ (Finset.univ : Finset ι).fold max (⊥ : EReal) (fun m => ((s m : ℝ) : EReal)) := by
      rw [Finset.le_fold_max]; exact Or.inr ⟨m0, Finset.mem_univ _, le_rfl⟩
    exact ne_of_gt (lt_of_lt_of_le (EReal.bot_lt_coe _) h)
  exact ⟨_, (EReal.coe_toReal h1 h2).symm⟩

/-- The softmax law: the exp-weighted sum divided by the normaliser is the sum weighted by the normalised exponentials,
    for real scores, a real shift and arbitrary extended-real values. -/
theorem weighted_div {ι : Type} [Fintype ι] [Nonempty ι] (s : ι → ℝ) (r : ℝ) (v : ι → EReal) :
    Ideal.div (∑ m, Ideal.exp (((s m : ℝ) : EReal) - (r : EReal)) * v m) (∑ m, Ideal.exp (((s m : ℝ) : EReal) - (r : EReal)))
      = ∑ m, Ideal.div (Ideal.exp (((s m : ℝ) : EReal) - (r : EReal))) (∑ m', Ideal.exp (((s m' : ℝ) : EReal) - (r : EReal))) * v m := by
  have e : ∀ m, Ideal.exp (((s m : ℝ) : EReal) - (r : EReal)) = ((Real.exp (s m - r) : ℝ) : EReal) := fun m => by
    rw [← EReal.coe_sub]; rfl
  simp only [e]
  rw [sum_coe]
  have hpos : 0 < ∑ m, Real.exp (s m - r) := Finset.sum_pos (fun m _ => Real.exp_pos _) Finset.univ_nonempty
  simp only [Ideal.div_coe hpos.ne']
  rw [sum_mul_coe_of_nonneg _ _ (by positivity)]
  exact Finset.sum_congr rfl fun m _ => mul_right_comm _ _ _

end Cert.Mhsa.Law

end
-- ==== Proof.Bridge.lean ====
/-
  THE TWO ORDERS OF THE SOFTMAX-WEIGHTED AVERAGE AGREE ON REAL INPUTS.

  With real input rows, real query/key projection rows and real query/key biases, the query vector q and every key
  vector k(m) are real, so every scaled score s(m) = (sum_e q(e) * k(m,e)) * 2^-10 is a real, and the running maximum
  of the 2048 scores from minus infinity is a real. The shifted exponentials are then positive reals with a positive
  real sum, and dividing the weighted sum of the (arbitrary, extended-real) values by that sum equals summing the values
  against the normalised weights: a product with the nonnegative real 1 / L distributes over every sum of extended
  reals. The layer's two outputs are the same output projection of head outputs that agree coordinate by coordinate.
-/
import proofs.«127032_j4604204941406_2_alg».proof.Proof.Spec
import proofs.«127032_j4604204941406_2_alg».proof.Proof.SoftmaxLaw

noncomputable section

open scoped BigOperators

namespace Cert.Mhsa.Bridge

open Idealize.ShloMosaic Idealize.ShloMosaic.ValueIdx

/-- The score scale is a real (it is 2^-10). -/
theorem scale_real : ∃ r : ℝ, Cert.Mhsa.Spec.scale = (r : EReal) := by
  refine ⟨(2 : ℝ) ^ (-10 : Int), ?_⟩
  simp [Ideal.ofBits, Ideal.ieee, -EReal.coe_mul]; norm_num

/-- The reductions' starting value for the maximum is minus infinity. -/
theorem negInf_eq : Cert.Mhsa.Spec.negInf = (⊥ : EReal) := by
  simp [Ideal.ofBits, Ideal.ieee]

/-- A projection of real rows by real weights with a real bias is a real. -/
theorem proj_real (xr : Fin 256 → ℝ) (wr : Fin 256 → ℝ) (br : ℝ) :
    (∑ c : Fin 256, ((xr c : ℝ) : EReal) * ((wr c : ℝ) : EReal)) + ((br : ℝ) : EReal)
      = (((∑ c : Fin 256, xr c * wr c) + br : ℝ) : EReal) := by
  simp only [← EReal.coe_mul]
  rw [Cert.Mhsa.Law.sum_coe, ← EReal.coe_add]

/-- Every score is a real when the inputs, the query and key rows and their biases are. -/
theorem score_real (xf : Fin 2048 → Fin 256 → EReal) (xq : Fin 256 → EReal) (wq wk : Fin 32 → Fin 256 → EReal)
    (bq bk : Fin 32 → EReal)
    (hxf : ∀ m c, ∃ r : ℝ, xf m c = (r : EReal)) (hxq : ∀ c, ∃ r : ℝ, xq c = (r : EReal))
    (hwq : ∀ e c, ∃ r : ℝ, wq e c = (r : EReal)) (hwk : ∀ e c, ∃ r : ℝ, wk e c = (r : EReal))
    (hbq : ∀ e, ∃ r : ℝ, bq e = (r : EReal)) (hbk : ∀ e, ∃ r : ℝ, bk e = (r : EReal)) :
    ∃ s : Fin 2048 → ℝ, ∀ m, Cert.Mhsa.Spec.score xf xq wq wk bq bk m = ((s m : ℝ) : EReal) := by
  choose xfr hxfr using hxf
  choose xqr hxqr using hxq
  choose wqr hwqr using hwq
  choose wkr hwkr using hwk
  choose bqr hbqr using hbq
  choose bkr hbkr using hbk
  obtain ⟨sc, hsc⟩ := scale_real
  have hq : ∀ e, Cert.Mhsa.Spec.qvec xq wq bq e = (((∑ c : Fin 256, xqr c * wqr e c) + bqr e : ℝ) : EReal) := fun e => by
    unfold Cert.Mhsa.Spec.qvec
    simp only [hxqr, hwqr, hbqr]
    exact proj_real xqr (wqr e) (bqr e)
  have hk : ∀ m e, Cert.Mhsa.Spec.tokProj xf wk bk m e
      = (((∑ c : Fin 256, xfr m c * wkr e c) + bkr e : ℝ) : EReal) := fun m e => by
    unfold Cert.Mhsa.Spec.tokProj
    simp only [hxfr, hwkr, hbkr]
    exact proj_real (xfr m) (wkr e) (bkr e)
  refine ⟨fun m => (∑ e : Fin 32, ((∑ c : Fin 256, xqr c * wqr e c) + bqr e)
      * ((∑ c : Fin 256, xfr m c * wkr e c) + bkr e)) * sc, fun m => ?_⟩
  unfold Cert.Mhsa.Spec.score
  simp only [hq, hk, hsc, ← EReal.coe_mul]
  rw [Cert.Mhsa.Law.sum_coe, ← EReal.coe_mul]

/-- One head coordinate: the weighted sum divided once equals the sum against the normalised weights. -/
theorem attnK_eq_attnR (xf : Fin 2048 → Fin 256 → EReal) (xq : Fin 256 → EReal) (wq wk wv : Fin 32 → Fin 256 → EReal)
    (bq bk bv : Fin 32 → EReal)
    (hxf : ∀ m c, ∃ r : ℝ, xf m c = (r : EReal)) (hxq : ∀ c, ∃ r : ℝ, xq c = (r : EReal))
    (hwq : ∀ e c, ∃ r : ℝ, wq e c = (r : EReal)) (hwk : ∀ e c, ∃ r : ℝ, wk e c = (r : EReal))
    (hbq : ∀ e, ∃ r : ℝ, bq e = (r : EReal)) (hbk : ∀ e, ∃ r : ℝ, bk e = (r : EReal)) (d : Fin 32) :
    Cert.Mhsa.Spec.attnK xf xq wq wk wv bq bk bv d = Cert.Mhsa.Spec.attnR xf xq wq wk wv bq bk bv d := by
  obtain ⟨s, hs⟩ := score_real xf xq wq wk bq bk hxf hxq hwq hwk hbq hbk
  have hfun : Cert.Mhsa.Spec.score xf xq wq wk bq bk = fun m => ((s m : ℝ) : EReal) := funext hs
  obtain ⟨r, hr⟩ := Cert.Mhsa.Law.fold_max_coe s
  have hmax : Cert.Mhsa.Spec.rowMax xf xq wq wk bq bk = (r : EReal) := by
    unfold Cert.Mhsa.Spec.rowMax
    rw [negInf_eq, hfun]; exact hr
  unfold Cert.Mhsa.Spec.attnK Cert.Mhsa.Spec.attnR Cert.Mhsa.Spec.den Cert.Mhsa.Spec.pexp
  simp only [hmax, hs]
  exact Cert.Mhsa.Law.weighted_div s r (fun m => Cert.Mhsa.Spec.tokProj xf wv bv m d)

/-- The whole layer: the kernel's order of the average and the reference's give the same output. -/
theorem kerOut_eq_refOut (x : Cert.Mhsa.Spec.SX.Idx → EReal) (w : Cert.Mhsa.Spec.SW.Idx → EReal)
    (b : Cert.Mhsa.Spec.SB.Idx → EReal) (wo : Cert.Mhsa.Spec.SWo.Idx → EReal) (bo : Cert.Mhsa.Spec.SBo.Idx → EReal)
    (hx : ∀ i, ∃ r : ℝ, x i = (r : EReal)) (hw : ∀ i, ∃ r : ℝ, w i = (r : EReal))
    (hb : ∀ i, ∃ r : ℝ, b i = (r : EReal)) :
    Cert.Mhsa.Spec.kerOut x w b wo bo = Cert.Mhsa.Spec.refOut x w b wo bo := by
  have hhead : Cert.Mhsa.Spec.headOf x w b Cert.Mhsa.Spec.attnK = Cert.Mhsa.Spec.headOf x w b Cert.Mhsa.Spec.attnR := by
    funext n h l d
    unfold Cert.Mhsa.Spec.headOf
    exact attnK_eq_attnR _ _ _ _ _ _ _ _ (fun m c => hx _) (fun c => hx _) (fun e c => hw _) (fun e c => hw _)
      (fun e => hb _) (fun e => hb _) d
  unfold Cert.Mhsa.Spec.kerOut Cert.Mhsa.Spec.refOut
  rw [hhead]

end Cert.Mhsa.Bridge

end
-- ==== Proof.Finite.lean ====
/-
  THE FINITENESS PRECONDITION, READ BACK.

  The precondition is the conjunction, over the five inputs, of "every entry has absolute value strictly below plus
  infinity". An extended real x with max x (-x) < +infinity is neither infinity (for either one the maximum is
  +infinity), so it is a real. A conjunction of one-bit words that is 1 has every conjunct 1, and a reduction by
  conjunction over all axes that is 1 has every element 1. Hence every entry of the first three inputs is a real.
-/
import proofs.«127032_j4604204941406_2_alg».proof.Pre_finite_inputs
import Idealize.ShloMosaic.PureOps.Ideal
import Idealize.ShloMosaic.Lib.ReduceAll
import Idealize.ShloMosaic.Lib.ValueIdx

noncomputable section

namespace Cert.Mhsa.Finite

open Idealize.ShloMosaic

/-- The bound the entries are compared with is plus infinity. -/
theorem posInf_eq : Ideal.ofBits .f32 0x7F800000#32 = (⊤ : EReal) := by
  simp [Ideal.ofBits, Ideal.ieee]

/-- An extended real whose absolute value is strictly below plus infinity is a real. -/
theorem real_of_abs_lt (x : EReal)
    (h : Ideal.cmp .olt (max x (-x)) (Ideal.ofBits .f32 0x7F800000#32) = 1#1) : ∃ r : ℝ, x = (r : EReal) := by
  rw [posInf_eq] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- One conjunct of the precondition: if the conjunction over all entries of "absolute value below plus infinity"
    is 1, every entry is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
        (cmpf (F := Ideal) .olt (Host.absf x)
          (broadcastInDim s ![] hb (constant (F := Ideal) Cert.Pre_finite_inputs.S_ .f32 0x7F800000#32)))
        init hr hu j = 1#1) (i : s.Idx) : ∃ r : ℝ, x i = (r : EReal) := by
  have h := Host.reduce_andi_all _ init hr hu j e i
  exact real_of_abs_lt (x i) h

/-- The precondition gives: every entry of the first three inputs is a real. -/
theorem real_of_pre [Cert.Pre_finite_inputs.Facts]
    (x0 : (⟨Cert.Pre_finite_inputs.S1x4x2048x256, .f32⟩ : BufTy).Contents (Elt Ideal))
    (x1 : (⟨Cert.Pre_finite_inputs.S768x256, .f32⟩ : BufTy).Contents (Elt Ideal))
    (x2 : (⟨Cert.Pre_finite_inputs.S768, .f32⟩ : BufTy).Contents (Elt Ideal))
    (x3 : (⟨Cert.Pre_finite_inputs.S256x256, .f32⟩ : BufTy).Contents (Elt Ideal))
    (x4 : (⟨Cert.Pre_finite_inputs.S256, .f32⟩ : BufTy).Contents (Elt Ideal))
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn, Cert.Pre_finite_inputs.fn_part1, andi] at h0
  obtain ⟨h0123, -⟩ := IntOp.andi_eq_one.1 h0
  obtain ⟨h012, -⟩ := IntOp.andi_eq_one.1 h0123
  obtain ⟨h01, hx2⟩ := IntOp.andi_eq_one.1 h012
  obtain ⟨hx0, hx1⟩ := IntOp.andi_eq_one.1 h01
  exact ⟨all_real x0 _ _ _ _ _ hx0, all_real x1 _ _ _ _ _ hx1, all_real x2 _ _ _ _ _ hx2⟩

end Cert.Mhsa.Finite

end
-- ==== Proof.lean ====
/-
  A fused multi-head self-attention kernel against its reference, over the extended reals.

  Both programs compute, for each of four sequence groups of 2048 tokens with 256 features: the query, key and value
  projections of every token (a 768 x 256 matrix and a bias), split into eight heads of 32 coordinates; per head the
  scores q . k scaled by 2^-10, their softmax along the keys (shifted by the row maximum), and the softmax-weighted
  average of the values; the heads side by side, projected by a 256 x 256 matrix with a bias.
  The kernel takes one sequence group per grid point, builds each head's output in four tiles of 512 query rows, and
  divides the exp-weighted sum of the values once by the sum of the weights; the reference normalises the weights first
  and sums afterwards. With finite inputs every score is a real, the weights are positive reals with a positive real
  sum L, and the quotient by L is the product with the nonnegative real 1 / L, which distributes over any sum of
  extended reals: the two orders agree (the values themselves may be any extended reals). Everything else — the order
  and tiling of the sums, the changes of float format, the kernel's blocks and tiles — is the same function index by
  index.
  The three frames: the word-level kernel's and the idealized kernel's from the frame run (every weakly fair execution
  terminates, nothing faults, the argument arrays end unchanged); the reference's from its run with the result dropped.
  The idealization rewrote nothing, so the preserved-by-idealization conjunct is trivial.
-/
import proofs.«127032_j4604204941406_2_alg».proof.Defs
import proofs.«127032_j4604204941406_2_alg».proof.Proof.Gen.Kernel
import proofs.«127032_j4604204941406_2_alg».proof.Proof.Gen.KernelIdeal
import proofs.«127032_j4604204941406_2_alg».proof.Proof.Gen.ReferenceIdeal
import proofs.«127032_j4604204941406_2_alg».proof.Proof.Gen.Pre_finite_inputs
import proofs.«127032_j4604204941406_2_alg».proof.Proof.FrameK
import proofs.«127032_j4604204941406_2_alg».proof.Proof.KernelValue
import proofs.«127032_j4604204941406_2_alg».proof.Proof.RefValue
import proofs.«127032_j4604204941406_2_alg».proof.Proof.Bridge
import proofs.«127032_j4604204941406_2_alg».proof.Proof.Finite
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.GenP.frame m ρ

theorem frame_pi : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both idealized programs end with the layer function of the kernel's
    argument arrays: the kernel by its value run; the reference by its run, read stage by stage as the layer with the
    weights normalised first, which on finite inputs is the layer with the one division last. -/
theorem algebraic : Cert.algebraic_KernelIdeal_ReferenceIdeal := by
  intro m ρ m' ρ' hpre hagree
  refine ⟨fun c => Cert.Mhsa.KernelValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Mhsa.KernelValue.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v32_eq, Cert.Mhsa.RefValue.ref_eq,
    (hagree c).1, (hagree c).2.1, (hagree c).2.2.1, (hagree c).2.2.2.1, (hagree c).2.2.2.2]
  obtain ⟨hx, hw, hb⟩ := Cert.Mhsa.Finite.real_of_pre _ _ _ _ _ (hpre c)
  exact (Cert.Mhsa.Bridge.kerOut_eq_refOut _ _ _ _ _ hx hw hb).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
